-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S160000 : Shape := ⟨1, ![160000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x128 : Shape := ⟨2, ![256, 128]⟩
abbrev S128 : Shape := ⟨1, ![128]⟩
abbrev S128x128 : Shape := ⟨2, ![128, 128]⟩
abbrev S256x16 : Shape := ⟨2, ![256, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S160000 : S_.BroadcastsInDim S160000 (![] : Fin 0 → Fin S160000.rank)
  reducesTo_S160000_S_d0 : S160000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S256x16 .f32) (main_arg15 : FVec F S16 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x16 .f32 := Host.absf main_arg14
  let main_cst_22 : FVec F S_ .f32 := constant S_ .f32 0x7F800000#32
  let main_v60 : FVec F S256x16 .f32 := broadcastInDim S256x16 ![] bcast_S_S256x16 main_cst_22
  let main_v61 : IVec S256x16 1 := cmpf .olt main_v59 main_v60
  let main_c_23 : IVec S_ 1 := constantI S_ 1 1#1
  let main_v62 : IVec S_ 1 := (fun x v => Host.reduce IntOp.andi x v reducesTo_S256x16_S_d0_1 h_S_) main_v61 main_c_23
  let main_v63 : IVec S_ 1 := andi main_v58 main_v62
  let main_v64 : FVec F S16 .f32 := Host.absf main_arg15
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg9 : FVec F S256 .f32) (main_arg10 : FVec F S256x128 .f32) (main_arg11 : FVec F S128 .f32) (main_arg12 : FVec F S128x128 .f32) (main_arg13 : FVec F S128 .f32) (main_arg14 : FVec F S256x16 .f32) (main_arg15 : FVec F S16 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S256x512 .f32) (main_arg7 : FVec F S512 .f32) (main_arg8 : FVec F S512x256 .f32) (main_arg9 : FVec F S256 .f32) (main_arg10 : FVec F S256x128 .f32) (main_arg11 : FVec F S128 .f32) (main_arg12 : FVec F S128x128 .f32) (main_arg13 : FVec F S128 .f32) (main_arg14 : FVec F S256x16 .f32) (main_arg15 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg6
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg8
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S10000x128 .f32) (main_arg1 : FVec F S160000 .f32) (main_arg2 : IVec S160000 32) (main_arg3 : IVec S160000 32) (main_arg4 : FVec F S128x256 .f32) (main_arg5 : FVec F S256 .f32) (main_arg6 : FVec F S256x512 .f32) (main_arg7 : FVec F S512 .f32) (main_arg8 : FVec F S512x256 .f32) (main_arg9 : FVec F S256 .f32) (main_arg10 : FVec F S256x128 .f32) (main_arg11 : FVec F S128 .f32) (main_arg12 : FVec F S128x128 .f32) (main_arg13 : FVec F S128 .f32) (main_arg14 : FVec F S256x16 .f32) (main_arg15 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S160000 .f32 := Host.absf main_arg1
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_v13 main_v16
-- ==== Kernel.lean ====
abbrev S10000x128 : Shape := ⟨2, ![10000, 128]⟩
abbrev S160000 : Shape := ⟨1, ![160000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x128 : Shape := ⟨2, ![256, 128]⟩
abbrev S128 : Shape := ⟨1, ![128]⟩
abbrev S128x128 : Shape := ⟨2, ![128, 128]⟩
abbrev S256x16 : Shape := ⟨2, ![256, 16]⟩
abbrev S16 : Shape := ⟨1, ![16]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S1x256 : Shape := ⟨2, ![1, 256]⟩
abbrev S10000x256 : Shape := ⟨2, ![10000, 256]⟩
abbrev S1000x128 : Shape := ⟨2, ![1000, 128]⟩
abbrev S1000x256 : Shape := ⟨2, ![1000, 256]⟩
abbrev S160000x256 : Shape := ⟨2, ![160000, 256]⟩
abbrev S1x512 : Shape := ⟨2, ![1, 512]⟩
abbrev S10000x512 : Shape := ⟨2, ![10000, 512]⟩
abbrev S1000x512 : Shape := ⟨2, ![1000, 512]⟩
abbrev S1000x1 : Shape := ⟨2, ![1000, 1]⟩
abbrev S160000x128 : Shape := ⟨2, ![160000, 128]⟩
abbrev S1x128 : Shape := ⟨2, ![1, 128]⟩
abbrev S128x16 : Shape := ⟨2, ![128, 16]⟩
abbrev S1x16 : Shape := ⟨2, ![1, 16]⟩
abbrev S160000x16 : Shape := ⟨2, ![160000, 16]⟩
abbrev S8000x128 : Shape := ⟨2, ![8000, 128]⟩
abbrev S8000x16 : Shape := ⟨2, ![8000, 16]⟩

abbrev nBuf : Space → Nat
  | .hbm => 161
  | .vmem => 63
  | .smem => 0
  | _ => 0

abbrev hbmTy0_0 (i : Nat) : BufTy := match i % 128 with
  | 0 => ⟨S10000x128, .f32⟩
  | 1 => ⟨S160000, .f32⟩
  | 2 => ⟨S160000, .i32⟩
  | 3 => ⟨S160000, .i32⟩
  | 4 => ⟨S128x256, .f32⟩
  | 5 => ⟨S256, .f32⟩
  | 6 => ⟨S256x512, .f32⟩
  | 7 => ⟨S512, .f32⟩
  | 8 => ⟨S512x256, .f32⟩
  | 9 => ⟨S256, .f32⟩
  | 10 => ⟨S256x128, .f32⟩
  | 11 => ⟨S128, .f32⟩
  | 12 => ⟨S128x128, .f32⟩
  | 13 => ⟨S128, .f32⟩
  | 14 => ⟨S256x16, .f32⟩
  | 15 => ⟨S16, .f32⟩
  | 16 => ⟨S_, .f32⟩
  | 17 => ⟨S10000, .f32⟩
  | 18 => ⟨S160000x1, .i32⟩
  | 19 => ⟨S10000, .f32⟩
  | 20 => ⟨S_, .f32⟩
  | 21 => ⟨S10000, .f32⟩
  | 22 => ⟨S10000, .f32⟩
  | 23 => ⟨S_, .f32⟩
  | 24 => ⟨S10000, .f32⟩
  | 25 => ⟨S160000x1, .i32⟩
  | 26 => ⟨S10000, .f32⟩
  | 27 => ⟨S_, .f32⟩
  | 28 => ⟨S10000, .f32⟩
  | 29 => ⟨S10000, .f32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S160000, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000, .f32⟩
  | 48 => ⟨S160000, .f32⟩
  | 49 => ⟨S160000, .f32⟩
  | 50 => ⟨S160000, .f32⟩
  | 51 => ⟨S_, .f32⟩
  | 52 => ⟨S160000, .f32⟩
  | 53 => ⟨S_, .f32⟩
  | 54 => ⟨S10000, .f32⟩
  | 55 => ⟨S160000x1, .i32⟩
  | 56 => ⟨S10000, .f32⟩
  | 57 => ⟨S_, .f32⟩
  | 58 => ⟨S10000, .f32⟩
  | 59 => ⟨S10000, .f32⟩
  | 60 => ⟨S10000, .f32⟩
  | 61 => ⟨S10000x1, .f32⟩
  | 62 => ⟨S_, .f32⟩
  | 63 => ⟨S10000, .f32⟩
  | 64 => ⟨S160000x1, .i32⟩
  | 65 => ⟨S10000, .f32⟩
  | 66 => ⟨S_, .f32⟩
  | 67 => ⟨S10000, .f32⟩
  | 68 => ⟨S10000, .f32⟩
  | 69 => ⟨S10000, .f32⟩
  | 70 => ⟨S10000x1, .f32⟩
  | 71 => ⟨S1x256, .f32⟩
  | 72 => ⟨S10000x256, .f32⟩
  | 73 => ⟨S160000x1, .f32⟩
  | 74 => ⟨S_, .i32⟩
  | 75 => ⟨S160000, .i32⟩
  | 76 => ⟨S160000, .i1⟩
  | 77 => ⟨S_, .i32⟩
  | 78 => ⟨S160000, .i32⟩
  | 79 => ⟨S160000, .i32⟩
  | 80 => ⟨S160000, .i32⟩
  | 81 => ⟨S160000x1, .i32⟩
  | 82 => ⟨S160000x256, .f32⟩
  | 83 => ⟨S160000x256, .f32⟩
  | 84 => ⟨S160000x256, .f32⟩
  | 85 => ⟨S_, .f32⟩
  | 86 => ⟨S10000x256, .f32⟩
  | 87 => ⟨S160000x1, .i32⟩
  | 88 => ⟨S10000x256, .f32⟩
  | 89 => ⟨S1x512, .f32⟩
  | 90 => ⟨S10000x512, .f32⟩
  | 91 => ⟨S10000x256, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x256, .f32⟩
  | 101 => ⟨S_, .f32⟩
  | 102 => ⟨S10000x256, .f32⟩
  | 103 => ⟨S160000x1, .i32⟩
  | 104 => ⟨S10000x256, .f32⟩
  | 105 => ⟨S1x256, .f32⟩
  | 106 => ⟨S10000x256, .f32⟩
  | 107 => ⟨S10000x128, .f32⟩
  | 108 => ⟨S_, .i32⟩
  | 109 => ⟨S160000, .i32⟩
  | 110 => ⟨S160000, .i1⟩
  | 111 => ⟨S_, .i32⟩
  | 112 => ⟨S160000, .i32⟩
  | 113 => ⟨S160000, .i32⟩
  | 114 => ⟨S160000, .i32⟩
  | 115 => ⟨S160000x1, .i32⟩
  | 116 => ⟨S160000x128, .f32⟩
  | 117 => ⟨S_, .f32⟩
  | 118 => ⟨S10000x128, .f32⟩
  | 119 => ⟨S160000x1, .i32⟩
  | 120 => ⟨S10000x128, .f32⟩
  | 121 => ⟨S1x128, .f32⟩
  | 122 => ⟨S10000x128, .f32⟩
  | 123 => ⟨S10000x128, .f32⟩
  | 124 => ⟨S_, .i32⟩
  | 125 => ⟨S160000, .i32⟩
  | 126 => ⟨S160000, .i1⟩
  | 127 => ⟨S_, .i32⟩
  | _ => ⟨S10000x128, .f32⟩

abbrev hbmTy0_1 (i : Nat) : BufTy := match i % 128 with
  | 0 => ⟨S160000, .i32⟩
  | 1 => ⟨S160000, .i32⟩
  | 2 => ⟨S160000, .i32⟩
  | 3 => ⟨S160000x1, .i32⟩
  | 4 => ⟨S160000x128, .f32⟩
  | 5 => ⟨S_, .f32⟩
  | 6 => ⟨S10000x128, .f32⟩
  | 7 => ⟨S160000x1, .i32⟩
  | 8 => ⟨S10000x128, .f32⟩
  | 9 => ⟨S1x128, .f32⟩
  | 10 => ⟨S10000x128, .f32⟩
  | 11 => ⟨S_, .i32⟩
  | 12 => ⟨S160000, .i32⟩
  | 13 => ⟨S160000, .i1⟩
  | 14 => ⟨S_, .i32⟩
  | 15 => ⟨S160000, .i32⟩
  | 16 => ⟨S160000, .i32⟩
  | 17 => ⟨S160000, .i32⟩
  | 18 => ⟨S160000x1, .i32⟩
  | 19 => ⟨S160000x128, .f32⟩
  | 20 => ⟨S_, .i32⟩
  | 21 => ⟨S160000, .i32⟩
  | 22 => ⟨S160000, .i1⟩
  | 23 => ⟨S_, .i32⟩
  | 24 => ⟨S160000, .i32⟩
  | 25 => ⟨S160000, .i32⟩
  | 26 => ⟨S160000, .i32⟩
  | 27 => ⟨S160000x1, .i32⟩
  | 28 => ⟨S160000x128, .f32⟩
  | 29 => ⟨S128x16, .f32⟩
  | 30 => ⟨S128x16, .f32⟩
  | 31 => ⟨S1x16, .f32⟩
  | 32 => ⟨S160000x16, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S256x512, .f32⟩
  | .local _ .vmem, ⟨9, _⟩ => ⟨S1x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1000x1, .f32⟩
  | .local _ .vmem, ⟨15, _⟩ => ⟨S1000x1, .f32⟩
  | .local _ .vmem, ⟨16, _⟩ => ⟨S512x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x1, .f32⟩
  | .local _ .vmem, ⟨22, _⟩ => ⟨S1000x1, .f32⟩
  | .local _ .vmem, ⟨23, _⟩ => ⟨S1x256, .f32⟩
  | .local _ .vmem, ⟨24, _⟩ => ⟨S1000x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x1, .f32⟩
  | .local _ .vmem, ⟨29, _⟩ => ⟨S1000x1, .f32⟩
  | .local _ .vmem, ⟨30, _⟩ => ⟨S256x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S1000x128, .f32⟩
  | .local _ .vmem, ⟨35, _⟩ => ⟨S1000x1, .f32⟩
  | .local _ .vmem, ⟨36, _⟩ => ⟨S1000x1, .f32⟩
  | .local _ .vmem, ⟨37, _⟩ => ⟨S1x128, .f32⟩
  | .local _ .vmem, ⟨38, _⟩ => ⟨S1000x128, .f32⟩
  | .local _ .vmem, ⟨39, _⟩ => ⟨S1000x128, .f32⟩
  | .local _ .vmem, ⟨40, _⟩ => ⟨S1000x128, .f32⟩
  | .local _ .vmem, ⟨41, _⟩ => ⟨S1000x128, .f32⟩
  | .local _ .vmem, ⟨42, _⟩ => ⟨S1000x1, .f32⟩
  | .local _ .vmem, ⟨43, _⟩ => ⟨S1000x1, .f32⟩
  | .local _ .vmem, ⟨44, _⟩ => ⟨S128x128, .f32⟩
  | .local _ .vmem, ⟨45, _⟩ => ⟨S1000x128, .f32⟩
  | .local _ .vmem, ⟨46, _⟩ => ⟨S1000x128, .f32⟩
  | .local _ .vmem, ⟨47, _⟩ => ⟨S1000x128, .f32⟩
  | .local _ .vmem, ⟨48, _⟩ => ⟨S1000x128, .f32⟩
  | .local _ .vmem, ⟨49, _⟩ => ⟨S1000x1, .f32⟩
  | .local _ .vmem, ⟨50, _⟩ => ⟨S1000x1, .f32⟩
  | .local _ .vmem, ⟨51, _⟩ => ⟨S1x128, .f32⟩
  | .local _ .vmem, ⟨52, _⟩ => ⟨S1000x128, .f32⟩
  | .local _ .vmem, ⟨53, _⟩ => ⟨S1000x128, .f32⟩
  | .local _ .vmem, ⟨54, _⟩ => ⟨S8000x128, .f32⟩
  | .local _ .vmem, ⟨55, _⟩ => ⟨S8000x128, .f32⟩
  | .local _ .vmem, ⟨56, _⟩ => ⟨S8000x128, .f32⟩
  | .local _ .vmem, ⟨57, _⟩ => ⟨S8000x128, .f32⟩
  | .local _ .vmem, ⟨58, _⟩ => ⟨S128x16, .f32⟩
  | .local _ .vmem, ⟨59, _⟩ => ⟨S128x16, .f32⟩
  | .local _ .vmem, ⟨60, _⟩ => ⟨S1x16, .f32⟩
  | .local _ .vmem, ⟨61, _⟩ => ⟨S8000x16, .f32⟩
  | .local _ .vmem, ⟨62, _⟩ => ⟨S8000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_v45 : Ref sig .tc := ⟨.hbm, 75, rfl⟩
abbrev main_v46 : Ref sig .tc := ⟨.hbm, 76, rfl⟩
abbrev main_c_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_14 : Ref sig .tc := ⟨.hbm, 92, rfl⟩
abbrev main_v60 : Ref sig .tc := ⟨.hbm, 93, rfl⟩
abbrev main_v61 : Ref sig .tc := ⟨.hbm, 94, rfl⟩
abbrev main_c_15 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_16 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_17 : Ref sig .tc := ⟨.hbm, 108, rfl⟩
abbrev main_v73 : Ref sig .tc := ⟨.hbm, 109, rfl⟩
abbrev main_v74 : Ref sig .tc := ⟨.hbm, 110, rfl⟩
abbrev main_c_18 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_19 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_20 : Ref sig .tc := ⟨.hbm, 124, rfl⟩
abbrev main_v86 : Ref sig .tc := ⟨.hbm, 125, rfl⟩
abbrev main_v87 : Ref sig .tc := ⟨.hbm, 126, rfl⟩
abbrev main_c_21 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_22 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_23 : Ref sig .tc := ⟨.hbm, 139, rfl⟩
abbrev main_v98 : Ref sig .tc := ⟨.hbm, 140, rfl⟩
abbrev main_v99 : Ref sig .tc := ⟨.hbm, 141, rfl⟩
abbrev main_c_24 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c_25 : Ref sig .tc := ⟨.hbm, 148, rfl⟩
abbrev main_v105 : Ref sig .tc := ⟨.hbm, 149, rfl⟩
abbrev main_v106 : Ref sig .tc := ⟨.hbm, 150, rfl⟩
abbrev main_c_26 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg3_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg3_0 : Ref sig .tc := ⟨.vmem, 59, rfl⟩
abbrev cc8_stg4_0 : Ref sig .tc := ⟨.vmem, 60, rfl⟩
abbrev cc8_stg5_0 : Ref sig .tc := ⟨.vmem, 61, rfl⟩
abbrev cc8_stg5_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem3_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem3_0 : DmaSem sig := 59
abbrev cc8_sem4_0 : DmaSem sig := 60
abbrev cc8_sem5_0 : DmaSem sig := 61
abbrev cc8_sem5_1 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x16 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S8000x16 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  bcast_S_S10000 : S_.BroadcastsInDim S10000 (![] : Fin 0 → Fin S10000.rank)
  bcast_S160000_S160000x1_0 : S160000.BroadcastsInDim S160000x1 (![0] : Fin 1 → Fin S160000x1.rank)
  bcast_S_S160000 : S_.BroadcastsInDim S160000 (![] : Fin 0 → Fin S160000.rank)
  bcast_S10000_S10000x1_0 : S10000.BroadcastsInDim S10000x1 (![0] : Fin 1 → Fin S10000x1.rank)
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  shapeCasts_S512_S1x512 : S512.ShapeCasts S1x512
  shapeCasts_S1000x256_S1000x256 : S1000x256.ShapeCasts S1000x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S512x256_S512x256_0_0 : ∀ a, (![0, 0] : Fin 2 → Nat) a + S512x256.size a ≤ S512x256.size a
  h_S512x256 : 0 < S512x256.numel
  broadcasts_S1000x1_S1000x256 : S1000x1.Broadcasts S1000x256
  inb_S256x128_S256x128_0_0 : ∀ a, (![0, 0] : Fin 2 → Nat) a + S256x128.size a ≤ S256x128.size a
  h_S256x128 : 0 < S256x128.numel
  bcast_S_S10000x128 : S_.BroadcastsInDim S10000x128 (![] : Fin 0 → Fin S10000x128.rank)
  shapeCasts_S128_S1x128 : S128.ShapeCasts S1x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1000x1_S1000x128 : S1000x1.Broadcasts S1000x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  slices_S256x16_S128x16_0_0 : S256x16.Slices ![0, 0] S128x16
  slices_S256x16_S128x16_128_0 : S256x16.Slices ![128, 0] S128x16
  shapeCasts_S16_S1x16 : S16.ShapeCasts S1x16
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S8000x16_S8000x16_0_0 : ∀ a, (![0, 0] : Fin 2 → Nat) a + S8000x16.size a ≤ S8000x16.size a
  h_S8000x16 : 0 < S8000x16.numel
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S1000x128_S128x256_S1000x256_1_0_0_1_n_n_wf : DotDims.WF S1000x128 S128x256 S1000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S1000x256_S256x512_S1000x512_1_0_0_1_n_n_wf : DotDims.WF S1000x256 S256x512 S1000x512 [1] [0] [0] [1] [] []
  dot_S1000x512_S512x256_S1000x256_1_0_0_1_n_n_wf : DotDims.WF S1000x512 S512x256 S1000x256 [1] [0] [0] [1] [] []
  dot_S1000x256_S256x128_S1000x128_1_0_0_1_n_n_wf : DotDims.WF S1000x256 S256x128 S1000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S1000x128_S128x128_S1000x128_1_0_0_1_n_n_wf : DotDims.WF S1000x128 S128x128 S1000x128 [1] [0] [0] [1] [] []
  dot_S8000x128_S128x16_S8000x16_1_0_0_1_n_n_wf : DotDims.WF S8000x128 S128x16 S8000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S10000x512.size a
  hwx1_3 : ∀ i : grid1.Coords, EltTy.bits .f32 = 32 ∨ (Rect.block (s := S10000x512) S1000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S10000x1.size a
  hwx2_1 : ∀ i : grid2.Coords, EltTy.bits .f32 = 32 ∨ (Rect.block (s := S10000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S512x256.size a
  hwx2_2 : ∀ i : grid2.Coords, EltTy.bits .f32 = 32 ∨ (Rect.block (s := S512x256) S512x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S10000x256.size a
  hwx2_3 : ∀ i : grid2.Coords, EltTy.bits .f32 = 32 ∨ (Rect.block (s := S10000x256) S1000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S10000x256.size a
  hwx3_0 : ∀ i : grid3.Coords, EltTy.bits .f32 = 32 ∨ (Rect.block (s := S10000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S10000x1.size a
  hwx3_1 : ∀ i : grid3.Coords, EltTy.bits .f32 = 32 ∨ (Rect.block (s := S10000x1) S1000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x256.size a ≤ S10000x256.size a
  hwx3_3 : ∀ i : grid3.Coords, EltTy.bits .f32 = 32 ∨ (Rect.block (s := S10000x256) S1000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S10000x256.size a
  hwx4_0 : ∀ i : grid4.Coords, EltTy.bits .f32 = 32 ∨ (Rect.block (s := S10000x256) S1000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x1.size a ≤ S10000x1.size a
  hwx4_1 : ∀ i : grid4.Coords, EltTy.bits .f32 = 32 ∨ (Rect.block (s := S10000x1) S1000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S10000x128.size a
  hwx4_3 : ∀ i : grid4.Coords, EltTy.bits .f32 = 32 ∨ (Rect.block (s := S10000x128) S1000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S10000x128.size a
  hwx5_0 : ∀ i : grid5.Coords, EltTy.bits .f32 = 32 ∨ (Rect.block (s := S10000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x1.size a ≤ S10000x1.size a
  hwx5_1 : ∀ i : grid5.Coords, EltTy.bits .f32 = 32 ∨ (Rect.block (s := S10000x1) S1000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x128.size a ≤ S10000x128.size a
  hwx5_3 : ∀ i : grid5.Coords, EltTy.bits .f32 = 32 ∨ (Rect.block (s := S10000x128) S1000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S10000x128.size a
  hwx6_0 : ∀ i : grid6.Coords, EltTy.bits .f32 = 32 ∨ (Rect.block (s := S10000x128) S1000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x1.size a ≤ S10000x1.size a
  hwx6_1 : ∀ i : grid6.Coords, EltTy.bits .f32 = 32 ∨ (Rect.block (s := S10000x1) S1000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x128.size a ≤ S10000x128.size a
  hwx6_3 : ∀ i : grid6.Coords, EltTy.bits .f32 = 32 ∨ (Rect.block (s := S10000x128) S1000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S10000x128.size a
  hwx7_0 : ∀ i : grid7.Coords, EltTy.bits .f32 = 32 ∨ (Rect.block (s := S10000x128) S1000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x1.size a ≤ S10000x1.size a
  hwx7_1 : ∀ i : grid7.Coords, EltTy.bits .f32 = 32 ∨ (Rect.block (s := S10000x1) S1000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x128.size a ≤ S10000x128.size a
  hwx7_3 : ∀ i : grid7.Coords, EltTy.bits .f32 = 32 ∨ (Rect.block (s := S10000x128) S1000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x128.size a ≤ S160000x128.size a
  hwx8_0 : ∀ i : grid8.Coords, EltTy.bits .f32 = 32 ∨ (Rect.block (s := S160000x128) S8000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x128.size a ≤ S160000x128.size a
  hwx8_1 : ∀ i : grid8.Coords, EltTy.bits .f32 = 32 ∨ (Rect.block (s := S160000x128) S8000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x16.size a ≤ S128x16.size a
  hwx8_2 : ∀ i : grid8.Coords, EltTy.bits .f32 = 32 ∨ (Rect.block (s := S128x16) S128x16.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x16.size a ≤ S128x16.size a
  hwx8_3 : ∀ i : grid8.Coords, EltTy.bits .f32 = 32 ∨ (Rect.block (s := S128x16) S128x16.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x16.size a ≤ S1x16.size a
  hwx8_4 : ∀ i : grid8.Coords, EltTy.bits .f32 = 32 ∨ (Rect.block (s := S1x16) S1x16.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S8000x16.size a ≤ S160000x16.size a
  hwx8_5 : ∀ i : grid8.Coords, EltTy.bits .f32 = 32 ∨ (Rect.block (s := S160000x16) S8000x16.size (cc8_transform_5 i) (hinb8_5 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S8000x128_S128x16_S8000x16_1_0_0_1_n_n : DotDims S8000x128 S128x16 S8000x16 where
  lhsContracting := [1]
  rhsContracting := [0]
  lhsNonContracting := [0]
  rhsNonContracting := [1]
  lhsBatch := []
  rhsBatch := []
  wf := dot_S8000x128_S128x16_S8000x16_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S512x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v69) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S1000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v82) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S1000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v84) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v34) S1000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg12) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85) S1000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v95) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v41) S1000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v96) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97) S1000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v104) S8000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v111) S8000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v112) S128x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v113) S128x16.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v114) S1x16.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v115) S8000x16.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S10000x128 : Shape := ⟨2, ![10000, 128]⟩
abbrev S160000 : Shape := ⟨1, ![160000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x128 : Shape := ⟨2, ![256, 128]⟩
abbrev S128 : Shape := ⟨1, ![128]⟩
abbrev S128x128 : Shape := ⟨2, ![128, 128]⟩
abbrev S256x16 : Shape := ⟨2, ![256, 16]⟩
abbrev S16 : Shape := ⟨1, ![16]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S10000x256 : Shape := ⟨2, ![10000, 256]⟩
abbrev S1x256 : Shape := ⟨2, ![1, 256]⟩
abbrev S160000x256 : Shape := ⟨2, ![160000, 256]⟩
abbrev S10000x512 : Shape := ⟨2, ![10000, 512]⟩
abbrev S1x512 : Shape := ⟨2, ![1, 512]⟩
abbrev S160000x128 : Shape := ⟨2, ![160000, 128]⟩
abbrev S1x128 : Shape := ⟨2, ![1, 128]⟩
abbrev S128x16 : Shape := ⟨2, ![128, 16]⟩
abbrev S160000x16 : Shape := ⟨2, ![160000, 16]⟩
abbrev S1x16 : Shape := ⟨2, ![1, 16]⟩

abbrev nBuf : Space → Nat
  | .hbm => 196
  | .vmem => 0
  | .smem => 0
  | _ => 0

abbrev hbmTy0_0 (i : Nat) : BufTy := match i % 128 with
  | 0 => ⟨S10000x128, .f32⟩
  | 1 => ⟨S160000, .f32⟩
  | 2 => ⟨S160000, .i32⟩
  | 3 => ⟨S160000, .i32⟩
  | 4 => ⟨S128x256, .f32⟩
  | 5 => ⟨S256, .f32⟩
  | 6 => ⟨S256x512, .f32⟩
  | 7 => ⟨S512, .f32⟩
  | 8 => ⟨S512x256, .f32⟩
  | 9 => ⟨S256, .f32⟩
  | 10 => ⟨S256x128, .f32⟩
  | 11 => ⟨S128, .f32⟩
  | 12 => ⟨S128x128, .f32⟩
  | 13 => ⟨S128, .f32⟩
  | 14 => ⟨S256x16, .f32⟩
  | 15 => ⟨S16, .f32⟩
  | 16 => ⟨S_, .f32⟩
  | 17 => ⟨S10000, .f32⟩
  | 18 => ⟨S160000x1, .i32⟩
  | 19 => ⟨S10000, .f32⟩
  | 20 => ⟨S_, .f32⟩
  | 21 => ⟨S10000, .f32⟩
  | 22 => ⟨S10000, .f32⟩
  | 23 => ⟨S_, .f32⟩
  | 24 => ⟨S10000, .f32⟩
  | 25 => ⟨S160000x1, .i32⟩
  | 26 => ⟨S10000, .f32⟩
  | 27 => ⟨S_, .f32⟩
  | 28 => ⟨S10000, .f32⟩
  | 29 => ⟨S10000, .f32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S160000, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000, .f32⟩
  | 48 => ⟨S160000, .f32⟩
  | 49 => ⟨S160000, .f32⟩
  | 50 => ⟨S160000, .f32⟩
  | 51 => ⟨S_, .f32⟩
  | 52 => ⟨S160000, .f32⟩
  | 53 => ⟨S_, .f32⟩
  | 54 => ⟨S10000, .f32⟩
  | 55 => ⟨S160000x1, .i32⟩
  | 56 => ⟨S10000, .f32⟩
  | 57 => ⟨S_, .f32⟩
  | 58 => ⟨S10000, .f32⟩
  | 59 => ⟨S10000, .f32⟩
  | 60 => ⟨S10000, .f32⟩
  | 61 => ⟨S10000x1, .f32⟩
  | 62 => ⟨S_, .f32⟩
  | 63 => ⟨S10000, .f32⟩
  | 64 => ⟨S160000x1, .i32⟩
  | 65 => ⟨S10000, .f32⟩
  | 66 => ⟨S_, .f32⟩
  | 67 => ⟨S10000, .f32⟩
  | 68 => ⟨S10000, .f32⟩
  | 69 => ⟨S10000, .f32⟩
  | 70 => ⟨S10000x1, .f32⟩
  | 71 => ⟨S10000x256, .f32⟩
  | 72 => ⟨S1x256, .f32⟩
  | 73 => ⟨S10000x256, .f32⟩
  | 74 => ⟨S10000x256, .f32⟩
  | 75 => ⟨S160000x1, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S160000x256, .f32⟩
  | 85 => ⟨S160000x256, .f32⟩
  | 86 => ⟨S160000x256, .f32⟩
  | 87 => ⟨S_, .f32⟩
  | 88 => ⟨S10000x256, .f32⟩
  | 89 => ⟨S160000x1, .i32⟩
  | 90 => ⟨S10000x256, .f32⟩
  | 91 => ⟨S10000x512, .f32⟩
  | 92 => ⟨S1x512, .f32⟩
  | 93 => ⟨S10000x512, .f32⟩
  | 94 => ⟨S10000x512, .f32⟩
  | 95 => ⟨S_, .f32⟩
  | 96 => ⟨S10000x512, .f32⟩
  | 97 => ⟨S10000x512, .f32⟩
  | 98 => ⟨S10000x512, .f32⟩
  | 99 => ⟨S10000x512, .f32⟩
  | 100 => ⟨S10000x256, .f32⟩
  | 101 => ⟨S_, .i32⟩
  | 102 => ⟨S160000, .i32⟩
  | 103 => ⟨S160000, .i1⟩
  | 104 => ⟨S_, .i32⟩
  | 105 => ⟨S160000, .i32⟩
  | 106 => ⟨S160000, .i32⟩
  | 107 => ⟨S160000, .i32⟩
  | 108 => ⟨S160000x1, .i32⟩
  | 109 => ⟨S160000x256, .f32⟩
  | 110 => ⟨S_, .f32⟩
  | 111 => ⟨S10000x256, .f32⟩
  | 112 => ⟨S160000x1, .i32⟩
  | 113 => ⟨S10000x256, .f32⟩
  | 114 => ⟨S10000x256, .f32⟩
  | 115 => ⟨S10000x256, .f32⟩
  | 116 => ⟨S1x256, .f32⟩
  | 117 => ⟨S10000x256, .f32⟩
  | 118 => ⟨S10000x256, .f32⟩
  | 119 => ⟨S_, .f32⟩
  | 120 => ⟨S10000x256, .f32⟩
  | 121 => ⟨S10000x256, .f32⟩
  | 122 => ⟨S10000x256, .f32⟩
  | 123 => ⟨S10000x256, .f32⟩
  | 124 => ⟨S10000x128, .f32⟩
  | 125 => ⟨S_, .i32⟩
  | 126 => ⟨S160000, .i32⟩
  | 127 => ⟨S160000, .i1⟩
  | _ => ⟨S10000x128, .f32⟩

abbrev hbmTy0_1 (i : Nat) : BufTy := match i % 128 with
  | 0 => ⟨S_, .i32⟩
  | 1 => ⟨S160000, .i32⟩
  | 2 => ⟨S160000, .i32⟩
  | 3 => ⟨S160000, .i32⟩
  | 4 => ⟨S160000x1, .i32⟩
  | 5 => ⟨S160000x128, .f32⟩
  | 6 => ⟨S_, .f32⟩
  | 7 => ⟨S10000x128, .f32⟩
  | 8 => ⟨S160000x1, .i32⟩
  | 9 => ⟨S10000x128, .f32⟩
  | 10 => ⟨S10000x128, .f32⟩
  | 11 => ⟨S10000x128, .f32⟩
  | 12 => ⟨S1x128, .f32⟩
  | 13 => ⟨S10000x128, .f32⟩
  | 14 => ⟨S10000x128, .f32⟩
  | 15 => ⟨S_, .f32⟩
  | 16 => ⟨S10000x128, .f32⟩
  | 17 => ⟨S10000x128, .f32⟩
  | 18 => ⟨S10000x128, .f32⟩
  | 19 => ⟨S10000x128, .f32⟩
  | 20 => ⟨S10000x128, .f32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S160000x128, .f32⟩
  | 30 => ⟨S_, .f32⟩
  | 31 => ⟨S10000x128, .f32⟩
  | 32 => ⟨S160000x1, .i32⟩
  | 33 => ⟨S10000x128, .f32⟩
  | 34 => ⟨S10000x128, .f32⟩
  | 35 => ⟨S10000x128, .f32⟩
  | 36 => ⟨S1x128, .f32⟩
  | 37 => ⟨S10000x128, .f32⟩
  | 38 => ⟨S10000x128, .f32⟩
  | 39 => ⟨S_, .f32⟩
  | 40 => ⟨S10000x128, .f32⟩
  | 41 => ⟨S10000x128, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x128, .f32⟩
  | 51 => ⟨S128x16, .f32⟩
  | 52 => ⟨S160000x16, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000x128, .f32⟩
  | 62 => ⟨S128x16, .f32⟩
  | 63 => ⟨S160000x16, .f32⟩
  | 64 => ⟨S160000x16, .f32⟩
  | 65 => ⟨S1x16, .f32⟩
  | 66 => ⟨S160000x16, .f32⟩
  | 67 => ⟨S160000x16, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_c_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call0_cst : Ref sig .tc := ⟨.hbm, 95, rfl⟩
abbrev main_call0_v0 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_14 : Ref sig .tc := ⟨.hbm, 101, rfl⟩
abbrev main_v67 : Ref sig .tc := ⟨.hbm, 102, rfl⟩
abbrev main_v68 : Ref sig .tc := ⟨.hbm, 103, rfl⟩
abbrev main_c_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_call1_cst : Ref sig .tc := ⟨.hbm, 119, rfl⟩
abbrev main_call1_v0 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_17 : Ref sig .tc := ⟨.hbm, 125, rfl⟩
abbrev main_v86 : Ref sig .tc := ⟨.hbm, 126, rfl⟩
abbrev main_v87 : Ref sig .tc := ⟨.hbm, 127, rfl⟩
abbrev main_c_18 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_19 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call2_cst : Ref sig .tc := ⟨.hbm, 143, rfl⟩
abbrev main_call2_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_c_20 : Ref sig .tc := ⟨.hbm, 149, rfl⟩
abbrev main_v105 : Ref sig .tc := ⟨.hbm, 150, rfl⟩
abbrev main_v106 : Ref sig .tc := ⟨.hbm, 151, rfl⟩
abbrev main_c_21 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_22 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_call3_cst : Ref sig .tc := ⟨.hbm, 167, rfl⟩
abbrev main_call3_v0 : Ref sig .tc := ⟨.hbm, 168, rfl⟩
abbrev main_v120 : Ref sig .tc := ⟨.hbm, 169, rfl⟩
abbrev main_c_23 : Ref sig .tc := ⟨.hbm, 170, rfl⟩
abbrev main_v121 : Ref sig .tc := ⟨.hbm, 171, rfl⟩
abbrev main_v122 : Ref sig .tc := ⟨.hbm, 172, rfl⟩
abbrev main_c_24 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_c_25 : Ref sig .tc := ⟨.hbm, 181, rfl⟩
abbrev main_v130 : Ref sig .tc := ⟨.hbm, 182, rfl⟩
abbrev main_v131 : Ref sig .tc := ⟨.hbm, 183, rfl⟩
abbrev main_c_26 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S160000_S160000x1_0 : S160000.BroadcastsInDim S160000x1 (![0] : Fin 1 → Fin S160000x1.rank)
  bcast_S_S160000 : S_.BroadcastsInDim S160000 (![] : Fin 0 → Fin S160000.rank)
  bcast_S10000_S10000x1_0 : S10000.BroadcastsInDim S10000x1 (![0] : Fin 1 → Fin S10000x1.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S10000x1_S10000x512_0_1 : S10000x1.BroadcastsInDim S10000x512 (![0, 1] : Fin 2 → Fin S10000x512.rank)
  bcast_S10000x1_S10000x256_0_1 : S10000x1.BroadcastsInDim S10000x256 (![0, 1] : Fin 2 → Fin S10000x256.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S256x16_S128x16_0_0 : S256x16.Slices ![0, 0] S128x16
  slices_S256x16_S128x16_128_0 : S256x16.Slices ![128, 0] S128x16
  bcast_S16_S1x16_1 : S16.BroadcastsInDim S1x16 (![1] : Fin 1 → Fin S1x16.rank)
  bcast_S1x16_S160000x16_0_1 : S1x16.BroadcastsInDim S160000x16 (![0, 1] : Fin 2 → Fin S160000x16.rank)
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S10000x128_S128x256_S10000x256_1_0_0_1_n_n_wf : DotDims.WF S10000x128 S128x256 S10000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S10000x256_S256x512_S10000x512_1_0_0_1_n_n_wf : DotDims.WF S10000x256 S256x512 S10000x512 [1] [0] [0] [1] [] []
  dot_S10000x512_S512x256_S10000x256_1_0_0_1_n_n_wf : DotDims.WF S10000x512 S512x256 S10000x256 [1] [0] [0] [1] [] []
  dot_S10000x256_S256x128_S10000x128_1_0_0_1_n_n_wf : DotDims.WF S10000x256 S256x128 S10000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S10000x128_S128x128_S10000x128_1_0_0_1_n_n_wf : DotDims.WF S10000x128 S128x128 S10000x128 [1] [0] [0] [1] [] []
  dot_S160000x128_S128x16_S160000x16_1_0_0_1_n_n_wf : DotDims.WF S160000x128 S128x16 S160000x16 [1] [0] [0] [1] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S160000x128_S128x16_S160000x16_1_0_0_1_n_n : DotDims S160000x128 S128x16 S160000x16 where
  lhsContracting := [1]
  rhsContracting := [0]
  lhsNonContracting := [0]
  rhsNonContracting := [1]
  lhsBatch := []
  rhsBatch := []
  wf := dot_S160000x128_S128x16_S160000x16_1_0_0_1_n_n_wf

class Facts : Prop extends Facts₀ where

variable [Facts]
-- ==== Proof.KernelRun.lean ====
/-
  The device program's run with EVERY buffer read at the end: from any launch memory, every weakly fair
  execution of the program terminates without a fault, and each unscoped buffer of each core then holds what the
  fold of the program's segments leaves in it — a host stretch applies its operations, a region leaves its
  arrays at what its grid points wrote back and every other buffer as it was. The result array and the
  arguments are read off that one statement.
-/
import proofs.«172988_j3350074491436_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the fold's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The result array ends at the fold's contents of its buffer, and the arguments end as launched. -/
theorem run_result : θ_run defs (onTc (τ := τ) (main (F := F))) ⟨m, fun _ => 0, ρ⟩ (fun r => ∀ c : Dev nD,
      r.2.mem ((c.tc : Thread nD τ).loc main_v115) = W15 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v115 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c)⟩)
    (run_buffers m ρ)

end Cert.KernelIdeal.Whole

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«172988_j3350074491436_1_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.GraphStages.lean ====
/-
  The dense stages of a graph network, as whole-array functions over the extended reals, entry by entry.

  Every stage treats each row of its row-indexed operands alone:
    affine        (X·W)[r, q] + B[0, q]
    affineRelu    max ((X·W)[r, q] + B[0, q]) 0
    scaledProduct ∑ k, (X[r, k] · C[r, 0]) · W[k, q]          (rows scaled by a per-row factor, then projected)
    scaleShiftRelu max (A[r, q] · C[r, 0] + B[0, q]) 0         (rows scaled, shifted by a bias row, rectified)
    pairScore     ((S·Wt)[r, q] + (D·Wb)[r, q]) + B[0, q]      (two projections added, plus a bias row)
  For each stage: the device's spelling of it on a block of rows (a product into a zero accumulator, a [a, 1]
  column and a [1, b] row broadcast over the block, the maximum with a splat zero) IS the stage function of the
  block's operands; and, because entry (r, q) reads only row r of the row-indexed operands, the stage of a block
  holding rows R·n … of the arrays is the stage of the whole arrays at row R·n + r.
-/
import proofs.«172988_j3350074491436_1_alg».proof.Proof.LibRowLayers
import proofs.«172988_j3350074491436_1_alg».proof.Proof.LibRowExtras
import proofs.«172988_j3350074491436_1_alg».proof.Proof.LibColumnBroadcast

noncomputable section

namespace Cert.GraphStages

open Idealize.ShloMosaic Idealize.ShloMosaic.ValueIdx Cert.RowLayers

/-- An [a, b] array of extended reals. -/
abbrev Mat (a b : ℕ) : Type := (⟨2, ![a, b]⟩ : Shape).Idx → EReal

/-- The rectifier's threshold: the value of the all-zero f32 word. -/
def zeroE : EReal := Ideal.ofBits .f32 0x00000000#32

/-! ## The stage functions -/

def affine {a K b : ℕ} (X : Mat a K) (W : Mat K b) (B : Mat 1 b) : Mat a b :=
  fun i => (∑ k : Fin K, X (ix2 (i 0) k) * W (ix2 k (i 1))) + B (ix2 (0 : Fin 1) (i 1))

def affineRelu {a K b : ℕ} (X : Mat a K) (W : Mat K b) (B : Mat 1 b) : Mat a b :=
  fun i => max (affine X W B i) zeroE

def scaledProduct {a K b : ℕ} (X : Mat a K) (C : Mat a 1) (W : Mat K b) : Mat a b :=
  fun i => ∑ k : Fin K, (X (ix2 (i 0) k) * C (ix2 (i 0) (0 : Fin 1))) * W (ix2 k (i 1))

def scaleShiftRelu {a b : ℕ} (A : Mat a b) (C : Mat a 1) (B : Mat 1 b) : Mat a b :=
  fun i => max (A (ix2 (i 0) (i 1)) * C (ix2 (i 0) (0 : Fin 1)) + B (ix2 (0 : Fin 1) (i 1))) zeroE

def pairScore {a K b : ℕ} (S D : Mat a K) (Wt Wb : Mat K b) (B : Mat 1 b) : Mat a b :=
  fun i => ((∑ k : Fin K, S (ix2 (i 0) k) * Wt (ix2 k (i 1))) + (∑ k : Fin K, D (ix2 (i 0) k) * Wb (ix2 k (i 1))))
    + B (ix2 (0 : Fin 1) (i 1))

/-! ## The device's spelling of each stage on a block -/

section Device
variable {a K b : ℕ} {d : DotDims ⟨2, ![a, K]⟩ ⟨2, ![K, b]⟩ ⟨2, ![a, b]⟩}

/-- Entry (p, q) of a product into a zero accumulator. -/
theorem matmul_zero_ix2 {φ₁ φ₂ : FTy} (H : RowsTimesCols d) (lhs : FVec Ideal ⟨2, ![a, K]⟩ φ₁) (rhs : FVec Ideal ⟨2, ![K, b]⟩ φ₂)
    (p : Fin a) (q : Fin b) :
    matmul d none lhs rhs (constant (F := Ideal) ⟨2, ![a, b]⟩ .f32 0x00000000#32) (ix2 p q)
      = ∑ k : Fin K, lhs (ix2 p k) * rhs (ix2 k q) :=
  congrFun (rowOf_matmul_zero H none lhs rhs p) q

/-- Entry (p, q) of a [1, b] row broadcast down the rows. -/
theorem row_broadcast_ix2 (v : Mat 1 b) (h : (⟨2, ![1, b]⟩ : Shape).Broadcasts ⟨2, ![a, b]⟩) (p : Fin a) (q : Fin b) :
    broadcastTo ⟨2, ![a, b]⟩ v h (ix2 p q) = v (ix2 (0 : Fin 1) q) :=
  congrFun (rowOf_broadcastTo v h p) q

theorem device_affine (H : RowsTimesCols d) (x : FVec Ideal ⟨2, ![a, K]⟩ .f32) (w : FVec Ideal ⟨2, ![K, b]⟩ .f32)
    (bias : FVec Ideal ⟨2, ![1, b]⟩ .f32) (hx : FTy.bf16.bits < FTy.f32.bits)
    (hC : (⟨2, ![1, b]⟩ : Shape).ShapeCasts ⟨2, ![1, b]⟩) (hB : (⟨2, ![1, b]⟩ : Shape).Broadcasts ⟨2, ![a, b]⟩) :
    addf (matmul d none (truncf .bf16 x hx) (truncf .bf16 w hx) (constant (F := Ideal) ⟨2, ![a, b]⟩ .f32 0x00000000#32))
        (broadcastTo ⟨2, ![a, b]⟩ (shapeCast ⟨2, ![1, b]⟩ bias hC) hB)
      = affine x w bias := by
  funext i
  obtain ⟨p, q, rfl⟩ : ∃ (p : Fin a) (q : Fin b), i = ix2 p q := ⟨i 0, i 1, eq_ix2 i⟩
  rw [shapeCast_self]
  show matmul d none (truncf .bf16 x hx) (truncf .bf16 w hx) (constant (F := Ideal) ⟨2, ![a, b]⟩ .f32 0x00000000#32) (ix2 p q)
      + broadcastTo ⟨2, ![a, b]⟩ bias hB (ix2 p q) = _
  rw [matmul_zero_ix2 H, row_broadcast_ix2]
  rfl

theorem device_affineRelu (H : RowsTimesCols d) (x : FVec Ideal ⟨2, ![a, K]⟩ .f32) (w : FVec Ideal ⟨2, ![K, b]⟩ .f32)
    (bias : FVec Ideal ⟨2, ![1, b]⟩ .f32) (hx : FTy.bf16.bits < FTy.f32.bits)
    (hX : (⟨2, ![a, K]⟩ : Shape).ShapeCasts ⟨2, ![a, K]⟩)
    (hC : (⟨2, ![1, b]⟩ : Shape).ShapeCasts ⟨2, ![1, b]⟩) (hB : (⟨2, ![1, b]⟩ : Shape).Broadcasts ⟨2, ![a, b]⟩) :
    maximumf (addf (matmul d none (truncf .bf16 (shapeCast ⟨2, ![a, K]⟩ x hX) hx) (truncf .bf16 w hx)
          (constant (F := Ideal) ⟨2, ![a, b]⟩ .f32 0x00000000#32))
        (broadcastTo ⟨2, ![a, b]⟩ (shapeCast ⟨2, ![1, b]⟩ bias hC) hB))
        (broadcast ⟨2, ![a, b]⟩ (Scalar.ofBits (F := Ideal) .f32 0x00000000#32))
      = affineRelu x w bias := by
  rw [shapeCast_self, device_affine H]
  rfl

theorem device_scaledProduct (H : RowsTimesCols d) (x : FVec Ideal ⟨2, ![a, K]⟩ .f32) (c : FVec Ideal ⟨2, ![a, 1]⟩ .f32)
    (w : FVec Ideal ⟨2, ![K, b]⟩ .f32) (hx : FTy.bf16.bits < FTy.f32.bits)
    (hX : (⟨2, ![a, K]⟩ : Shape).ShapeCasts ⟨2, ![a, K]⟩) (hC : (⟨2, ![a, 1]⟩ : Shape).ShapeCasts ⟨2, ![a, 1]⟩)
    (hS : (⟨2, ![a, 1]⟩ : Shape).Broadcasts ⟨2, ![a, K]⟩) :
    matmul d none (truncf .bf16 (mulf (shapeCast ⟨2, ![a, K]⟩ x hX) (broadcastTo ⟨2, ![a, K]⟩ (shapeCast ⟨2, ![a, 1]⟩ c hC) hS)) hx)
        (truncf .bf16 w hx) (constant (F := Ideal) ⟨2, ![a, b]⟩ .f32 0x00000000#32)
      = scaledProduct x c w := by
  funext i
  obtain ⟨p, q, rfl⟩ : ∃ (p : Fin a) (q : Fin b), i = ix2 p q := ⟨i 0, i 1, eq_ix2 i⟩
  rw [shapeCast_self, shapeCast_self, matmul_zero_ix2 H]
  refine Finset.sum_congr rfl fun k _ => ?_
  show (x (ix2 p k) * broadcastTo ⟨2, ![a, K]⟩ c hS (ix2 p k)) * w (ix2 k q) = _
  rw [Cert.ColumnBroadcast.broadcastTo_a1_ab_apply]
  rfl

theorem device_scaleShiftRelu (agg : FVec Ideal ⟨2, ![a, b]⟩ .f32) (c : FVec Ideal ⟨2, ![a, 1]⟩ .f32)
    (bias : FVec Ideal ⟨2, ![1, b]⟩ .f32)
    (hA : (⟨2, ![a, b]⟩ : Shape).ShapeCasts ⟨2, ![a, b]⟩) (hC : (⟨2, ![a, 1]⟩ : Shape).ShapeCasts ⟨2, ![a, 1]⟩)
    (hR : (⟨2, ![1, b]⟩ : Shape).ShapeCasts ⟨2, ![1, b]⟩)
    (hS : (⟨2, ![a, 1]⟩ : Shape).Broadcasts ⟨2, ![a, b]⟩) (hB : (⟨2, ![1, b]⟩ : Shape).Broadcasts ⟨2, ![a, b]⟩) :
    maximumf (addf (mulf (shapeCast ⟨2, ![a, b]⟩ agg hA) (broadcastTo ⟨2, ![a, b]⟩ (shapeCast ⟨2, ![a, 1]⟩ c hC) hS))
          (broadcastTo ⟨2, ![a, b]⟩ (shapeCast ⟨2, ![1, b]⟩ bias hR) hB))
        (broadcast ⟨2, ![a, b]⟩ (Scalar.ofBits (F := Ideal) .f32 0x00000000#32))
      = scaleShiftRelu agg c bias := by
  funext i
  obtain ⟨p, q, rfl⟩ : ∃ (p : Fin a) (q : Fin b), i = ix2 p q := ⟨i 0, i 1, eq_ix2 i⟩
  rw [shapeCast_self, shapeCast_self, shapeCast_self]
  show max (agg (ix2 p q) * broadcastTo ⟨2, ![a, b]⟩ c hS (ix2 p q) + broadcastTo ⟨2, ![a, b]⟩ bias hB (ix2 p q))
      (Scalar.ofBits (F := Ideal) .f32 0x00000000#32) = _
  rw [Cert.ColumnBroadcast.broadcastTo_a1_ab_apply, row_broadcast_ix2]
  rfl

theorem device_pairScore (H : RowsTimesCols d) (s t : FVec Ideal ⟨2, ![a, K]⟩ .f32) (wt wb : FVec Ideal ⟨2, ![K, b]⟩ .f32)
    (bias : FVec Ideal ⟨2, ![1, b]⟩ .f32) (hx : FTy.bf16.bits < FTy.f32.bits)
    (hX : (⟨2, ![a, K]⟩ : Shape).ShapeCasts ⟨2, ![a, K]⟩) (hW : (⟨2, ![K, b]⟩ : Shape).ShapeCasts ⟨2, ![K, b]⟩)
    (hR : (⟨2, ![1, b]⟩ : Shape).ShapeCasts ⟨2, ![1, b]⟩) (hB : (⟨2, ![1, b]⟩ : Shape).Broadcasts ⟨2, ![a, b]⟩) :
    addf (addf
          (matmul d none (truncf .bf16 (shapeCast ⟨2, ![a, K]⟩ s hX) hx) (truncf .bf16 (shapeCast ⟨2, ![K, b]⟩ wt hW) hx)
            (constant (F := Ideal) ⟨2, ![a, b]⟩ .f32 0x00000000#32))
          (matmul d none (truncf .bf16 (shapeCast ⟨2, ![a, K]⟩ t hX) hx) (truncf .bf16 (shapeCast ⟨2, ![K, b]⟩ wb hW) hx)
            (constant (F := Ideal) ⟨2, ![a, b]⟩ .f32 0x00000000#32)))
        (broadcastTo ⟨2, ![a, b]⟩ (shapeCast ⟨2, ![1, b]⟩ bias hR) hB)
      = pairScore s t wt wb bias := by
  funext i
  obtain ⟨p, q, rfl⟩ : ∃ (p : Fin a) (q : Fin b), i = ix2 p q := ⟨i 0, i 1, eq_ix2 i⟩
  rw [shapeCast_self, shapeCast_self, shapeCast_self, shapeCast_self, shapeCast_self]
  show (matmul d none (truncf .bf16 s hx) (truncf .bf16 wt hx) (constant (F := Ideal) ⟨2, ![a, b]⟩ .f32 0x00000000#32) (ix2 p q)
      + matmul d none (truncf .bf16 t hx) (truncf .bf16 wb hx) (constant (F := Ideal) ⟨2, ![a, b]⟩ .f32 0x00000000#32) (ix2 p q))
      + broadcastTo ⟨2, ![a, b]⟩ bias hB (ix2 p q) = _
  rw [matmul_zero_ix2 H, matmul_zero_ix2 H, row_broadcast_ix2]
  rfl

end Device

/-! ## From a block of rows to the whole array -/

section Blocks
variable {A a K b R : ℕ}

/-- `x0` holds rows `R·n …` of `X`: entry `y` of the block is the array's entry at the same column, `R·n` rows down. -/
def RowsOf (X : Mat A K) (x0 : Mat a K) (R n : ℕ) : Prop :=
  ∀ (y : (⟨2, ![a, K]⟩ : Shape).Idx) (k : (⟨2, ![A, K]⟩ : Shape).Idx),
    (k 0).val = R * n + (y 0).val → (k 1).val = (y 1).val → x0 y = X k

theorem RowsOf.at {X : Mat A K} {x0 : Mat a K} {n : ℕ} (h : RowsOf X x0 R n) (p : Fin a) (r : Fin A) (hr : r.val = R * n + p.val)
    (k : Fin K) : x0 (ix2 p k) = X (ix2 r k) := h _ _ hr rfl

theorem affine_block (X : Mat A K) (W : Mat K b) (B : Mat 1 b) (x0 : Mat a K) (n : ℕ) (h0 : RowsOf X x0 R n)
    (y : (⟨2, ![a, b]⟩ : Shape).Idx) (i : (⟨2, ![A, b]⟩ : Shape).Idx)
    (hi0 : (i 0).val = R * n + (y 0).val) (hi1 : (i 1).val = (y 1).val) :
    affine x0 W B y = affine X W B i := by
  have e1 : (y 1 : Fin b) = i 1 := Fin.ext hi1.symm
  unfold affine
  rw [e1]
  exact congrArg (· + B (ix2 (0 : Fin 1) (i 1))) (Finset.sum_congr rfl fun k _ => by rw [h0.at (y 0) (i 0) hi0 k])

theorem affineRelu_block (X : Mat A K) (W : Mat K b) (B : Mat 1 b) (x0 : Mat a K) (n : ℕ) (h0 : RowsOf X x0 R n)
    (y : (⟨2, ![a, b]⟩ : Shape).Idx) (i : (⟨2, ![A, b]⟩ : Shape).Idx)
    (hi0 : (i 0).val = R * n + (y 0).val) (hi1 : (i 1).val = (y 1).val) :
    affineRelu x0 W B y = affineRelu X W B i := by
  unfold affineRelu
  rw [affine_block X W B x0 n h0 y i hi0 hi1]

theorem scaledProduct_block (X : Mat A K) (C : Mat A 1) (W : Mat K b) (x0 : Mat a K) (c0 : Mat a 1) (n : ℕ)
    (h0 : RowsOf X x0 R n) (h1 : RowsOf C c0 R n)
    (y : (⟨2, ![a, b]⟩ : Shape).Idx) (i : (⟨2, ![A, b]⟩ : Shape).Idx)
    (hi0 : (i 0).val = R * n + (y 0).val) (hi1 : (i 1).val = (y 1).val) :
    scaledProduct x0 c0 W y = scaledProduct X C W i := by
  have e1 : (y 1 : Fin b) = i 1 := Fin.ext hi1.symm
  unfold scaledProduct
  rw [e1, h1.at (y 0) (i 0) hi0 0]
  exact Finset.sum_congr rfl fun k _ => by rw [h0.at (y 0) (i 0) hi0 k]

theorem scaleShiftRelu_block (AG : Mat A b) (C : Mat A 1) (B : Mat 1 b) (a0 : Mat a b) (c0 : Mat a 1) (n : ℕ)
    (h0 : RowsOf AG a0 R n) (h1 : RowsOf C c0 R n)
    (y : (⟨2, ![a, b]⟩ : Shape).Idx) (i : (⟨2, ![A, b]⟩ : Shape).Idx)
    (hi0 : (i 0).val = R * n + (y 0).val) (hi1 : (i 1).val = (y 1).val) :
    scaleShiftRelu a0 c0 B y = scaleShiftRelu AG C B i := by
  have e1 : (y 1 : Fin b) = i 1 := Fin.ext hi1.symm
  unfold scaleShiftRelu
  rw [h1.at (y 0) (i 0) hi0 0, h0.at (y 0) (i 0) hi0 (y 1), e1]

theorem pairScore_block (S D : Mat A K) (Wt Wb : Mat K b) (B : Mat 1 b) (s0 d0 : Mat a K) (n : ℕ)
    (h0 : RowsOf S s0 R n) (h1 : RowsOf D d0 R n)
    (y : (⟨2, ![a, b]⟩ : Shape).Idx) (i : (⟨2, ![A, b]⟩ : Shape).Idx)
    (hi0 : (i 0).val = R * n + (y 0).val) (hi1 : (i 1).val = (y 1).val) :
    pairScore s0 d0 Wt Wb B y = pairScore S D Wt Wb B i := by
  have e1 : (y 1 : Fin b) = i 1 := Fin.ext hi1.symm
  unfold pairScore
  rw [e1]
  refine congrArg (· + B (ix2 (0 : Fin 1) (i 1))) (congrArg₂ (· + ·) ?_ ?_)
  · exact Finset.sum_congr rfl fun k _ => by rw [h0.at (y 0) (i 0) hi0 k]
  · exact Finset.sum_congr rfl fun k _ => by rw [h1.at (y 0) (i 0) hi0 k]

end Blocks

end Cert.GraphStages

end
-- ==== Proof.Stage0.lean ====
/-
  Region 0 of the device program, read as one whole-array function: the affine layer: entry (r, q) of the output is (∑ k, X[r, k] · W[k, q]) + B[0, q].
  The grid has 10 points; point t stages rows 1000·t … 1000·t + 999 of every row-indexed operand and the whole
  of every other operand, and writes back rows 1000·t … of the output. Because an output entry reads only its own row
  of the row-indexed operands, the block written at point t is the stage function of the WHOLE operands restricted
  to those rows; the 10 blocks tile the 10000 rows, so the array after the region is that function everywhere.
-/
import proofs.«172988_j3350074491436_1_alg».proof.Proof.Gen.KernelIdeal.Frame
import proofs.«172988_j3350074491436_1_alg».proof.Proof.GraphStages
import Idealize.ShloMosaic.Lib.Pipeline.Value

set_option maxRecDepth 16384

noncomputable section

namespace Cert.KernelIdeal.Stage0

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GraphStages Cert.RowLayers

variable (V : (c : Dev nD) → (b : Ref sig .tc) → Buf (Elt Ideal) ((c : Thread nD τ).loc b))

theorem origin : (![0, 0] : Fin 2 → Nat) = fun _ => 0 := funext fun a => by fin_cases a <;> rfl

/-- The product's dimension numbers say rows times columns. -/
theorem dims : RowsTimesCols dot_S1000x128_S128x256_S1000x256_1_0_0_1_n_n :=
  ⟨rfl, rfl,
   fun j q => by
     unfold DotDims.lhsIdx
     rw [dif_neg (show ¬(0 : Fin 2) ∈ dot_S1000x128_S128x256_S1000x256_1_0_0_1_n_n.lhsBatch by decide), dif_pos (show (0 : Fin 2) ∈ dot_S1000x128_S128x256_S1000x256_1_0_0_1_n_n.lhsNonContracting by decide)]
     rfl,
   fun j q => dot_S1000x128_S128x256_S1000x256_1_0_0_1_n_n.lhsIdx_val_of_single rfl j q,
   fun j q => dot_S1000x128_S128x256_S1000x256_1_0_0_1_n_n.rhsIdx_val_of_single rfl j q,
   fun j q => by
     unfold DotDims.rhsIdx
     rw [dif_neg (show ¬(1 : Fin 2) ∈ dot_S1000x128_S128x256_S1000x256_1_0_0_1_n_n.rhsBatch by decide), dif_pos (show (1 : Fin 2) ∈ dot_S1000x128_S128x256_S1000x256_1_0_0_1_n_n.rhsNonContracting by decide)]
     rfl⟩

/-- The body's stored value is the stage function of its loaded blocks. -/
theorem payload_eq (x0 : Vec Ideal S1000x128 .f32) (x1 : Vec Ideal S128x256 .f32) (x2 : Vec Ideal S1x256 .f32) : k0_pay1 x0 x1 x2 = affine x0 x1 x2 :=
  device_affine dims x0 x1 x2 _ _ _

/-- The printed index maps, decided over the grid: a row-indexed window is at block row t, every other at the origin. -/
theorem index_maps : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Window 0's block at point t holds rows 1000·t … of its array. -/
theorem rows_0 (c : Dev nD) (t : Fin cfg0.N) : RowsOf (V c main_arg0 : S10000x128.Idx → EReal) (iblk0 V c 0 t) 1000 t.val := by
  intro y i h0 h1
  show V c main_arg0 (((cfg0.win 0).blk t).view.emb y) = V c main_arg0 i
  refine congrArg _ (funext fun a => Fin.ext ?_)
  obtain ⟨e0, e1, -, -, -, -, -, -⟩ := index_maps t
  match a with
  | ⟨0, _⟩ => show win0_0.index t (0 : Fin 2) * 1000 + 1 * (y 0).val = (i 0).val; omega
  | ⟨1, _⟩ => show win0_0.index t (1 : Fin 2) * 128 + 1 * (y 1).val = (i 1).val; omega

/-- Window 1's block at every point is its whole array. -/
theorem whole_1 (c : Dev nD) (t : Fin cfg0.N) : iblk0 V c 1 t = (V c main_arg4 : S128x256.Idx → EReal) := by
  funext y
  show V c main_arg4 (((cfg0.win 1).blk t).view.emb y) = V c main_arg4 y
  refine congrArg _ (funext fun a => Fin.ext ?_)
  obtain ⟨-, -, e0, e1, -, -, -, -⟩ := index_maps t
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Window 2's block at every point is its whole array. -/
theorem whole_2 (c : Dev nD) (t : Fin cfg0.N) : iblk0 V c 2 t = (V c main_v42 : S1x256.Idx → EReal) := by
  funext y
  show V c main_v42 (((cfg0.win 2).blk t).view.emb y) = V c main_v42 y
  refine congrArg _ (funext fun a => Fin.ext ?_)
  obtain ⟨-, -, -, -, e0, e1, -, -⟩ := index_maps t
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- What point t writes back is block t of the stage function of the whole operands. -/
theorem flushed_eq (c : Dev nD) (t : Fin cfg0.N) :
    (dat0 V c).flushed 3 t = ((cfg0.win 3).blk t).view.read (Elt Ideal) (affine (V c main_arg0 : S10000x128.Idx → EReal) (V c main_arg4 : S128x256.Idx → EReal) (V c main_v42 : S1x256.Idx → EReal)) := by
  show (cfg0.win 3).cut (grid0.coords t) ((dat0 V c).after 3 t) = _
  rw [after0_3]
  unfold out0_3
  rw [View.canon_unit_zero origin]
  simp only [View.ld_unit_zero (S := S1000x128) origin, View.ld_unit_zero (S := S128x256) origin, View.ld_unit_zero (S := S1x256) origin]
  rw [payload_eq, whole_1 V c t, whole_2 V c t]
  funext j
  obtain ⟨-, -, -, -, -, -, e0, e1⟩ := index_maps t
  refine affine_block (V c main_arg0 : S10000x128.Idx → EReal) (V c main_arg4 : S128x256.Idx → EReal) (V c main_v42 : S1x256.Idx → EReal) (iblk0 V c 0 t) t.val (rows_0 V c t) j _ ?_ ?_
  · show win0_3.index t (0 : Fin 2) * 1000 + 1 * (j 0).val = 1000 * t.val + (j 0).val; omega
  · show win0_3.index t (1 : Fin 2) * 256 + 1 * (j 1).val = (j 1).val; omega

/-- An index of the output array is in point t's block iff each coordinate is in the block's range on its axis. -/
theorem mem_block (t : Fin cfg0.N) (i : S10000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v43).slice (win0_3.rect t)).set ↔ _
  rw [View.set_slice_whole, Rect.mem_set_unit]
  exact Iff.rfl

/-- Row r of the output is written at point r / 1000: the blocks cover the array. -/
theorem cover (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  have hN : grid0.N = 10 := N_0
  have ht : (i 0).val / 1000 < cfg0.N := by show (i 0).val / 1000 < grid0.N; omega
  refine ⟨⟨(i 0).val / 1000, ht⟩, flush0_3 _, ?_⟩
  rw [mem_block]
  obtain ⟨-, -, -, -, -, -, e0, e1⟩ := index_maps ⟨(i 0).val / 1000, ht⟩
  intro a
  match a with
  | ⟨0, _⟩ => show win0_3.index _ (0 : Fin 2) * 1000 ≤ (i 0).val ∧ (i 0).val < win0_3.index _ (0 : Fin 2) * 1000 + 1000; rw [e0]; show (i 0).val / 1000 * 1000 ≤ (i 0).val ∧ (i 0).val < (i 0).val / 1000 * 1000 + 1000; omega
  | ⟨1, _⟩ => show win0_3.index _ (1 : Fin 2) * 256 ≤ (i 1).val ∧ (i 1).val < win0_3.index _ (1 : Fin 2) * 256 + 256; rw [e1]; omega

/-- THE ARRAY after the region: the stage function of the operands as the region finds them. -/
theorem final (c : Dev nD) : (dat0 V c).arrAt 3 cfg0.N = (affine (V c main_arg0 : S10000x128.Idx → EReal) (V c main_arg4 : S128x256.Idx → EReal) (V c main_v42 : S1x256.Idx → EReal)) :=
  (dat0 V c).arrAt_eq_of_cover 3 _ (fun t _ => flushed_eq V c t) cover

end Cert.KernelIdeal.Stage0

end
-- ==== Proof.Stage1.lean ====
/-
  Region 1 of the device program, read as one whole-array function: the rectified affine layer: entry (r, q) of the output is max ((∑ k, X[r, k] · W[k, q]) + B[0, q]) 0.
  The grid has 10 points; point t stages rows 1000·t … 1000·t + 999 of every row-indexed operand and the whole
  of every other operand, and writes back rows 1000·t … of the output. Because an output entry reads only its own row
  of the row-indexed operands, the block written at point t is the stage function of the WHOLE operands restricted
  to those rows; the 10 blocks tile the 10000 rows, so the array after the region is that function everywhere.
-/
import proofs.«172988_j3350074491436_1_alg».proof.Proof.Gen.KernelIdeal.Frame
import proofs.«172988_j3350074491436_1_alg».proof.Proof.GraphStages
import Idealize.ShloMosaic.Lib.Pipeline.Value

set_option maxRecDepth 16384

noncomputable section

namespace Cert.KernelIdeal.Stage1

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GraphStages Cert.RowLayers

variable (V : (c : Dev nD) → (b : Ref sig .tc) → Buf (Elt Ideal) ((c : Thread nD τ).loc b))

theorem origin : (![0, 0] : Fin 2 → Nat) = fun _ => 0 := funext fun a => by fin_cases a <;> rfl

/-- The product's dimension numbers say rows times columns. -/
theorem dims : RowsTimesCols dot_S1000x256_S256x512_S1000x512_1_0_0_1_n_n :=
  ⟨rfl, rfl,
   fun j q => by
     unfold DotDims.lhsIdx
     rw [dif_neg (show ¬(0 : Fin 2) ∈ dot_S1000x256_S256x512_S1000x512_1_0_0_1_n_n.lhsBatch by decide), dif_pos (show (0 : Fin 2) ∈ dot_S1000x256_S256x512_S1000x512_1_0_0_1_n_n.lhsNonContracting by decide)]
     rfl,
   fun j q => dot_S1000x256_S256x512_S1000x512_1_0_0_1_n_n.lhsIdx_val_of_single rfl j q,
   fun j q => dot_S1000x256_S256x512_S1000x512_1_0_0_1_n_n.rhsIdx_val_of_single rfl j q,
   fun j q => by
     unfold DotDims.rhsIdx
     rw [dif_neg (show ¬(1 : Fin 2) ∈ dot_S1000x256_S256x512_S1000x512_1_0_0_1_n_n.rhsBatch by decide), dif_pos (show (1 : Fin 2) ∈ dot_S1000x256_S256x512_S1000x512_1_0_0_1_n_n.rhsNonContracting by decide)]
     rfl⟩

/-- The body's stored value is the stage function of its loaded blocks. -/
theorem payload_eq (x0 : Vec Ideal S1000x256 .f32) (x1 : Vec Ideal S256x512 .f32) (x2 : Vec Ideal S1x512 .f32) : k1_pay1 x0 x1 x2 = affineRelu x0 x1 x2 :=
  device_affineRelu dims x0 x1 x2 _ _ _ _

/-- The printed index maps, decided over the grid: a row-indexed window is at block row t, every other at the origin. -/
theorem index_maps : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Window 0's block at point t holds rows 1000·t … of its array. -/
theorem rows_0 (c : Dev nD) (t : Fin cfg1.N) : RowsOf (V c main_v56 : S10000x256.Idx → EReal) (iblk1 V c 0 t) 1000 t.val := by
  intro y i h0 h1
  show V c main_v56 (((cfg1.win 0).blk t).view.emb y) = V c main_v56 i
  refine congrArg _ (funext fun a => Fin.ext ?_)
  obtain ⟨e0, e1, -, -, -, -, -, -⟩ := index_maps t
  match a with
  | ⟨0, _⟩ => show win1_0.index t (0 : Fin 2) * 1000 + 1 * (y 0).val = (i 0).val; omega
  | ⟨1, _⟩ => show win1_0.index t (1 : Fin 2) * 256 + 1 * (y 1).val = (i 1).val; omega

/-- Window 1's block at every point is its whole array. -/
theorem whole_1 (c : Dev nD) (t : Fin cfg1.N) : iblk1 V c 1 t = (V c main_arg6 : S256x512.Idx → EReal) := by
  funext y
  show V c main_arg6 (((cfg1.win 1).blk t).view.emb y) = V c main_arg6 y
  refine congrArg _ (funext fun a => Fin.ext ?_)
  obtain ⟨-, -, e0, e1, -, -, -, -⟩ := index_maps t
  match a with
  | ⟨0, _⟩ => show win1_1.index t (0 : Fin 2) * 256 + 1 * (y 0).val = (y 0).val; omega
  | ⟨1, _⟩ => show win1_1.index t (1 : Fin 2) * 512 + 1 * (y 1).val = (y 1).val; omega

/-- Window 2's block at every point is its whole array. -/
theorem whole_2 (c : Dev nD) (t : Fin cfg1.N) : iblk1 V c 2 t = (V c main_v57 : S1x512.Idx → EReal) := by
  funext y
  show V c main_v57 (((cfg1.win 2).blk t).view.emb y) = V c main_v57 y
  refine congrArg _ (funext fun a => Fin.ext ?_)
  obtain ⟨-, -, -, -, e0, e1, -, -⟩ := index_maps t
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- What point t writes back is block t of the stage function of the whole operands. -/
theorem flushed_eq (c : Dev nD) (t : Fin cfg1.N) :
    (dat1 V c).flushed 3 t = ((cfg1.win 3).blk t).view.read (Elt Ideal) (affineRelu (V c main_v56 : S10000x256.Idx → EReal) (V c main_arg6 : S256x512.Idx → EReal) (V c main_v57 : S1x512.Idx → EReal)) := by
  show (cfg1.win 3).cut (grid1.coords t) ((dat1 V c).after 3 t) = _
  rw [after1_3]
  unfold out1_3
  rw [View.canon_unit_zero origin]
  simp only [View.ld_unit_zero (S := S1000x256) origin, View.ld_unit_zero (S := S256x512) origin, View.ld_unit_zero (S := S1x512) origin]
  rw [payload_eq, whole_1 V c t, whole_2 V c t]
  funext j
  obtain ⟨-, -, -, -, -, -, e0, e1⟩ := index_maps t
  refine affineRelu_block (V c main_v56 : S10000x256.Idx → EReal) (V c main_arg6 : S256x512.Idx → EReal) (V c main_v57 : S1x512.Idx → EReal) (iblk1 V c 0 t) t.val (rows_0 V c t) j _ ?_ ?_
  · show win1_3.index t (0 : Fin 2) * 1000 + 1 * (j 0).val = 1000 * t.val + (j 0).val; omega
  · show win1_3.index t (1 : Fin 2) * 512 + 1 * (j 1).val = (j 1).val; omega

/-- An index of the output array is in point t's block iff each coordinate is in the block's range on its axis. -/
theorem mem_block (t : Fin cfg1.N) (i : S10000x512.Idx) :
    i ∈ ((cfg1.win 3).blk t).view.set ↔ ∀ a : Fin 2, win1_3.index t a * S1000x512.size a ≤ (i a).val ∧ (i a).val < win1_3.index t a * S1000x512.size a + S1000x512.size a := by
  show i ∈ ((View.whole main_v58).slice (win1_3.rect t)).set ↔ _
  rw [View.set_slice_whole, Rect.mem_set_unit]
  exact Iff.rfl

/-- Row r of the output is written at point r / 1000: the blocks cover the array. -/
theorem cover (i : S10000x512.Idx) : ∃ t : Fin cfg1.N, (cfg1.win 3).flush t = true ∧ i ∈ ((cfg1.win 3).blk t).view.set := by
  have hi0 : (i 0).val < 10000 := (i 0).isLt
  have hi1 : (i 1).val < 512 := (i 1).isLt
  have hN : grid1.N = 10 := N_1
  have ht : (i 0).val / 1000 < cfg1.N := by show (i 0).val / 1000 < grid1.N; omega
  refine ⟨⟨(i 0).val / 1000, ht⟩, flush1_3 _, ?_⟩
  rw [mem_block]
  obtain ⟨-, -, -, -, -, -, e0, e1⟩ := index_maps ⟨(i 0).val / 1000, ht⟩
  intro a
  match a with
  | ⟨0, _⟩ => show win1_3.index _ (0 : Fin 2) * 1000 ≤ (i 0).val ∧ (i 0).val < win1_3.index _ (0 : Fin 2) * 1000 + 1000; rw [e0]; show (i 0).val / 1000 * 1000 ≤ (i 0).val ∧ (i 0).val < (i 0).val / 1000 * 1000 + 1000; omega
  | ⟨1, _⟩ => show win1_3.index _ (1 : Fin 2) * 512 ≤ (i 1).val ∧ (i 1).val < win1_3.index _ (1 : Fin 2) * 512 + 512; rw [e1]; omega

/-- THE ARRAY after the region: the stage function of the operands as the region finds them. -/
theorem final (c : Dev nD) : (dat1 V c).arrAt 3 cfg1.N = (affineRelu (V c main_v56 : S10000x256.Idx → EReal) (V c main_arg6 : S256x512.Idx → EReal) (V c main_v57 : S1x512.Idx → EReal)) :=
  (dat1 V c).arrAt_eq_of_cover 3 _ (fun t _ => flushed_eq V c t) cover

end Cert.KernelIdeal.Stage1

end
-- ==== Proof.Stage2.lean ====
/-
  Region 2 of the device program, read as one whole-array function: the scaled projection: entry (r, q) of the output is ∑ k, (X[r, k] · C[r, 0]) · W[k, q].
  The grid has 10 points; point t stages rows 1000·t … 1000·t + 999 of every row-indexed operand and the whole
  of every other operand, and writes back rows 1000·t … of the output. Because an output entry reads only its own row
  of the row-indexed operands, the block written at point t is the stage function of the WHOLE operands restricted
  to those rows; the 10 blocks tile the 10000 rows, so the array after the region is that function everywhere.
-/
import proofs.«172988_j3350074491436_1_alg».proof.Proof.Gen.KernelIdeal.Frame
import proofs.«172988_j3350074491436_1_alg».proof.Proof.GraphStages
import Idealize.ShloMosaic.Lib.Pipeline.Value

set_option maxRecDepth 16384

noncomputable section

namespace Cert.KernelIdeal.Stage2

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GraphStages Cert.RowLayers

variable (V : (c : Dev nD) → (b : Ref sig .tc) → Buf (Elt Ideal) ((c : Thread nD τ).loc b))

theorem origin : (![0, 0] : Fin 2 → Nat) = fun _ => 0 := funext fun a => by fin_cases a <;> rfl

/-- The product's dimension numbers say rows times columns. -/
theorem dims : RowsTimesCols dot_S1000x512_S512x256_S1000x256_1_0_0_1_n_n :=
  ⟨rfl, rfl,
   fun j q => by
     unfold DotDims.lhsIdx
     rw [dif_neg (show ¬(0 : Fin 2) ∈ dot_S1000x512_S512x256_S1000x256_1_0_0_1_n_n.lhsBatch by decide), dif_pos (show (0 : Fin 2) ∈ dot_S1000x512_S512x256_S1000x256_1_0_0_1_n_n.lhsNonContracting by decide)]
     rfl,
   fun j q => dot_S1000x512_S512x256_S1000x256_1_0_0_1_n_n.lhsIdx_val_of_single rfl j q,
   fun j q => dot_S1000x512_S512x256_S1000x256_1_0_0_1_n_n.rhsIdx_val_of_single rfl j q,
   fun j q => by
     unfold DotDims.rhsIdx
     rw [dif_neg (show ¬(1 : Fin 2) ∈ dot_S1000x512_S512x256_S1000x256_1_0_0_1_n_n.rhsBatch by decide), dif_pos (show (1 : Fin 2) ∈ dot_S1000x512_S512x256_S1000x256_1_0_0_1_n_n.rhsNonContracting by decide)]
     rfl⟩

/-- The body's stored value is the stage function of its loaded blocks. -/
theorem payload_eq (x0 : Vec Ideal S1000x512 .f32) (x1 : Vec Ideal S1000x1 .f32) (x2 : Vec Ideal S512x256 .f32) : k2_pay1 x0 x1 x2 = scaledProduct x0 x1 x2 :=
  device_scaledProduct dims x0 x1 x2 _ _ _ _

/-- The printed index maps, decided over the grid: a row-indexed window is at block row t, every other at the origin. -/
theorem index_maps : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Window 0's block at point t holds rows 1000·t … of its array. -/
theorem rows_0 (c : Dev nD) (t : Fin cfg2.N) : RowsOf (V c main_v58 : S10000x512.Idx → EReal) (iblk2 V c 0 t) 1000 t.val := by
  intro y i h0 h1
  show V c main_v58 (((cfg2.win 0).blk t).view.emb y) = V c main_v58 i
  refine congrArg _ (funext fun a => Fin.ext ?_)
  obtain ⟨e0, e1, -, -, -, -, -, -⟩ := index_maps t
  match a with
  | ⟨0, _⟩ => show win2_0.index t (0 : Fin 2) * 1000 + 1 * (y 0).val = (i 0).val; omega
  | ⟨1, _⟩ => show win2_0.index t (1 : Fin 2) * 512 + 1 * (y 1).val = (i 1).val; omega

/-- Window 1's block at point t holds rows 1000·t … of its array. -/
theorem rows_1 (c : Dev nD) (t : Fin cfg2.N) : RowsOf (V c main_v34 : S10000x1.Idx → EReal) (iblk2 V c 1 t) 1000 t.val := by
  intro y i h0 h1
  show V c main_v34 (((cfg2.win 1).blk t).view.emb y) = V c main_v34 i
  refine congrArg _ (funext fun a => Fin.ext ?_)
  obtain ⟨-, -, e0, e1, -, -, -, -⟩ := index_maps t
  match a with
  | ⟨0, _⟩ => show win2_1.index t (0 : Fin 2) * 1000 + 1 * (y 0).val = (i 0).val; omega
  | ⟨1, _⟩ => show win2_1.index t (1 : Fin 2) * 1 + 1 * (y 1).val = (i 1).val; omega

/-- Window 2's block at every point is its whole array. -/
theorem whole_2 (c : Dev nD) (t : Fin cfg2.N) : iblk2 V c 2 t = (V c main_arg8 : S512x256.Idx → EReal) := by
  funext y
  show V c main_arg8 (((cfg2.win 2).blk t).view.emb y) = V c main_arg8 y
  refine congrArg _ (funext fun a => Fin.ext ?_)
  obtain ⟨-, -, -, -, e0, e1, -, -⟩ := index_maps t
  match a with
  | ⟨0, _⟩ => show win2_2.index t (0 : Fin 2) * 512 + 1 * (y 0).val = (y 0).val; omega
  | ⟨1, _⟩ => show win2_2.index t (1 : Fin 2) * 256 + 1 * (y 1).val = (y 1).val; omega

/-- What point t writes back is block t of the stage function of the whole operands. -/
theorem flushed_eq (c : Dev nD) (t : Fin cfg2.N) :
    (dat2 V c).flushed 3 t = ((cfg2.win 3).blk t).view.read (Elt Ideal) (scaledProduct (V c main_v58 : S10000x512.Idx → EReal) (V c main_v34 : S10000x1.Idx → EReal) (V c main_arg8 : S512x256.Idx → EReal)) := by
  show (cfg2.win 3).cut (grid2.coords t) ((dat2 V c).after 3 t) = _
  rw [after2_3]
  unfold out2_3
  rw [View.canon_unit_zero origin]
  simp only [View.ld_unit_zero (S := S1000x512) origin, View.ld_unit_zero (S := S1000x1) origin, View.ld_unit_zero (S := S512x256) origin]
  rw [payload_eq, whole_2 V c t]
  funext j
  obtain ⟨-, -, -, -, -, -, e0, e1⟩ := index_maps t
  refine scaledProduct_block (V c main_v58 : S10000x512.Idx → EReal) (V c main_v34 : S10000x1.Idx → EReal) (V c main_arg8 : S512x256.Idx → EReal) (iblk2 V c 0 t) (iblk2 V c 1 t) t.val (rows_0 V c t) (rows_1 V c t) j _ ?_ ?_
  · show win2_3.index t (0 : Fin 2) * 1000 + 1 * (j 0).val = 1000 * t.val + (j 0).val; omega
  · show win2_3.index t (1 : Fin 2) * 256 + 1 * (j 1).val = (j 1).val; omega

/-- An index of the output array is in point t's block iff each coordinate is in the block's range on its axis. -/
theorem mem_block (t : Fin cfg2.N) (i : S10000x256.Idx) :
    i ∈ ((cfg2.win 3).blk t).view.set ↔ ∀ a : Fin 2, win2_3.index t a * S1000x256.size a ≤ (i a).val ∧ (i a).val < win2_3.index t a * S1000x256.size a + S1000x256.size a := by
  show i ∈ ((View.whole main_v59).slice (win2_3.rect t)).set ↔ _
  rw [View.set_slice_whole, Rect.mem_set_unit]
  exact Iff.rfl

/-- Row r of the output is written at point r / 1000: the blocks cover the array. -/
theorem cover (i : S10000x256.Idx) : ∃ t : Fin cfg2.N, (cfg2.win 3).flush t = true ∧ i ∈ ((cfg2.win 3).blk t).view.set := by
  have hi0 : (i 0).val < 10000 := (i 0).isLt
  have hi1 : (i 1).val < 256 := (i 1).isLt
  have hN : grid2.N = 10 := N_2
  have ht : (i 0).val / 1000 < cfg2.N := by show (i 0).val / 1000 < grid2.N; omega
  refine ⟨⟨(i 0).val / 1000, ht⟩, flush2_3 _, ?_⟩
  rw [mem_block]
  obtain ⟨-, -, -, -, -, -, e0, e1⟩ := index_maps ⟨(i 0).val / 1000, ht⟩
  intro a
  match a with
  | ⟨0, _⟩ => show win2_3.index _ (0 : Fin 2) * 1000 ≤ (i 0).val ∧ (i 0).val < win2_3.index _ (0 : Fin 2) * 1000 + 1000; rw [e0]; show (i 0).val / 1000 * 1000 ≤ (i 0).val ∧ (i 0).val < (i 0).val / 1000 * 1000 + 1000; omega
  | ⟨1, _⟩ => show win2_3.index _ (1 : Fin 2) * 256 ≤ (i 1).val ∧ (i 1).val < win2_3.index _ (1 : Fin 2) * 256 + 256; rw [e1]; omega

/-- THE ARRAY after the region: the stage function of the operands as the region finds them. -/
theorem final (c : Dev nD) : (dat2 V c).arrAt 3 cfg2.N = (scaledProduct (V c main_v58 : S10000x512.Idx → EReal) (V c main_v34 : S10000x1.Idx → EReal) (V c main_arg8 : S512x256.Idx → EReal)) :=
  (dat2 V c).arrAt_eq_of_cover 3 _ (fun t _ => flushed_eq V c t) cover

end Cert.KernelIdeal.Stage2

end
-- ==== Proof.Stage3.lean ====
/-
  Region 3 of the device program, read as one whole-array function: the scaled, shifted rectifier: entry (r, q) of the output is max (A[r, q] · C[r, 0] + B[0, q]) 0.
  The grid has 10 points; point t stages rows 1000·t … 1000·t + 999 of every row-indexed operand and the whole
  of every other operand, and writes back rows 1000·t … of the output. Because an output entry reads only its own row
  of the row-indexed operands, the block written at point t is the stage function of the WHOLE operands restricted
  to those rows; the 10 blocks tile the 10000 rows, so the array after the region is that function everywhere.
-/
import proofs.«172988_j3350074491436_1_alg».proof.Proof.Gen.KernelIdeal.Frame
import proofs.«172988_j3350074491436_1_alg».proof.Proof.GraphStages
import Idealize.ShloMosaic.Lib.Pipeline.Value

set_option maxRecDepth 16384

noncomputable section

namespace Cert.KernelIdeal.Stage3

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GraphStages Cert.RowLayers

variable (V : (c : Dev nD) → (b : Ref sig .tc) → Buf (Elt Ideal) ((c : Thread nD τ).loc b))

theorem origin : (![0, 0] : Fin 2 → Nat) = fun _ => 0 := funext fun a => by fin_cases a <;> rfl

/-- The body's stored value is the stage function of its loaded blocks. -/
theorem payload_eq (x0 : Vec Ideal S1000x256 .f32) (x1 : Vec Ideal S1000x1 .f32) (x2 : Vec Ideal S1x256 .f32) : k3_pay1 x0 x1 x2 = scaleShiftRelu x0 x1 x2 :=
  device_scaleShiftRelu x0 x1 x2 _ _ _ _ _

/-- The printed index maps, decided over the grid: a row-indexed window is at block row t, every other at the origin. -/
theorem index_maps : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- Window 0's block at point t holds rows 1000·t … of its array. -/
theorem rows_0 (c : Dev nD) (t : Fin cfg3.N) : RowsOf (V c main_v69 : S10000x256.Idx → EReal) (iblk3 V c 0 t) 1000 t.val := by
  intro y i h0 h1
  show V c main_v69 (((cfg3.win 0).blk t).view.emb y) = V c main_v69 i
  refine congrArg _ (funext fun a => Fin.ext ?_)
  obtain ⟨e0, e1, -, -, -, -, -, -⟩ := index_maps t
  match a with
  | ⟨0, _⟩ => show win3_0.index t (0 : Fin 2) * 1000 + 1 * (y 0).val = (i 0).val; omega
  | ⟨1, _⟩ => show win3_0.index t (1 : Fin 2) * 256 + 1 * (y 1).val = (i 1).val; omega

/-- Window 1's block at point t holds rows 1000·t … of its array. -/
theorem rows_1 (c : Dev nD) (t : Fin cfg3.N) : RowsOf (V c main_v41 : S10000x1.Idx → EReal) (iblk3 V c 1 t) 1000 t.val := by
  intro y i h0 h1
  show V c main_v41 (((cfg3.win 1).blk t).view.emb y) = V c main_v41 i
  refine congrArg _ (funext fun a => Fin.ext ?_)
  obtain ⟨-, -, e0, e1, -, -, -, -⟩ := index_maps t
  match a with
  | ⟨0, _⟩ => show win3_1.index t (0 : Fin 2) * 1000 + 1 * (y 0).val = (i 0).val; omega
  | ⟨1, _⟩ => show win3_1.index t (1 : Fin 2) * 1 + 1 * (y 1).val = (i 1).val; omega

/-- Window 2's block at every point is its whole array. -/
theorem whole_2 (c : Dev nD) (t : Fin cfg3.N) : iblk3 V c 2 t = (V c main_v70 : S1x256.Idx → EReal) := by
  funext y
  show V c main_v70 (((cfg3.win 2).blk t).view.emb y) = V c main_v70 y
  refine congrArg _ (funext fun a => Fin.ext ?_)
  obtain ⟨-, -, -, -, e0, e1, -, -⟩ := index_maps t
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- What point t writes back is block t of the stage function of the whole operands. -/
theorem flushed_eq (c : Dev nD) (t : Fin cfg3.N) :
    (dat3 V c).flushed 3 t = ((cfg3.win 3).blk t).view.read (Elt Ideal) (scaleShiftRelu (V c main_v69 : S10000x256.Idx → EReal) (V c main_v41 : S10000x1.Idx → EReal) (V c main_v70 : S1x256.Idx → EReal)) := by
  show (cfg3.win 3).cut (grid3.coords t) ((dat3 V c).after 3 t) = _
  rw [after3_3]
  unfold out3_3
  rw [View.canon_unit_zero origin]
  simp only [View.ld_unit_zero (S := S1000x256) origin, View.ld_unit_zero (S := S1000x1) origin, View.ld_unit_zero (S := S1x256) origin]
  rw [payload_eq, whole_2 V c t]
  funext j
  obtain ⟨-, -, -, -, -, -, e0, e1⟩ := index_maps t
  refine scaleShiftRelu_block (V c main_v69 : S10000x256.Idx → EReal) (V c main_v41 : S10000x1.Idx → EReal) (V c main_v70 : S1x256.Idx → EReal) (iblk3 V c 0 t) (iblk3 V c 1 t) t.val (rows_0 V c t) (rows_1 V c t) j _ ?_ ?_
  · show win3_3.index t (0 : Fin 2) * 1000 + 1 * (j 0).val = 1000 * t.val + (j 0).val; omega
  · show win3_3.index t (1 : Fin 2) * 256 + 1 * (j 1).val = (j 1).val; omega

/-- An index of the output array is in point t's block iff each coordinate is in the block's range on its axis. -/
theorem mem_block (t : Fin cfg3.N) (i : S10000x256.Idx) :
    i ∈ ((cfg3.win 3).blk t).view.set ↔ ∀ a : Fin 2, win3_3.index t a * S1000x256.size a ≤ (i a).val ∧ (i a).val < win3_3.index t a * S1000x256.size a + S1000x256.size a := by
  show i ∈ ((View.whole main_v71).slice (win3_3.rect t)).set ↔ _
  rw [View.set_slice_whole, Rect.mem_set_unit]
  exact Iff.rfl

/-- Row r of the output is written at point r / 1000: the blocks cover the array. -/
theorem cover (i : S10000x256.Idx) : ∃ t : Fin cfg3.N, (cfg3.win 3).flush t = true ∧ i ∈ ((cfg3.win 3).blk t).view.set := by
  have hi0 : (i 0).val < 10000 := (i 0).isLt
  have hi1 : (i 1).val < 256 := (i 1).isLt
  have hN : grid3.N = 10 := N_3
  have ht : (i 0).val / 1000 < cfg3.N := by show (i 0).val / 1000 < grid3.N; omega
  refine ⟨⟨(i 0).val / 1000, ht⟩, flush3_3 _, ?_⟩
  rw [mem_block]
  obtain ⟨-, -, -, -, -, -, e0, e1⟩ := index_maps ⟨(i 0).val / 1000, ht⟩
  intro a
  match a with
  | ⟨0, _⟩ => show win3_3.index _ (0 : Fin 2) * 1000 ≤ (i 0).val ∧ (i 0).val < win3_3.index _ (0 : Fin 2) * 1000 + 1000; rw [e0]; show (i 0).val / 1000 * 1000 ≤ (i 0).val ∧ (i 0).val < (i 0).val / 1000 * 1000 + 1000; omega
  | ⟨1, _⟩ => show win3_3.index _ (1 : Fin 2) * 256 ≤ (i 1).val ∧ (i 1).val < win3_3.index _ (1 : Fin 2) * 256 + 256; rw [e1]; omega

/-- THE ARRAY after the region: the stage function of the operands as the region finds them. -/
theorem final (c : Dev nD) : (dat3 V c).arrAt 3 cfg3.N = (scaleShiftRelu (V c main_v69 : S10000x256.Idx → EReal) (V c main_v41 : S10000x1.Idx → EReal) (V c main_v70 : S1x256.Idx → EReal)) :=
  (dat3 V c).arrAt_eq_of_cover 3 _ (fun t _ => flushed_eq V c t) cover

end Cert.KernelIdeal.Stage3

end
-- ==== Proof.Stage4.lean ====
/-
  Region 4 of the device program, read as one whole-array function: the scaled projection: entry (r, q) of the output is ∑ k, (X[r, k] · C[r, 0]) · W[k, q].
  The grid has 10 points; point t stages rows 1000·t … 1000·t + 999 of every row-indexed operand and the whole
  of every other operand, and writes back rows 1000·t … of the output. Because an output entry reads only its own row
  of the row-indexed operands, the block written at point t is the stage function of the WHOLE operands restricted
  to those rows; the 10 blocks tile the 10000 rows, so the array after the region is that function everywhere.
-/
import proofs.«172988_j3350074491436_1_alg».proof.Proof.Gen.KernelIdeal.Frame
import proofs.«172988_j3350074491436_1_alg».proof.Proof.GraphStages
import Idealize.ShloMosaic.Lib.Pipeline.Value

set_option maxRecDepth 16384

noncomputable section

namespace Cert.KernelIdeal.Stage4

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GraphStages Cert.RowLayers

variable (V : (c : Dev nD) → (b : Ref sig .tc) → Buf (Elt Ideal) ((c : Thread nD τ).loc b))

theorem origin : (![0, 0] : Fin 2 → Nat) = fun _ => 0 := funext fun a => by fin_cases a <;> rfl

/-- The product's dimension numbers say rows times columns. -/
theorem dims : RowsTimesCols dot_S1000x256_S256x128_S1000x128_1_0_0_1_n_n :=
  ⟨rfl, rfl,
   fun j q => by
     unfold DotDims.lhsIdx
     rw [dif_neg (show ¬(0 : Fin 2) ∈ dot_S1000x256_S256x128_S1000x128_1_0_0_1_n_n.lhsBatch by decide), dif_pos (show (0 : Fin 2) ∈ dot_S1000x256_S256x128_S1000x128_1_0_0_1_n_n.lhsNonContracting by decide)]
     rfl,
   fun j q => dot_S1000x256_S256x128_S1000x128_1_0_0_1_n_n.lhsIdx_val_of_single rfl j q,
   fun j q => dot_S1000x256_S256x128_S1000x128_1_0_0_1_n_n.rhsIdx_val_of_single rfl j q,
   fun j q => by
     unfold DotDims.rhsIdx
     rw [dif_neg (show ¬(1 : Fin 2) ∈ dot_S1000x256_S256x128_S1000x128_1_0_0_1_n_n.rhsBatch by decide), dif_pos (show (1 : Fin 2) ∈ dot_S1000x256_S256x128_S1000x128_1_0_0_1_n_n.rhsNonContracting by decide)]
     rfl⟩

/-- The body's stored value is the stage function of its loaded blocks. -/
theorem payload_eq (x0 : Vec Ideal S1000x256 .f32) (x1 : Vec Ideal S1000x1 .f32) (x2 : Vec Ideal S256x128 .f32) : k4_pay1 x0 x1 x2 = scaledProduct x0 x1 x2 :=
  device_scaledProduct dims x0 x1 x2 _ _ _ _

/-- The printed index maps, decided over the grid: a row-indexed window is at block row t, every other at the origin. -/
theorem index_maps : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Window 0's block at point t holds rows 1000·t … of its array. -/
theorem rows_0 (c : Dev nD) (t : Fin cfg4.N) : RowsOf (V c main_v71 : S10000x256.Idx → EReal) (iblk4 V c 0 t) 1000 t.val := by
  intro y i h0 h1
  show V c main_v71 (((cfg4.win 0).blk t).view.emb y) = V c main_v71 i
  refine congrArg _ (funext fun a => Fin.ext ?_)
  obtain ⟨e0, e1, -, -, -, -, -, -⟩ := index_maps t
  match a with
  | ⟨0, _⟩ => show win4_0.index t (0 : Fin 2) * 1000 + 1 * (y 0).val = (i 0).val; omega
  | ⟨1, _⟩ => show win4_0.index t (1 : Fin 2) * 256 + 1 * (y 1).val = (i 1).val; omega

/-- Window 1's block at point t holds rows 1000·t … of its array. -/
theorem rows_1 (c : Dev nD) (t : Fin cfg4.N) : RowsOf (V c main_v34 : S10000x1.Idx → EReal) (iblk4 V c 1 t) 1000 t.val := by
  intro y i h0 h1
  show V c main_v34 (((cfg4.win 1).blk t).view.emb y) = V c main_v34 i
  refine congrArg _ (funext fun a => Fin.ext ?_)
  obtain ⟨-, -, e0, e1, -, -, -, -⟩ := index_maps t
  match a with
  | ⟨0, _⟩ => show win4_1.index t (0 : Fin 2) * 1000 + 1 * (y 0).val = (i 0).val; omega
  | ⟨1, _⟩ => show win4_1.index t (1 : Fin 2) * 1 + 1 * (y 1).val = (i 1).val; omega

/-- Window 2's block at every point is its whole array. -/
theorem whole_2 (c : Dev nD) (t : Fin cfg4.N) : iblk4 V c 2 t = (V c main_arg10 : S256x128.Idx → EReal) := by
  funext y
  show V c main_arg10 (((cfg4.win 2).blk t).view.emb y) = V c main_arg10 y
  refine congrArg _ (funext fun a => Fin.ext ?_)
  obtain ⟨-, -, -, -, e0, e1, -, -⟩ := index_maps t
  match a with
  | ⟨0, _⟩ => show win4_2.index t (0 : Fin 2) * 256 + 1 * (y 0).val = (y 0).val; omega
  | ⟨1, _⟩ => show win4_2.index t (1 : Fin 2) * 128 + 1 * (y 1).val = (y 1).val; omega

/-- What point t writes back is block t of the stage function of the whole operands. -/
theorem flushed_eq (c : Dev nD) (t : Fin cfg4.N) :
    (dat4 V c).flushed 3 t = ((cfg4.win 3).blk t).view.read (Elt Ideal) (scaledProduct (V c main_v71 : S10000x256.Idx → EReal) (V c main_v34 : S10000x1.Idx → EReal) (V c main_arg10 : S256x128.Idx → EReal)) := by
  show (cfg4.win 3).cut (grid4.coords t) ((dat4 V c).after 3 t) = _
  rw [after4_3]
  unfold out4_3
  rw [View.canon_unit_zero origin]
  simp only [View.ld_unit_zero (S := S1000x256) origin, View.ld_unit_zero (S := S1000x1) origin, View.ld_unit_zero (S := S256x128) origin]
  rw [payload_eq, whole_2 V c t]
  funext j
  obtain ⟨-, -, -, -, -, -, e0, e1⟩ := index_maps t
  refine scaledProduct_block (V c main_v71 : S10000x256.Idx → EReal) (V c main_v34 : S10000x1.Idx → EReal) (V c main_arg10 : S256x128.Idx → EReal) (iblk4 V c 0 t) (iblk4 V c 1 t) t.val (rows_0 V c t) (rows_1 V c t) j _ ?_ ?_
  · show win4_3.index t (0 : Fin 2) * 1000 + 1 * (j 0).val = 1000 * t.val + (j 0).val; omega
  · show win4_3.index t (1 : Fin 2) * 128 + 1 * (j 1).val = (j 1).val; omega

/-- An index of the output array is in point t's block iff each coordinate is in the block's range on its axis. -/
theorem mem_block (t : Fin cfg4.N) (i : S10000x128.Idx) :
    i ∈ ((cfg4.win 3).blk t).view.set ↔ ∀ a : Fin 2, win4_3.index t a * S1000x128.size a ≤ (i a).val ∧ (i a).val < win4_3.index t a * S1000x128.size a + S1000x128.size a := by
  show i ∈ ((View.whole main_v72).slice (win4_3.rect t)).set ↔ _
  rw [View.set_slice_whole, Rect.mem_set_unit]
  exact Iff.rfl

/-- Row r of the output is written at point r / 1000: the blocks cover the array. -/
theorem cover (i : S10000x128.Idx) : ∃ t : Fin cfg4.N, (cfg4.win 3).flush t = true ∧ i ∈ ((cfg4.win 3).blk t).view.set := by
  have hi0 : (i 0).val < 10000 := (i 0).isLt
  have hi1 : (i 1).val < 128 := (i 1).isLt
  have hN : grid4.N = 10 := N_4
  have ht : (i 0).val / 1000 < cfg4.N := by show (i 0).val / 1000 < grid4.N; omega
  refine ⟨⟨(i 0).val / 1000, ht⟩, flush4_3 _, ?_⟩
  rw [mem_block]
  obtain ⟨-, -, -, -, -, -, e0, e1⟩ := index_maps ⟨(i 0).val / 1000, ht⟩
  intro a
  match a with
  | ⟨0, _⟩ => show win4_3.index _ (0 : Fin 2) * 1000 ≤ (i 0).val ∧ (i 0).val < win4_3.index _ (0 : Fin 2) * 1000 + 1000; rw [e0]; show (i 0).val / 1000 * 1000 ≤ (i 0).val ∧ (i 0).val < (i 0).val / 1000 * 1000 + 1000; omega
  | ⟨1, _⟩ => show win4_3.index _ (1 : Fin 2) * 128 ≤ (i 1).val ∧ (i 1).val < win4_3.index _ (1 : Fin 2) * 128 + 128; rw [e1]; omega

/-- THE ARRAY after the region: the stage function of the operands as the region finds them. -/
theorem final (c : Dev nD) : (dat4 V c).arrAt 3 cfg4.N = (scaledProduct (V c main_v71 : S10000x256.Idx → EReal) (V c main_v34 : S10000x1.Idx → EReal) (V c main_arg10 : S256x128.Idx → EReal)) :=
  (dat4 V c).arrAt_eq_of_cover 3 _ (fun t _ => flushed_eq V c t) cover

end Cert.KernelIdeal.Stage4

end
-- ==== Proof.Stage5.lean ====
/-
  Region 5 of the device program, read as one whole-array function: the scaled, shifted rectifier: entry (r, q) of the output is max (A[r, q] · C[r, 0] + B[0, q]) 0.
  The grid has 10 points; point t stages rows 1000·t … 1000·t + 999 of every row-indexed operand and the whole
  of every other operand, and writes back rows 1000·t … of the output. Because an output entry reads only its own row
  of the row-indexed operands, the block written at point t is the stage function of the WHOLE operands restricted
  to those rows; the 10 blocks tile the 10000 rows, so the array after the region is that function everywhere.
-/
import proofs.«172988_j3350074491436_1_alg».proof.Proof.Gen.KernelIdeal.Frame
import proofs.«172988_j3350074491436_1_alg».proof.Proof.GraphStages
import Idealize.ShloMosaic.Lib.Pipeline.Value

set_option maxRecDepth 16384

noncomputable section

namespace Cert.KernelIdeal.Stage5

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GraphStages Cert.RowLayers

variable (V : (c : Dev nD) → (b : Ref sig .tc) → Buf (Elt Ideal) ((c : Thread nD τ).loc b))

theorem origin : (![0, 0] : Fin 2 → Nat) = fun _ => 0 := funext fun a => by fin_cases a <;> rfl

/-- The body's stored value is the stage function of its loaded blocks. -/
theorem payload_eq (x0 : Vec Ideal S1000x128 .f32) (x1 : Vec Ideal S1000x1 .f32) (x2 : Vec Ideal S1x128 .f32) : k5_pay1 x0 x1 x2 = scaleShiftRelu x0 x1 x2 :=
  device_scaleShiftRelu x0 x1 x2 _ _ _ _ _

/-- The printed index maps, decided over the grid: a row-indexed window is at block row t, every other at the origin. -/
theorem index_maps : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- Window 0's block at point t holds rows 1000·t … of its array. -/
theorem rows_0 (c : Dev nD) (t : Fin cfg5.N) : RowsOf (V c main_v82 : S10000x128.Idx → EReal) (iblk5 V c 0 t) 1000 t.val := by
  intro y i h0 h1
  show V c main_v82 (((cfg5.win 0).blk t).view.emb y) = V c main_v82 i
  refine congrArg _ (funext fun a => Fin.ext ?_)
  obtain ⟨e0, e1, -, -, -, -, -, -⟩ := index_maps t
  match a with
  | ⟨0, _⟩ => show win5_0.index t (0 : Fin 2) * 1000 + 1 * (y 0).val = (i 0).val; omega
  | ⟨1, _⟩ => show win5_0.index t (1 : Fin 2) * 128 + 1 * (y 1).val = (i 1).val; omega

/-- Window 1's block at point t holds rows 1000·t … of its array. -/
theorem rows_1 (c : Dev nD) (t : Fin cfg5.N) : RowsOf (V c main_v41 : S10000x1.Idx → EReal) (iblk5 V c 1 t) 1000 t.val := by
  intro y i h0 h1
  show V c main_v41 (((cfg5.win 1).blk t).view.emb y) = V c main_v41 i
  refine congrArg _ (funext fun a => Fin.ext ?_)
  obtain ⟨-, -, e0, e1, -, -, -, -⟩ := index_maps t
  match a with
  | ⟨0, _⟩ => show win5_1.index t (0 : Fin 2) * 1000 + 1 * (y 0).val = (i 0).val; omega
  | ⟨1, _⟩ => show win5_1.index t (1 : Fin 2) * 1 + 1 * (y 1).val = (i 1).val; omega

/-- Window 2's block at every point is its whole array. -/
theorem whole_2 (c : Dev nD) (t : Fin cfg5.N) : iblk5 V c 2 t = (V c main_v83 : S1x128.Idx → EReal) := by
  funext y
  show V c main_v83 (((cfg5.win 2).blk t).view.emb y) = V c main_v83 y
  refine congrArg _ (funext fun a => Fin.ext ?_)
  obtain ⟨-, -, -, -, e0, e1, -, -⟩ := index_maps t
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- What point t writes back is block t of the stage function of the whole operands. -/
theorem flushed_eq (c : Dev nD) (t : Fin cfg5.N) :
    (dat5 V c).flushed 3 t = ((cfg5.win 3).blk t).view.read (Elt Ideal) (scaleShiftRelu (V c main_v82 : S10000x128.Idx → EReal) (V c main_v41 : S10000x1.Idx → EReal) (V c main_v83 : S1x128.Idx → EReal)) := by
  show (cfg5.win 3).cut (grid5.coords t) ((dat5 V c).after 3 t) = _
  rw [after5_3]
  unfold out5_3
  rw [View.canon_unit_zero origin]
  simp only [View.ld_unit_zero (S := S1000x128) origin, View.ld_unit_zero (S := S1000x1) origin, View.ld_unit_zero (S := S1x128) origin]
  rw [payload_eq, whole_2 V c t]
  funext j
  obtain ⟨-, -, -, -, -, -, e0, e1⟩ := index_maps t
  refine scaleShiftRelu_block (V c main_v82 : S10000x128.Idx → EReal) (V c main_v41 : S10000x1.Idx → EReal) (V c main_v83 : S1x128.Idx → EReal) (iblk5 V c 0 t) (iblk5 V c 1 t) t.val (rows_0 V c t) (rows_1 V c t) j _ ?_ ?_
  · show win5_3.index t (0 : Fin 2) * 1000 + 1 * (j 0).val = 1000 * t.val + (j 0).val; omega
  · show win5_3.index t (1 : Fin 2) * 128 + 1 * (j 1).val = (j 1).val; omega

/-- An index of the output array is in point t's block iff each coordinate is in the block's range on its axis. -/
theorem mem_block (t : Fin cfg5.N) (i : S10000x128.Idx) :
    i ∈ ((cfg5.win 3).blk t).view.set ↔ ∀ a : Fin 2, win5_3.index t a * S1000x128.size a ≤ (i a).val ∧ (i a).val < win5_3.index t a * S1000x128.size a + S1000x128.size a := by
  show i ∈ ((View.whole main_v84).slice (win5_3.rect t)).set ↔ _
  rw [View.set_slice_whole, Rect.mem_set_unit]
  exact Iff.rfl

/-- Row r of the output is written at point r / 1000: the blocks cover the array. -/
theorem cover (i : S10000x128.Idx) : ∃ t : Fin cfg5.N, (cfg5.win 3).flush t = true ∧ i ∈ ((cfg5.win 3).blk t).view.set := by
  have hi0 : (i 0).val < 10000 := (i 0).isLt
  have hi1 : (i 1).val < 128 := (i 1).isLt
  have hN : grid5.N = 10 := N_5
  have ht : (i 0).val / 1000 < cfg5.N := by show (i 0).val / 1000 < grid5.N; omega
  refine ⟨⟨(i 0).val / 1000, ht⟩, flush5_3 _, ?_⟩
  rw [mem_block]
  obtain ⟨-, -, -, -, -, -, e0, e1⟩ := index_maps ⟨(i 0).val / 1000, ht⟩
  intro a
  match a with
  | ⟨0, _⟩ => show win5_3.index _ (0 : Fin 2) * 1000 ≤ (i 0).val ∧ (i 0).val < win5_3.index _ (0 : Fin 2) * 1000 + 1000; rw [e0]; show (i 0).val / 1000 * 1000 ≤ (i 0).val ∧ (i 0).val < (i 0).val / 1000 * 1000 + 1000; omega
  | ⟨1, _⟩ => show win5_3.index _ (1 : Fin 2) * 128 ≤ (i 1).val ∧ (i 1).val < win5_3.index _ (1 : Fin 2) * 128 + 128; rw [e1]; omega

/-- THE ARRAY after the region: the stage function of the operands as the region finds them. -/
theorem final (c : Dev nD) : (dat5 V c).arrAt 3 cfg5.N = (scaleShiftRelu (V c main_v82 : S10000x128.Idx → EReal) (V c main_v41 : S10000x1.Idx → EReal) (V c main_v83 : S1x128.Idx → EReal)) :=
  (dat5 V c).arrAt_eq_of_cover 3 _ (fun t _ => flushed_eq V c t) cover

end Cert.KernelIdeal.Stage5

end
-- ==== Proof.Stage6.lean ====
/-
  Region 6 of the device program, read as one whole-array function: the scaled projection: entry (r, q) of the output is ∑ k, (X[r, k] · C[r, 0]) · W[k, q].
  The grid has 10 points; point t stages rows 1000·t … 1000·t + 999 of every row-indexed operand and the whole
  of every other operand, and writes back rows 1000·t … of the output. Because an output entry reads only its own row
  of the row-indexed operands, the block written at point t is the stage function of the WHOLE operands restricted
  to those rows; the 10 blocks tile the 10000 rows, so the array after the region is that function everywhere.
-/
import proofs.«172988_j3350074491436_1_alg».proof.Proof.Gen.KernelIdeal.Frame
import proofs.«172988_j3350074491436_1_alg».proof.Proof.GraphStages
import Idealize.ShloMosaic.Lib.Pipeline.Value

set_option maxRecDepth 16384

noncomputable section

namespace Cert.KernelIdeal.Stage6

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GraphStages Cert.RowLayers

variable (V : (c : Dev nD) → (b : Ref sig .tc) → Buf (Elt Ideal) ((c : Thread nD τ).loc b))

theorem origin : (![0, 0] : Fin 2 → Nat) = fun _ => 0 := funext fun a => by fin_cases a <;> rfl

/-- The product's dimension numbers say rows times columns. -/
theorem dims : RowsTimesCols dot_S1000x128_S128x128_S1000x128_1_0_0_1_n_n :=
  ⟨rfl, rfl,
   fun j q => by
     unfold DotDims.lhsIdx
     rw [dif_neg (show ¬(0 : Fin 2) ∈ dot_S1000x128_S128x128_S1000x128_1_0_0_1_n_n.lhsBatch by decide), dif_pos (show (0 : Fin 2) ∈ dot_S1000x128_S128x128_S1000x128_1_0_0_1_n_n.lhsNonContracting by decide)]
     rfl,
   fun j q => dot_S1000x128_S128x128_S1000x128_1_0_0_1_n_n.lhsIdx_val_of_single rfl j q,
   fun j q => dot_S1000x128_S128x128_S1000x128_1_0_0_1_n_n.rhsIdx_val_of_single rfl j q,
   fun j q => by
     unfold DotDims.rhsIdx
     rw [dif_neg (show ¬(1 : Fin 2) ∈ dot_S1000x128_S128x128_S1000x128_1_0_0_1_n_n.rhsBatch by decide), dif_pos (show (1 : Fin 2) ∈ dot_S1000x128_S128x128_S1000x128_1_0_0_1_n_n.rhsNonContracting by decide)]
     rfl⟩

/-- The body's stored value is the stage function of its loaded blocks. -/
theorem payload_eq (x0 : Vec Ideal S1000x128 .f32) (x1 : Vec Ideal S1000x1 .f32) (x2 : Vec Ideal S128x128 .f32) : k6_pay1 x0 x1 x2 = scaledProduct x0 x1 x2 :=
  device_scaledProduct dims x0 x1 x2 _ _ _ _

/-- The printed index maps, decided over the grid: a row-indexed window is at block row t, every other at the origin. -/
theorem index_maps : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- Window 0's block at point t holds rows 1000·t … of its array. -/
theorem rows_0 (c : Dev nD) (t : Fin cfg6.N) : RowsOf (V c main_v84 : S10000x128.Idx → EReal) (iblk6 V c 0 t) 1000 t.val := by
  intro y i h0 h1
  show V c main_v84 (((cfg6.win 0).blk t).view.emb y) = V c main_v84 i
  refine congrArg _ (funext fun a => Fin.ext ?_)
  obtain ⟨e0, e1, -, -, -, -, -, -⟩ := index_maps t
  match a with
  | ⟨0, _⟩ => show win6_0.index t (0 : Fin 2) * 1000 + 1 * (y 0).val = (i 0).val; omega
  | ⟨1, _⟩ => show win6_0.index t (1 : Fin 2) * 128 + 1 * (y 1).val = (i 1).val; omega

/-- Window 1's block at point t holds rows 1000·t … of its array. -/
theorem rows_1 (c : Dev nD) (t : Fin cfg6.N) : RowsOf (V c main_v34 : S10000x1.Idx → EReal) (iblk6 V c 1 t) 1000 t.val := by
  intro y i h0 h1
  show V c main_v34 (((cfg6.win 1).blk t).view.emb y) = V c main_v34 i
  refine congrArg _ (funext fun a => Fin.ext ?_)
  obtain ⟨-, -, e0, e1, -, -, -, -⟩ := index_maps t
  match a with
  | ⟨0, _⟩ => show win6_1.index t (0 : Fin 2) * 1000 + 1 * (y 0).val = (i 0).val; omega
  | ⟨1, _⟩ => show win6_1.index t (1 : Fin 2) * 1 + 1 * (y 1).val = (i 1).val; omega

/-- Window 2's block at every point is its whole array. -/
theorem whole_2 (c : Dev nD) (t : Fin cfg6.N) : iblk6 V c 2 t = (V c main_arg12 : S128x128.Idx → EReal) := by
  funext y
  show V c main_arg12 (((cfg6.win 2).blk t).view.emb y) = V c main_arg12 y
  refine congrArg _ (funext fun a => Fin.ext ?_)
  obtain ⟨-, -, -, -, e0, e1, -, -⟩ := index_maps t
  match a with
  | ⟨0, _⟩ => show win6_2.index t (0 : Fin 2) * 128 + 1 * (y 0).val = (y 0).val; omega
  | ⟨1, _⟩ => show win6_2.index t (1 : Fin 2) * 128 + 1 * (y 1).val = (y 1).val; omega

/-- What point t writes back is block t of the stage function of the whole operands. -/
theorem flushed_eq (c : Dev nD) (t : Fin cfg6.N) :
    (dat6 V c).flushed 3 t = ((cfg6.win 3).blk t).view.read (Elt Ideal) (scaledProduct (V c main_v84 : S10000x128.Idx → EReal) (V c main_v34 : S10000x1.Idx → EReal) (V c main_arg12 : S128x128.Idx → EReal)) := by
  show (cfg6.win 3).cut (grid6.coords t) ((dat6 V c).after 3 t) = _
  rw [after6_3]
  unfold out6_3
  rw [View.canon_unit_zero origin]
  simp only [View.ld_unit_zero (S := S1000x128) origin, View.ld_unit_zero (S := S1000x1) origin, View.ld_unit_zero (S := S128x128) origin]
  rw [payload_eq, whole_2 V c t]
  funext j
  obtain ⟨-, -, -, -, -, -, e0, e1⟩ := index_maps t
  refine scaledProduct_block (V c main_v84 : S10000x128.Idx → EReal) (V c main_v34 : S10000x1.Idx → EReal) (V c main_arg12 : S128x128.Idx → EReal) (iblk6 V c 0 t) (iblk6 V c 1 t) t.val (rows_0 V c t) (rows_1 V c t) j _ ?_ ?_
  · show win6_3.index t (0 : Fin 2) * 1000 + 1 * (j 0).val = 1000 * t.val + (j 0).val; omega
  · show win6_3.index t (1 : Fin 2) * 128 + 1 * (j 1).val = (j 1).val; omega

/-- An index of the output array is in point t's block iff each coordinate is in the block's range on its axis. -/
theorem mem_block (t : Fin cfg6.N) (i : S10000x128.Idx) :
    i ∈ ((cfg6.win 3).blk t).view.set ↔ ∀ a : Fin 2, win6_3.index t a * S1000x128.size a ≤ (i a).val ∧ (i a).val < win6_3.index t a * S1000x128.size a + S1000x128.size a := by
  show i ∈ ((View.whole main_v85).slice (win6_3.rect t)).set ↔ _
  rw [View.set_slice_whole, Rect.mem_set_unit]
  exact Iff.rfl

/-- Row r of the output is written at point r / 1000: the blocks cover the array. -/
theorem cover (i : S10000x128.Idx) : ∃ t : Fin cfg6.N, (cfg6.win 3).flush t = true ∧ i ∈ ((cfg6.win 3).blk t).view.set := by
  have hi0 : (i 0).val < 10000 := (i 0).isLt
  have hi1 : (i 1).val < 128 := (i 1).isLt
  have hN : grid6.N = 10 := N_6
  have ht : (i 0).val / 1000 < cfg6.N := by show (i 0).val / 1000 < grid6.N; omega
  refine ⟨⟨(i 0).val / 1000, ht⟩, flush6_3 _, ?_⟩
  rw [mem_block]
  obtain ⟨-, -, -, -, -, -, e0, e1⟩ := index_maps ⟨(i 0).val / 1000, ht⟩
  intro a
  match a with
  | ⟨0, _⟩ => show win6_3.index _ (0 : Fin 2) * 1000 ≤ (i 0).val ∧ (i 0).val < win6_3.index _ (0 : Fin 2) * 1000 + 1000; rw [e0]; show (i 0).val / 1000 * 1000 ≤ (i 0).val ∧ (i 0).val < (i 0).val / 1000 * 1000 + 1000; omega
  | ⟨1, _⟩ => show win6_3.index _ (1 : Fin 2) * 128 ≤ (i 1).val ∧ (i 1).val < win6_3.index _ (1 : Fin 2) * 128 + 128; rw [e1]; omega

/-- THE ARRAY after the region: the stage function of the operands as the region finds them. -/
theorem final (c : Dev nD) : (dat6 V c).arrAt 3 cfg6.N = (scaledProduct (V c main_v84 : S10000x128.Idx → EReal) (V c main_v34 : S10000x1.Idx → EReal) (V c main_arg12 : S128x128.Idx → EReal)) :=
  (dat6 V c).arrAt_eq_of_cover 3 _ (fun t _ => flushed_eq V c t) cover

end Cert.KernelIdeal.Stage6

end
-- ==== Proof.Stage7.lean ====
/-
  Region 7 of the device program, read as one whole-array function: the scaled, shifted rectifier: entry (r, q) of the output is max (A[r, q] · C[r, 0] + B[0, q]) 0.
  The grid has 10 points; point t stages rows 1000·t … 1000·t + 999 of every row-indexed operand and the whole
  of every other operand, and writes back rows 1000·t … of the output. Because an output entry reads only its own row
  of the row-indexed operands, the block written at point t is the stage function of the WHOLE operands restricted
  to those rows; the 10 blocks tile the 10000 rows, so the array after the region is that function everywhere.
-/
import proofs.«172988_j3350074491436_1_alg».proof.Proof.Gen.KernelIdeal.Frame
import proofs.«172988_j3350074491436_1_alg».proof.Proof.GraphStages
import Idealize.ShloMosaic.Lib.Pipeline.Value

set_option maxRecDepth 16384

noncomputable section

namespace Cert.KernelIdeal.Stage7

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GraphStages Cert.RowLayers

variable (V : (c : Dev nD) → (b : Ref sig .tc) → Buf (Elt Ideal) ((c : Thread nD τ).loc b))

theorem origin : (![0, 0] : Fin 2 → Nat) = fun _ => 0 := funext fun a => by fin_cases a <;> rfl

/-- The body's stored value is the stage function of its loaded blocks. -/
theorem payload_eq (x0 : Vec Ideal S1000x128 .f32) (x1 : Vec Ideal S1000x1 .f32) (x2 : Vec Ideal S1x128 .f32) : k7_pay1 x0 x1 x2 = scaleShiftRelu x0 x1 x2 :=
  device_scaleShiftRelu x0 x1 x2 _ _ _ _ _

/-- The printed index maps, decided over the grid: a row-indexed window is at block row t, every other at the origin. -/
theorem index_maps : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- Window 0's block at point t holds rows 1000·t … of its array. -/
theorem rows_0 (c : Dev nD) (t : Fin cfg7.N) : RowsOf (V c main_v95 : S10000x128.Idx → EReal) (iblk7 V c 0 t) 1000 t.val := by
  intro y i h0 h1
  show V c main_v95 (((cfg7.win 0).blk t).view.emb y) = V c main_v95 i
  refine congrArg _ (funext fun a => Fin.ext ?_)
  obtain ⟨e0, e1, -, -, -, -, -, -⟩ := index_maps t
  match a with
  | ⟨0, _⟩ => show win7_0.index t (0 : Fin 2) * 1000 + 1 * (y 0).val = (i 0).val; omega
  | ⟨1, _⟩ => show win7_0.index t (1 : Fin 2) * 128 + 1 * (y 1).val = (i 1).val; omega

/-- Window 1's block at point t holds rows 1000·t … of its array. -/
theorem rows_1 (c : Dev nD) (t : Fin cfg7.N) : RowsOf (V c main_v41 : S10000x1.Idx → EReal) (iblk7 V c 1 t) 1000 t.val := by
  intro y i h0 h1
  show V c main_v41 (((cfg7.win 1).blk t).view.emb y) = V c main_v41 i
  refine congrArg _ (funext fun a => Fin.ext ?_)
  obtain ⟨-, -, e0, e1, -, -, -, -⟩ := index_maps t
  match a with
  | ⟨0, _⟩ => show win7_1.index t (0 : Fin 2) * 1000 + 1 * (y 0).val = (i 0).val; omega
  | ⟨1, _⟩ => show win7_1.index t (1 : Fin 2) * 1 + 1 * (y 1).val = (i 1).val; omega

/-- Window 2's block at every point is its whole array. -/
theorem whole_2 (c : Dev nD) (t : Fin cfg7.N) : iblk7 V c 2 t = (V c main_v96 : S1x128.Idx → EReal) := by
  funext y
  show V c main_v96 (((cfg7.win 2).blk t).view.emb y) = V c main_v96 y
  refine congrArg _ (funext fun a => Fin.ext ?_)
  obtain ⟨-, -, -, -, e0, e1, -, -⟩ := index_maps t
  match a with
  | ⟨0, _⟩ => show win7_2.index t (0 : Fin 2) * 1 + 1 * (y 0).val = (y 0).val; omega
  | ⟨1, _⟩ => show win7_2.index t (1 : Fin 2) * 128 + 1 * (y 1).val = (y 1).val; omega

/-- What point t writes back is block t of the stage function of the whole operands. -/
theorem flushed_eq (c : Dev nD) (t : Fin cfg7.N) :
    (dat7 V c).flushed 3 t = ((cfg7.win 3).blk t).view.read (Elt Ideal) (scaleShiftRelu (V c main_v95 : S10000x128.Idx → EReal) (V c main_v41 : S10000x1.Idx → EReal) (V c main_v96 : S1x128.Idx → EReal)) := by
  show (cfg7.win 3).cut (grid7.coords t) ((dat7 V c).after 3 t) = _
  rw [after7_3]
  unfold out7_3
  rw [View.canon_unit_zero origin]
  simp only [View.ld_unit_zero (S := S1000x128) origin, View.ld_unit_zero (S := S1000x1) origin, View.ld_unit_zero (S := S1x128) origin]
  rw [payload_eq, whole_2 V c t]
  funext j
  obtain ⟨-, -, -, -, -, -, e0, e1⟩ := index_maps t
  refine scaleShiftRelu_block (V c main_v95 : S10000x128.Idx → EReal) (V c main_v41 : S10000x1.Idx → EReal) (V c main_v96 : S1x128.Idx → EReal) (iblk7 V c 0 t) (iblk7 V c 1 t) t.val (rows_0 V c t) (rows_1 V c t) j _ ?_ ?_
  · show win7_3.index t (0 : Fin 2) * 1000 + 1 * (j 0).val = 1000 * t.val + (j 0).val; omega
  · show win7_3.index t (1 : Fin 2) * 128 + 1 * (j 1).val = (j 1).val; omega

/-- An index of the output array is in point t's block iff each coordinate is in the block's range on its axis. -/
theorem mem_block (t : Fin cfg7.N) (i : S10000x128.Idx) :
    i ∈ ((cfg7.win 3).blk t).view.set ↔ ∀ a : Fin 2, win7_3.index t a * S1000x128.size a ≤ (i a).val ∧ (i a).val < win7_3.index t a * S1000x128.size a + S1000x128.size a := by
  show i ∈ ((View.whole main_v97).slice (win7_3.rect t)).set ↔ _
  rw [View.set_slice_whole, Rect.mem_set_unit]
  exact Iff.rfl

/-- Row r of the output is written at point r / 1000: the blocks cover the array. -/
theorem cover (i : S10000x128.Idx) : ∃ t : Fin cfg7.N, (cfg7.win 3).flush t = true ∧ i ∈ ((cfg7.win 3).blk t).view.set := by
  have hi0 : (i 0).val < 10000 := (i 0).isLt
  have hi1 : (i 1).val < 128 := (i 1).isLt
  have hN : grid7.N = 10 := N_7
  have ht : (i 0).val / 1000 < cfg7.N := by show (i 0).val / 1000 < grid7.N; omega
  refine ⟨⟨(i 0).val / 1000, ht⟩, flush7_3 _, ?_⟩
  rw [mem_block]
  obtain ⟨-, -, -, -, -, -, e0, e1⟩ := index_maps ⟨(i 0).val / 1000, ht⟩
  intro a
  match a with
  | ⟨0, _⟩ => show win7_3.index _ (0 : Fin 2) * 1000 ≤ (i 0).val ∧ (i 0).val < win7_3.index _ (0 : Fin 2) * 1000 + 1000; rw [e0]; show (i 0).val / 1000 * 1000 ≤ (i 0).val ∧ (i 0).val < (i 0).val / 1000 * 1000 + 1000; omega
  | ⟨1, _⟩ => show win7_3.index _ (1 : Fin 2) * 128 ≤ (i 1).val ∧ (i 1).val < win7_3.index _ (1 : Fin 2) * 128 + 128; rw [e1]; omega

/-- THE ARRAY after the region: the stage function of the operands as the region finds them. -/
theorem final (c : Dev nD) : (dat7 V c).arrAt 3 cfg7.N = (scaleShiftRelu (V c main_v95 : S10000x128.Idx → EReal) (V c main_v41 : S10000x1.Idx → EReal) (V c main_v96 : S1x128.Idx → EReal)) :=
  (dat7 V c).arrAt_eq_of_cover 3 _ (fun t _ => flushed_eq V c t) cover

end Cert.KernelIdeal.Stage7

end
-- ==== Proof.Stage8.lean ====
/-
  Region 8 of the device program, read as one whole-array function: the pair score: entry (r, q) of the output is ((∑ k, S[r, k] · Wt[k, q]) + (∑ k, D[r, k] · Wb[k, q])) + B[0, q].
  The grid has 20 points; point t stages rows 8000·t … 8000·t + 7999 of every row-indexed operand and the whole
  of every other operand, and writes back rows 8000·t … of the output. Because an output entry reads only its own row
  of the row-indexed operands, the block written at point t is the stage function of the WHOLE operands restricted
  to those rows; the 20 blocks tile the 160000 rows, so the array after the region is that function everywhere.
-/
import proofs.«172988_j3350074491436_1_alg».proof.Proof.Gen.KernelIdeal.Frame
import proofs.«172988_j3350074491436_1_alg».proof.Proof.GraphStages
import Idealize.ShloMosaic.Lib.Pipeline.Value

set_option maxRecDepth 16384

noncomputable section

namespace Cert.KernelIdeal.Stage8

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GraphStages Cert.RowLayers

variable (V : (c : Dev nD) → (b : Ref sig .tc) → Buf (Elt Ideal) ((c : Thread nD τ).loc b))

theorem origin : (![0, 0] : Fin 2 → Nat) = fun _ => 0 := funext fun a => by fin_cases a <;> rfl

/-- The product's dimension numbers say rows times columns. -/
theorem dims : RowsTimesCols dot_S8000x128_S128x16_S8000x16_1_0_0_1_n_n :=
  ⟨rfl, rfl,
   fun j q => by
     unfold DotDims.lhsIdx
     rw [dif_neg (show ¬(0 : Fin 2) ∈ dot_S8000x128_S128x16_S8000x16_1_0_0_1_n_n.lhsBatch by decide), dif_pos (show (0 : Fin 2) ∈ dot_S8000x128_S128x16_S8000x16_1_0_0_1_n_n.lhsNonContracting by decide)]
     rfl,
   fun j q => dot_S8000x128_S128x16_S8000x16_1_0_0_1_n_n.lhsIdx_val_of_single rfl j q,
   fun j q => dot_S8000x128_S128x16_S8000x16_1_0_0_1_n_n.rhsIdx_val_of_single rfl j q,
   fun j q => by
     unfold DotDims.rhsIdx
     rw [dif_neg (show ¬(1 : Fin 2) ∈ dot_S8000x128_S128x16_S8000x16_1_0_0_1_n_n.rhsBatch by decide), dif_pos (show (1 : Fin 2) ∈ dot_S8000x128_S128x16_S8000x16_1_0_0_1_n_n.rhsNonContracting by decide)]
     rfl⟩

/-- The body's stored value is the stage function of its loaded blocks. -/
theorem payload_eq (x0 : Vec Ideal S8000x128 .f32) (x1 : Vec Ideal S8000x128 .f32) (x2 : Vec Ideal S128x16 .f32) (x3 : Vec Ideal S128x16 .f32) (x4 : Vec Ideal S1x16 .f32) : k8_pay1 x0 x1 x2 x3 x4 = pairScore x0 x1 x2 x3 x4 :=
  device_pairScore dims x0 x1 x2 x3 x4 _ _ _ _ _

/-- The printed index maps, decided over the grid: a row-indexed window is at block row t, every other at the origin. -/
theorem index_maps : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = t.val
    ∧ win8_5.index t (1 : Fin 2) = 0 :=
  (by decide +kernel : ∀ t : Fin grid8.N, _)

/-- Window 0's block at point t holds rows 8000·t … of its array. -/
theorem rows_0 (c : Dev nD) (t : Fin cfg8.N) : RowsOf (V c main_v104 : S160000x128.Idx → EReal) (iblk8 V c 0 t) 8000 t.val := by
  intro y i h0 h1
  show V c main_v104 (((cfg8.win 0).blk t).view.emb y) = V c main_v104 i
  refine congrArg _ (funext fun a => Fin.ext ?_)
  obtain ⟨e0, e1, -, -, -, -, -, -, -, -, -, -⟩ := index_maps t
  match a with
  | ⟨0, _⟩ => show win8_0.index t (0 : Fin 2) * 8000 + 1 * (y 0).val = (i 0).val; omega
  | ⟨1, _⟩ => show win8_0.index t (1 : Fin 2) * 128 + 1 * (y 1).val = (i 1).val; omega

/-- Window 1's block at point t holds rows 8000·t … of its array. -/
theorem rows_1 (c : Dev nD) (t : Fin cfg8.N) : RowsOf (V c main_v111 : S160000x128.Idx → EReal) (iblk8 V c 1 t) 8000 t.val := by
  intro y i h0 h1
  show V c main_v111 (((cfg8.win 1).blk t).view.emb y) = V c main_v111 i
  refine congrArg _ (funext fun a => Fin.ext ?_)
  obtain ⟨-, -, e0, e1, -, -, -, -, -, -, -, -⟩ := index_maps t
  match a with
  | ⟨0, _⟩ => show win8_1.index t (0 : Fin 2) * 8000 + 1 * (y 0).val = (i 0).val; omega
  | ⟨1, _⟩ => show win8_1.index t (1 : Fin 2) * 128 + 1 * (y 1).val = (i 1).val; omega

/-- Window 2's block at every point is its whole array. -/
theorem whole_2 (c : Dev nD) (t : Fin cfg8.N) : iblk8 V c 2 t = (V c main_v112 : S128x16.Idx → EReal) := by
  funext y
  show V c main_v112 (((cfg8.win 2).blk t).view.emb y) = V c main_v112 y
  refine congrArg _ (funext fun a => Fin.ext ?_)
  obtain ⟨-, -, -, -, e0, e1, -, -, -, -, -, -⟩ := index_maps t
  match a with
  | ⟨0, _⟩ => show win8_2.index t (0 : Fin 2) * 128 + 1 * (y 0).val = (y 0).val; omega
  | ⟨1, _⟩ => show win8_2.index t (1 : Fin 2) * 16 + 1 * (y 1).val = (y 1).val; omega

/-- Window 3's block at every point is its whole array. -/
theorem whole_3 (c : Dev nD) (t : Fin cfg8.N) : iblk8 V c 3 t = (V c main_v113 : S128x16.Idx → EReal) := by
  funext y
  show V c main_v113 (((cfg8.win 3).blk t).view.emb y) = V c main_v113 y
  refine congrArg _ (funext fun a => Fin.ext ?_)
  obtain ⟨-, -, -, -, -, -, e0, e1, -, -, -, -⟩ := index_maps t
  match a with
  | ⟨0, _⟩ => show win8_3.index t (0 : Fin 2) * 128 + 1 * (y 0).val = (y 0).val; omega
  | ⟨1, _⟩ => show win8_3.index t (1 : Fin 2) * 16 + 1 * (y 1).val = (y 1).val; omega

/-- Window 4's block at every point is its whole array. -/
theorem whole_4 (c : Dev nD) (t : Fin cfg8.N) : iblk8 V c 4 t = (V c main_v114 : S1x16.Idx → EReal) := by
  funext y
  show V c main_v114 (((cfg8.win 4).blk t).view.emb y) = V c main_v114 y
  refine congrArg _ (funext fun a => Fin.ext ?_)
  obtain ⟨-, -, -, -, -, -, -, -, e0, e1, -, -⟩ := index_maps t
  match a with
  | ⟨0, _⟩ => show win8_4.index t (0 : Fin 2) * 1 + 1 * (y 0).val = (y 0).val; omega
  | ⟨1, _⟩ => show win8_4.index t (1 : Fin 2) * 16 + 1 * (y 1).val = (y 1).val; omega

/-- What point t writes back is block t of the stage function of the whole operands. -/
theorem flushed_eq (c : Dev nD) (t : Fin cfg8.N) :
    (dat8 V c).flushed 5 t = ((cfg8.win 5).blk t).view.read (Elt Ideal) (pairScore (V c main_v104 : S160000x128.Idx → EReal) (V c main_v111 : S160000x128.Idx → EReal) (V c main_v112 : S128x16.Idx → EReal) (V c main_v113 : S128x16.Idx → EReal) (V c main_v114 : S1x16.Idx → EReal)) := by
  show (cfg8.win 5).cut (grid8.coords t) ((dat8 V c).after 5 t) = _
  rw [after8_5]
  unfold out8_5
  rw [View.canon_unit_zero origin]
  simp only [View.ld_unit_zero (S := S8000x128) origin, View.ld_unit_zero (S := S128x16) origin, View.ld_unit_zero (S := S1x16) origin]
  rw [payload_eq, whole_2 V c t, whole_3 V c t, whole_4 V c t]
  funext j
  obtain ⟨-, -, -, -, -, -, -, -, -, -, e0, e1⟩ := index_maps t
  refine pairScore_block (V c main_v104 : S160000x128.Idx → EReal) (V c main_v111 : S160000x128.Idx → EReal) (V c main_v112 : S128x16.Idx → EReal) (V c main_v113 : S128x16.Idx → EReal) (V c main_v114 : S1x16.Idx → EReal) (iblk8 V c 0 t) (iblk8 V c 1 t) t.val (rows_0 V c t) (rows_1 V c t) j _ ?_ ?_
  · show win8_5.index t (0 : Fin 2) * 8000 + 1 * (j 0).val = 8000 * t.val + (j 0).val; omega
  · show win8_5.index t (1 : Fin 2) * 16 + 1 * (j 1).val = (j 1).val; omega

/-- An index of the output array is in point t's block iff each coordinate is in the block's range on its axis. -/
theorem mem_block (t : Fin cfg8.N) (i : S160000x16.Idx) :
    i ∈ ((cfg8.win 5).blk t).view.set ↔ ∀ a : Fin 2, win8_5.index t a * S8000x16.size a ≤ (i a).val ∧ (i a).val < win8_5.index t a * S8000x16.size a + S8000x16.size a := by
  show i ∈ ((View.whole main_v115).slice (win8_5.rect t)).set ↔ _
  rw [View.set_slice_whole, Rect.mem_set_unit]
  exact Iff.rfl

/-- Row r of the output is written at point r / 8000: the blocks cover the array. -/
theorem cover (i : S160000x16.Idx) : ∃ t : Fin cfg8.N, (cfg8.win 5).flush t = true ∧ i ∈ ((cfg8.win 5).blk t).view.set := by
  have hi0 : (i 0).val < 160000 := (i 0).isLt
  have hi1 : (i 1).val < 16 := (i 1).isLt
  have hN : grid8.N = 20 := N_8
  have ht : (i 0).val / 8000 < cfg8.N := by show (i 0).val / 8000 < grid8.N; omega
  refine ⟨⟨(i 0).val / 8000, ht⟩, flush8_5 _, ?_⟩
  rw [mem_block]
  obtain ⟨-, -, -, -, -, -, -, -, -, -, e0, e1⟩ := index_maps ⟨(i 0).val / 8000, ht⟩
  intro a
  match a with
  | ⟨0, _⟩ => show win8_5.index _ (0 : Fin 2) * 8000 ≤ (i 0).val ∧ (i 0).val < win8_5.index _ (0 : Fin 2) * 8000 + 8000; rw [e0]; show (i 0).val / 8000 * 8000 ≤ (i 0).val ∧ (i 0).val < (i 0).val / 8000 * 8000 + 8000; omega
  | ⟨1, _⟩ => show win8_5.index _ (1 : Fin 2) * 16 ≤ (i 1).val ∧ (i 1).val < win8_5.index _ (1 : Fin 2) * 16 + 16; rw [e1]; omega

/-- THE ARRAY after the region: the stage function of the operands as the region finds them. -/
theorem final (c : Dev nD) : (dat8 V c).arrAt 5 cfg8.N = (pairScore (V c main_v104 : S160000x128.Idx → EReal) (V c main_v111 : S160000x128.Idx → EReal) (V c main_v112 : S128x16.Idx → EReal) (V c main_v113 : S128x16.Idx → EReal) (V c main_v114 : S1x16.Idx → EReal)) :=
  (dat8 V c).arrAt_eq_of_cover 5 _ (fun t _ => flushed_eq V c t) cover

end Cert.KernelIdeal.Stage8

end
-- ==== Proof.GraphStagesHost.lean ====
/-
  The host's spelling of the dense stages of a graph network, on whole arrays over the extended reals.

  The host computes a product with no accumulator, adds a bias VECTOR [b] given a unit leading axis and broadcast
  down the rows, scales rows by an [a, 1] column broadcast along the columns, and rectifies against a rank-0 zero
  broadcast over the array. Entry by entry these are the stage functions of GraphStages, the bias row being the
  vector viewed as a [1, b] array.
-/
import proofs.«172988_j3350074491436_1_alg».proof.Proof.GraphStages

noncomputable section

namespace Cert.GraphStages

open Idealize.ShloMosaic Idealize.ShloMosaic.ValueIdx Cert.RowLayers

section Host
variable {a K b : ℕ} {d : DotDims ⟨2, ![a, K]⟩ ⟨2, ![K, b]⟩ ⟨2, ![a, b]⟩}

/-- Entry (p, q) of the host's product. -/
theorem dotGeneral_ix2 {φ₁ φ₂ : FTy} (H : RowsTimesCols d) (lhs : FVec Ideal ⟨2, ![a, K]⟩ φ₁) (rhs : FVec Ideal ⟨2, ![K, b]⟩ φ₂)
    (p : Fin a) (q : Fin b) :
    Host.dotGeneral (F := Ideal) d none lhs rhs (ix2 p q) = ∑ k : Fin K, lhs (ix2 p k) * rhs (ix2 k q) :=
  congrFun (rowOf_dotGeneral H none lhs rhs p) q

/-- Entry (p, q) of a bias vector given a unit leading axis and broadcast down the rows. -/
theorem host_bias_ix2 (x : (⟨1, ![b]⟩ : Shape).Idx → EReal)
    (h1 : (⟨1, ![b]⟩ : Shape).BroadcastsInDim ⟨2, ![1, b]⟩ ![1]) (h2 : (⟨2, ![1, b]⟩ : Shape).BroadcastsInDim ⟨2, ![a, b]⟩ ![0, 1])
    (hc : (⟨1, ![b]⟩ : Shape).ShapeCasts ⟨2, ![1, b]⟩) (p : Fin a) (q : Fin b) :
    broadcastInDim ⟨2, ![a, b]⟩ ![0, 1] h2 (broadcastInDim ⟨2, ![1, b]⟩ ![1] h1 x) (ix2 p q)
      = shapeCast ⟨2, ![1, b]⟩ x hc (ix2 (0 : Fin 1) q) := by
  rw [shapeCast_a_1a_apply]
  exact congrFun (rowOf_broadcastInDim_vec x h1 h2 p) q

/-- Entry (p, k) of an [a, 1] column broadcast along the columns. -/
theorem host_column_ix2 {n : ℕ} (C : Mat a 1) (h : (⟨2, ![a, 1]⟩ : Shape).BroadcastsInDim ⟨2, ![a, n]⟩ ![0, 1]) (p : Fin a) (k : Fin n) :
    broadcastInDim ⟨2, ![a, n]⟩ ![0, 1] h C (ix2 p k) = C (ix2 p (0 : Fin 1)) :=
  broadcastInDim_apply ![0, 1] h C (ix2 p k) (ix2 p (0 : Fin 1)) (fun ax => by
    match ax with
    | ⟨0, _⟩ => show p.val = if a = 1 then 0 else p.val; split <;> [(have := p.isLt; omega); rfl]
    | ⟨1, _⟩ => show (0 : ℕ) = if (1 : ℕ) = 1 then 0 else k.val; rw [if_pos rfl])

theorem host_affine (H : RowsTimesCols d) (X : FVec Ideal ⟨2, ![a, K]⟩ .f32) (W : FVec Ideal ⟨2, ![K, b]⟩ .f32)
    (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1])
    (hc : (⟨1, ![b]⟩ : Shape).ShapeCasts ⟨2, ![1, b]⟩) :
    addf (Host.dotGeneral (F := Ideal) d none X W) (broadcastInDim ⟨2, ![a, b]⟩ ![0, 1] h2 (broadcastInDim ⟨2, ![1, b]⟩ ![1] h1 bias))
      = affine X W (shapeCast ⟨2, ![1, b]⟩ bias hc) := by
  funext i
  obtain ⟨p, q, rfl⟩ : ∃ (p : Fin a) (q : Fin b), i = ix2 p q := ⟨i 0, i 1, eq_ix2 i⟩
  show Host.dotGeneral (F := Ideal) d none X W (ix2 p q)
      + broadcastInDim ⟨2, ![a, b]⟩ ![0, 1] h2 (broadcastInDim ⟨2, ![1, b]⟩ ![1] h1 bias) (ix2 p q) = _
  rw [dotGeneral_ix2 H, host_bias_ix2 bias h1 h2 hc]
  rfl

theorem host_affineRelu {s : Shape} (H : RowsTimesCols d) (X : FVec Ideal ⟨2, ![a, K]⟩ .f32) (W : FVec Ideal ⟨2, ![K, b]⟩ .f32)
    (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1])
    (hc : (⟨1, ![b]⟩ : Shape).ShapeCasts ⟨2, ![1, b]⟩) (dims : Fin s.rank → Fin 2) (h0 : s.BroadcastsInDim ⟨2, ![a, b]⟩ dims) :
    maximumf (addf (Host.dotGeneral (F := Ideal) d none X W)
          (broadcastInDim ⟨2, ![a, b]⟩ ![0, 1] h2 (broadcastInDim ⟨2, ![1, b]⟩ ![1] h1 bias)))
        (broadcastInDim ⟨2, ![a, b]⟩ dims h0 (constant (F := Ideal) s .f32 0x00000000#32))
      = affineRelu X W (shapeCast ⟨2, ![1, b]⟩ bias hc) := by
  rw [host_affine H X W bias h1 h2 hc]
  rfl

theorem host_scaledProduct (H : RowsTimesCols d) (X : FVec Ideal ⟨2, ![a, K]⟩ .f32) (C : FVec Ideal ⟨2, ![a, 1]⟩ .f32)
    (W : FVec Ideal ⟨2, ![K, b]⟩ .f32) (hC : (⟨2, ![a, 1]⟩ : Shape).BroadcastsInDim ⟨2, ![a, K]⟩ ![0, 1]) :
    Host.dotGeneral (F := Ideal) d none (mulf X (broadcastInDim ⟨2, ![a, K]⟩ ![0, 1] hC C)) W = scaledProduct X C W := by
  funext i
  obtain ⟨p, q, rfl⟩ : ∃ (p : Fin a) (q : Fin b), i = ix2 p q := ⟨i 0, i 1, eq_ix2 i⟩
  rw [dotGeneral_ix2 H]
  refine Finset.sum_congr rfl fun k _ => ?_
  show (X (ix2 p k) * broadcastInDim ⟨2, ![a, K]⟩ ![0, 1] hC C (ix2 p k)) * W (ix2 k q) = _
  rw [host_column_ix2]
  rfl

theorem host_scaleShiftRelu {s : Shape} (A : FVec Ideal ⟨2, ![a, b]⟩ .f32) (C : FVec Ideal ⟨2, ![a, 1]⟩ .f32)
    (bias : FVec Ideal ⟨1, ![b]⟩ .f32) (hC : (⟨2, ![a, 1]⟩ : Shape).BroadcastsInDim ⟨2, ![a, b]⟩ ![0, 1])
    (h1 : (⟨1, ![b]⟩ : Shape).BroadcastsInDim ⟨2, ![1, b]⟩ ![1]) (h2 : (⟨2, ![1, b]⟩ : Shape).BroadcastsInDim ⟨2, ![a, b]⟩ ![0, 1])
    (hc : (⟨1, ![b]⟩ : Shape).ShapeCasts ⟨2, ![1, b]⟩) (dims : Fin s.rank → Fin 2) (h0 : s.BroadcastsInDim ⟨2, ![a, b]⟩ dims) :
    maximumf (addf (mulf A (broadcastInDim ⟨2, ![a, b]⟩ ![0, 1] hC C))
          (broadcastInDim ⟨2, ![a, b]⟩ ![0, 1] h2 (broadcastInDim ⟨2, ![1, b]⟩ ![1] h1 bias)))
        (broadcastInDim ⟨2, ![a, b]⟩ dims h0 (constant (F := Ideal) s .f32 0x00000000#32))
      = scaleShiftRelu A C (shapeCast ⟨2, ![1, b]⟩ bias hc) := by
  funext i
  obtain ⟨p, q, rfl⟩ : ∃ (p : Fin a) (q : Fin b), i = ix2 p q := ⟨i 0, i 1, eq_ix2 i⟩
  show max (A (ix2 p q) * broadcastInDim ⟨2, ![a, b]⟩ ![0, 1] hC C (ix2 p q)
        + broadcastInDim ⟨2, ![a, b]⟩ ![0, 1] h2 (broadcastInDim ⟨2, ![1, b]⟩ ![1] h1 bias) (ix2 p q))
      (Ideal.ofBits .f32 0x00000000#32) = _
  rw [host_column_ix2, host_bias_ix2 bias h1 h2 hc]
  rfl

theorem host_pairScore (H : RowsTimesCols d) (S D : FVec Ideal ⟨2, ![a, K]⟩ .f32) (Wt Wb : FVec Ideal ⟨2, ![K, b]⟩ .f32)
    (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1])
    (hc : (⟨1, ![b]⟩ : Shape).ShapeCasts ⟨2, ![1, b]⟩) :
    addf (addf (Host.dotGeneral (F := Ideal) d none S Wt) (Host.dotGeneral (F := Ideal) d none D Wb))
        (broadcastInDim ⟨2, ![a, b]⟩ ![0, 1] h2 (broadcastInDim ⟨2, ![1, b]⟩ ![1] h1 bias))
      = pairScore S D Wt Wb (shapeCast ⟨2, ![1, b]⟩ bias hc) := by
  funext i
  obtain ⟨p, q, rfl⟩ : ∃ (p : Fin a) (q : Fin b), i = ix2 p q := ⟨i 0, i 1, eq_ix2 i⟩
  show (Host.dotGeneral (F := Ideal) d none S Wt (ix2 p q) + Host.dotGeneral (F := Ideal) d none D Wb (ix2 p q))
      + broadcastInDim ⟨2, ![a, b]⟩ ![0, 1] h2 (broadcastInDim ⟨2, ![1, b]⟩ ![1] h1 bias) (ix2 p q) = _
  rw [dotGeneral_ix2 H, dotGeneral_ix2 H, host_bias_ix2 bias h1 h2 hc]
  rfl

end Host

end Cert.GraphStages

end
-- ==== Proof.RefStages.lean ====
/-
  The reference program's dense stages, read as the stage functions of GraphStages.

  Each of the reference's nine dense computations is a short run of host operations on earlier values: a product
  (with no accumulator) plus a bias vector broadcast down the rows, possibly rectified; rows scaled by the
  source-degree column and projected; an aggregate scaled by the target-degree column, shifted by a bias and
  rectified; and the edge score, two products added plus a bias. Entry by entry each is the matching stage function
  of the values it is applied to, the bias row being the bias vector viewed as a one-row array.
-/
import proofs.«172988_j3350074491436_1_alg».proof.Proof.Gen.ReferenceIdeal.Read
import proofs.«172988_j3350074491436_1_alg».proof.Proof.GraphStagesHost

noncomputable section

namespace Cert.ReferenceIdeal.Stages

open Cert.ReferenceIdeal Cert.ReferenceIdeal.Read Idealize.ShloMosaic Cert.GraphStages Cert.RowLayers

/-! ## The products' dimension numbers say rows times columns -/

theorem dims_42 : RowsTimesCols dot_S10000x128_S128x256_S10000x256_1_0_0_1_n_n :=
  ⟨rfl, rfl, lhs_main_v42_0, lhs_main_v42_1, rhs_main_v42_0, rhs_main_v42_1⟩
theorem dims_59 : RowsTimesCols dot_S10000x256_S256x512_S10000x512_1_0_0_1_n_n :=
  ⟨rfl, rfl, lhs_main_v59_0, lhs_main_v59_1, rhs_main_v59_0, rhs_main_v59_1⟩
theorem dims_66 : RowsTimesCols dot_S10000x512_S512x256_S10000x256_1_0_0_1_n_n :=
  ⟨rfl, rfl, lhs_main_v66_0, lhs_main_v66_1, rhs_main_v66_0, rhs_main_v66_1⟩
theorem dims_85 : RowsTimesCols dot_S10000x256_S256x128_S10000x128_1_0_0_1_n_n :=
  ⟨rfl, rfl, lhs_main_v85_0, lhs_main_v85_1, rhs_main_v85_0, rhs_main_v85_1⟩
theorem dims_104 : RowsTimesCols dot_S10000x128_S128x128_S10000x128_1_0_0_1_n_n :=
  ⟨rfl, rfl, lhs_main_v104_0, lhs_main_v104_1, rhs_main_v104_0, rhs_main_v104_1⟩
theorem dims_129 : RowsTimesCols dot_S160000x128_S128x16_S160000x16_1_0_0_1_n_n :=
  ⟨rfl, rfl, lhs_main_v129_0, lhs_main_v129_1, rhs_main_v129_0, rhs_main_v129_1⟩

/-! ## The stages -/

/-- The input projection: features times weights plus a bias. -/
theorem stage0 (x0 : (⟨S10000x128, .f32⟩ : BufTy).Contents (Elt Ideal)) (x4 : (⟨S128x256, .f32⟩ : BufTy).Contents (Elt Ideal)) (x5 : (⟨S256, .f32⟩ : BufTy).Contents (Elt Ideal)) (hc : S256.ShapeCasts S1x256) :
    val_main_v45 (F := Ideal) x0 x4 x5 = affine x0 x4 (shapeCast S1x256 x5 hc) := by
  unfold val_main_v45 val_main_v44 val_main_v43 val_main_v42
  exact host_affine dims_42 x0 x4 x5 _ _ hc

/-- The first layer: the weighted aggregate times weights plus a bias, rectified. -/
theorem stage1 (x0 : (⟨S10000x128, .f32⟩ : BufTy).Contents (Elt Ideal)) (x1 : (⟨S160000, .f32⟩ : BufTy).Contents (Elt Ideal)) (x2 : (⟨S160000, .i32⟩ : BufTy).Contents (Elt Ideal)) (x3 : (⟨S160000, .i32⟩ : BufTy).Contents (Elt Ideal)) (x4 : (⟨S128x256, .f32⟩ : BufTy).Contents (Elt Ideal)) (x5 : (⟨S256, .f32⟩ : BufTy).Contents (Elt Ideal)) (x6 : (⟨S256x512, .f32⟩ : BufTy).Contents (Elt Ideal)) (x7 : (⟨S512, .f32⟩ : BufTy).Contents (Elt Ideal)) (hc : S512.ShapeCasts S1x512) :
    val_main_v63 (F := Ideal) x0 x1 x2 x3 x4 x5 x6 x7 = affineRelu (val_main_v58 (F := Ideal) x0 x1 x2 x3 x4 x5) x6 (shapeCast S1x512 x7 hc) := by
  unfold val_main_v63 val_main_v62 val_main_v61 val_main_v60 val_main_v59 val_main_call0_v0 val_main_call0_cst
  generalize val_main_v58 (F := Ideal) x0 x1 x2 x3 x4 x5 = y
  exact host_affineRelu dims_59 y x6 x7 _ _ hc _ _

/-- Second layer, projection: rows scaled by the source-degree column, times weights. -/
theorem stage2 (x0 : (⟨S10000x128, .f32⟩ : BufTy).Contents (Elt Ideal)) (x1 : (⟨S160000, .f32⟩ : BufTy).Contents (Elt Ideal)) (x2 : (⟨S160000, .i32⟩ : BufTy).Contents (Elt Ideal)) (x3 : (⟨S160000, .i32⟩ : BufTy).Contents (Elt Ideal)) (x4 : (⟨S128x256, .f32⟩ : BufTy).Contents (Elt Ideal)) (x5 : (⟨S256, .f32⟩ : BufTy).Contents (Elt Ideal)) (x6 : (⟨S256x512, .f32⟩ : BufTy).Contents (Elt Ideal)) (x7 : (⟨S512, .f32⟩ : BufTy).Contents (Elt Ideal)) (x8 : (⟨S512x256, .f32⟩ : BufTy).Contents (Elt Ideal)) :
    val_main_v66 (F := Ideal) x0 x1 x2 x3 x4 x5 x6 x7 x8 = scaledProduct (val_main_v63 (F := Ideal) x0 x1 x2 x3 x4 x5 x6 x7) (val_main_v34 (F := Ideal) x2) x8 := by
  unfold val_main_v66 val_main_v65 val_main_v64
  generalize val_main_v63 (F := Ideal) x0 x1 x2 x3 x4 x5 x6 x7 = y
  generalize val_main_v34 (F := Ideal) x2 = cs
  exact host_scaledProduct dims_66 y cs x8 _

/-- Second layer, combination: the aggregate scaled by the target-degree column, plus a bias, rectified. -/
theorem stage3 (x0 : (⟨S10000x128, .f32⟩ : BufTy).Contents (Elt Ideal)) (x1 : (⟨S160000, .f32⟩ : BufTy).Contents (Elt Ideal)) (x2 : (⟨S160000, .i32⟩ : BufTy).Contents (Elt Ideal)) (x3 : (⟨S160000, .i32⟩ : BufTy).Contents (Elt Ideal)) (x4 : (⟨S128x256, .f32⟩ : BufTy).Contents (Elt Ideal)) (x5 : (⟨S256, .f32⟩ : BufTy).Contents (Elt Ideal)) (x6 : (⟨S256x512, .f32⟩ : BufTy).Contents (Elt Ideal)) (x7 : (⟨S512, .f32⟩ : BufTy).Contents (Elt Ideal)) (x8 : (⟨S512x256, .f32⟩ : BufTy).Contents (Elt Ideal)) (x9 : (⟨S256, .f32⟩ : BufTy).Contents (Elt Ideal)) (hc : S256.ShapeCasts S1x256) :
    val_main_v82 (F := Ideal) x0 x1 x2 x3 x4 x5 x6 x7 x8 x9 = scaleShiftRelu (val_main_v76 (F := Ideal) x0 x1 x2 x3 x4 x5 x6 x7 x8) (val_main_v41 (F := Ideal) x3) (shapeCast S1x256 x9 hc) := by
  unfold val_main_v82 val_main_v81 val_main_v80 val_main_v79 val_main_v78 val_main_v77 val_main_call1_v0 val_main_call1_cst
  generalize val_main_v76 (F := Ideal) x0 x1 x2 x3 x4 x5 x6 x7 x8 = y
  generalize val_main_v41 (F := Ideal) x3 = cd
  exact host_scaleShiftRelu y cd x9 _ _ _ hc _ _

/-- Third layer, projection. -/
theorem stage4 (x0 : (⟨S10000x128, .f32⟩ : BufTy).Contents (Elt Ideal)) (x1 : (⟨S160000, .f32⟩ : BufTy).Contents (Elt Ideal)) (x2 : (⟨S160000, .i32⟩ : BufTy).Contents (Elt Ideal)) (x3 : (⟨S160000, .i32⟩ : BufTy).Contents (Elt Ideal)) (x4 : (⟨S128x256, .f32⟩ : BufTy).Contents (Elt Ideal)) (x5 : (⟨S256, .f32⟩ : BufTy).Contents (Elt Ideal)) (x6 : (⟨S256x512, .f32⟩ : BufTy).Contents (Elt Ideal)) (x7 : (⟨S512, .f32⟩ : BufTy).Contents (Elt Ideal)) (x8 : (⟨S512x256, .f32⟩ : BufTy).Contents (Elt Ideal)) (x9 : (⟨S256, .f32⟩ : BufTy).Contents (Elt Ideal)) (x10 : (⟨S256x128, .f32⟩ : BufTy).Contents (Elt Ideal)) :
    val_main_v85 (F := Ideal) x0 x1 x2 x3 x4 x5 x6 x7 x8 x9 x10 = scaledProduct (val_main_v82 (F := Ideal) x0 x1 x2 x3 x4 x5 x6 x7 x8 x9) (val_main_v34 (F := Ideal) x2) x10 := by
  unfold val_main_v85 val_main_v84 val_main_v83
  generalize val_main_v82 (F := Ideal) x0 x1 x2 x3 x4 x5 x6 x7 x8 x9 = y
  generalize val_main_v34 (F := Ideal) x2 = cs
  exact host_scaledProduct dims_85 y cs x10 _

/-- Third layer, combination. -/
theorem stage5 (x0 : (⟨S10000x128, .f32⟩ : BufTy).Contents (Elt Ideal)) (x1 : (⟨S160000, .f32⟩ : BufTy).Contents (Elt Ideal)) (x2 : (⟨S160000, .i32⟩ : BufTy).Contents (Elt Ideal)) (x3 : (⟨S160000, .i32⟩ : BufTy).Contents (Elt Ideal)) (x4 : (⟨S128x256, .f32⟩ : BufTy).Contents (Elt Ideal)) (x5 : (⟨S256, .f32⟩ : BufTy).Contents (Elt Ideal)) (x6 : (⟨S256x512, .f32⟩ : BufTy).Contents (Elt Ideal)) (x7 : (⟨S512, .f32⟩ : BufTy).Contents (Elt Ideal)) (x8 : (⟨S512x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) (hc : S128.ShapeCasts S1x128) :
    val_main_v101 (F := Ideal) x0 x1 x2 x3 x4 x5 x6 x7 x8 x9 x10 x11 = scaleShiftRelu (val_main_v95 (F := Ideal) x0 x1 x2 x3 x4 x5 x6 x7 x8 x9 x10) (val_main_v41 (F := Ideal) x3) (shapeCast S1x128 x11 hc) := by
  unfold val_main_v101 val_main_v100 val_main_v99 val_main_v98 val_main_v97 val_main_v96 val_main_call2_v0 val_main_call2_cst
  generalize val_main_v95 (F := Ideal) x0 x1 x2 x3 x4 x5 x6 x7 x8 x9 x10 = y
  generalize val_main_v41 (F := Ideal) x3 = cd
  exact host_scaleShiftRelu y cd x11 _ _ _ hc _ _

/-- Fourth layer, projection. -/
theorem stage6 (x0 : (⟨S10000x128, .f32⟩ : BufTy).Contents (Elt Ideal)) (x1 : (⟨S160000, .f32⟩ : BufTy).Contents (Elt Ideal)) (x2 : (⟨S160000, .i32⟩ : BufTy).Contents (Elt Ideal)) (x3 : (⟨S160000, .i32⟩ : BufTy).Contents (Elt Ideal)) (x4 : (⟨S128x256, .f32⟩ : BufTy).Contents (Elt Ideal)) (x5 : (⟨S256, .f32⟩ : BufTy).Contents (Elt Ideal)) (x6 : (⟨S256x512, .f32⟩ : BufTy).Contents (Elt Ideal)) (x7 : (⟨S512, .f32⟩ : BufTy).Contents (Elt Ideal)) (x8 : (⟨S512x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) (x12 : (⟨S128x128, .f32⟩ : BufTy).Contents (Elt Ideal)) :
    val_main_v104 (F := Ideal) x0 x1 x2 x3 x4 x5 x6 x7 x8 x9 x10 x11 x12 = scaledProduct (val_main_v101 (F := Ideal) x0 x1 x2 x3 x4 x5 x6 x7 x8 x9 x10 x11) (val_main_v34 (F := Ideal) x2) x12 := by
  unfold val_main_v104 val_main_v103 val_main_v102
  generalize val_main_v101 (F := Ideal) x0 x1 x2 x3 x4 x5 x6 x7 x8 x9 x10 x11 = y
  generalize val_main_v34 (F := Ideal) x2 = cs
  exact host_scaledProduct dims_104 y cs x12 _

/-- Fourth layer, combination. -/
theorem stage7 (x0 : (⟨S10000x128, .f32⟩ : BufTy).Contents (Elt Ideal)) (x1 : (⟨S160000, .f32⟩ : BufTy).Contents (Elt Ideal)) (x2 : (⟨S160000, .i32⟩ : BufTy).Contents (Elt Ideal)) (x3 : (⟨S160000, .i32⟩ : BufTy).Contents (Elt Ideal)) (x4 : (⟨S128x256, .f32⟩ : BufTy).Contents (Elt Ideal)) (x5 : (⟨S256, .f32⟩ : BufTy).Contents (Elt Ideal)) (x6 : (⟨S256x512, .f32⟩ : BufTy).Contents (Elt Ideal)) (x7 : (⟨S512, .f32⟩ : BufTy).Contents (Elt Ideal)) (x8 : (⟨S512x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (hc : S128.ShapeCasts S1x128) :
    val_main_v120 (F := Ideal) x0 x1 x2 x3 x4 x5 x6 x7 x8 x9 x10 x11 x12 x13 = scaleShiftRelu (val_main_v114 (F := Ideal) x0 x1 x2 x3 x4 x5 x6 x7 x8 x9 x10 x11 x12) (val_main_v41 (F := Ideal) x3) (shapeCast S1x128 x13 hc) := by
  unfold val_main_v120 val_main_v119 val_main_v118 val_main_v117 val_main_v116 val_main_v115 val_main_call3_v0 val_main_call3_cst
  generalize val_main_v114 (F := Ideal) x0 x1 x2 x3 x4 x5 x6 x7 x8 x9 x10 x11 x12 = y
  generalize val_main_v41 (F := Ideal) x3 = cd
  exact host_scaleShiftRelu y cd x13 _ _ _ hc _ _

/-- The edge score: source rows times the upper weights plus target rows times the lower weights, plus a bias. -/
theorem stage8 (x0 : (⟨S10000x128, .f32⟩ : BufTy).Contents (Elt Ideal)) (x1 : (⟨S160000, .f32⟩ : BufTy).Contents (Elt Ideal)) (x2 : (⟨S160000, .i32⟩ : BufTy).Contents (Elt Ideal)) (x3 : (⟨S160000, .i32⟩ : BufTy).Contents (Elt Ideal)) (x4 : (⟨S128x256, .f32⟩ : BufTy).Contents (Elt Ideal)) (x5 : (⟨S256, .f32⟩ : BufTy).Contents (Elt Ideal)) (x6 : (⟨S256x512, .f32⟩ : BufTy).Contents (Elt Ideal)) (x7 : (⟨S512, .f32⟩ : BufTy).Contents (Elt Ideal)) (x8 : (⟨S512x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S256x16, .f32⟩ : BufTy).Contents (Elt Ideal)) (x15 : (⟨S16, .f32⟩ : BufTy).Contents (Elt Ideal)) (hc : S16.ShapeCasts S1x16) :
    val_main_v142 (F := Ideal) x0 x1 x2 x3 x4 x5 x6 x7 x8 x9 x10 x11 x12 x13 x14 x15 = pairScore (val_main_v127 (F := Ideal) x0 x1 x2 x3 x4 x5 x6 x7 x8 x9 x10 x11 x12 x13) (val_main_v136 (F := Ideal) x0 x1 x2 x3 x4 x5 x6 x7 x8 x9 x10 x11 x12 x13) (val_main_v128 (F := Ideal) x14) (val_main_v137 (F := Ideal) x14) (shapeCast S1x16 x15 hc) := by
  unfold val_main_v142 val_main_v141 val_main_v140 val_main_v139 val_main_v138 val_main_v129
  generalize val_main_v127 (F := Ideal) x0 x1 x2 x3 x4 x5 x6 x7 x8 x9 x10 x11 x12 x13 = s
  generalize val_main_v136 (F := Ideal) x0 x1 x2 x3 x4 x5 x6 x7 x8 x9 x10 x11 x12 x13 = dd
  generalize val_main_v128 (F := Ideal) x14 = wt
  generalize val_main_v137 (F := Ideal) x14 = wb
  exact host_pairScore dims_129 s dd wt wb x15 _ _ hc

end Cert.ReferenceIdeal.Stages

end
-- ==== Proof.Chain.lean ====
/-
  The device program's result array as a function of the arguments.

  The program is fifteen segments: six stretches of host operations and nine regions. Reading the fold of the
  segments one boundary at a time, every buffer a later segment reads holds, at each boundary, a named function of
  the launch contents of the arguments: an argument holds its launch contents (nothing writes it); a buffer a host
  stretch computes holds the stretch's operations applied to what the boundary before it held — which are the
  reference's own operations on the same values, so the value is the reference's value of that name —; a region's
  output holds the stage function of the region's operands (Stage0 … Stage8), which is the reference's value of the
  matching dense stage (RefStages); every other buffer is carried across the segment unchanged. At the last boundary
  the result buffer holds the reference's result value of the arguments.
-/
import proofs.«172988_j3350074491436_1_alg».proof.Proof.Gen.KernelIdeal.Frame
import proofs.«172988_j3350074491436_1_alg».proof.Proof.Gen.ReferenceIdeal.Read
import proofs.«172988_j3350074491436_1_alg».proof.Proof.Stage0
import proofs.«172988_j3350074491436_1_alg».proof.Proof.Stage1
import proofs.«172988_j3350074491436_1_alg».proof.Proof.Stage2
import proofs.«172988_j3350074491436_1_alg».proof.Proof.Stage3
import proofs.«172988_j3350074491436_1_alg».proof.Proof.Stage4
import proofs.«172988_j3350074491436_1_alg».proof.Proof.Stage5
import proofs.«172988_j3350074491436_1_alg».proof.Proof.Stage6
import proofs.«172988_j3350074491436_1_alg».proof.Proof.Stage7
import proofs.«172988_j3350074491436_1_alg».proof.Proof.Stage8
import proofs.«172988_j3350074491436_1_alg».proof.Proof.RefStages

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem
open Cert.ReferenceIdeal.Read Cert.GraphStages

variable (m : (ℓ : Loc nD τ sig) → Buf (Elt Ideal) ℓ) (ρ : Dev nD → PrngReg) (c : Dev nD)

/-! ## Boundary 1: after the host stretch `hostOps0` -/
theorem b1_arg2 : W1 m ρ c (Proc.devRef .tc main_arg2) = m ((c : Thread nD τ).loc main_arg2) := by
  show StableHlo.after hostOps0 (W0 m ρ c) (Proc.devRef .tc main_arg2) = _
  after_results_simp
theorem b1_arg3 : W1 m ρ c (Proc.devRef .tc main_arg3) = m ((c : Thread nD τ).loc main_arg3) := by
  show StableHlo.after hostOps0 (W0 m ρ c) (Proc.devRef .tc main_arg3) = _
  after_results_simp
theorem b1_arg14 : W1 m ρ c (Proc.devRef .tc main_arg14) = m ((c : Thread nD τ).loc main_arg14) := by
  show StableHlo.after hostOps0 (W0 m ρ c) (Proc.devRef .tc main_arg14) = _
  after_results_simp
theorem b1_arg15 : W1 m ρ c (Proc.devRef .tc main_arg15) = m ((c : Thread nD τ).loc main_arg15) := by
  show StableHlo.after hostOps0 (W0 m ρ c) (Proc.devRef .tc main_arg15) = _
  after_results_simp
theorem b1_v41 : W1 m ρ c (Proc.devRef .tc main_v41) = val_main_v41 (F := Ideal) (m ((c : Thread nD τ).loc main_arg3)) := by
  show StableHlo.after hostOps0 (W0 m ρ c) (Proc.devRef .tc main_v41) = _
  after_results_simp
  rfl
theorem b1_arg13 : W1 m ρ c (Proc.devRef .tc main_arg13) = m ((c : Thread nD τ).loc main_arg13) := by
  show StableHlo.after hostOps0 (W0 m ρ c) (Proc.devRef .tc main_arg13) = _
  after_results_simp
theorem b1_v34 : W1 m ρ c (Proc.devRef .tc main_v34) = val_main_v34 (F := Ideal) (m ((c : Thread nD τ).loc main_arg2)) := by
  show StableHlo.after hostOps0 (W0 m ρ c) (Proc.devRef .tc main_v34) = _
  after_results_simp
  rfl
theorem b1_arg12 : W1 m ρ c (Proc.devRef .tc main_arg12) = m ((c : Thread nD τ).loc main_arg12) := by
  show StableHlo.after hostOps0 (W0 m ρ c) (Proc.devRef .tc main_arg12) = _
  after_results_simp
theorem b1_arg11 : W1 m ρ c (Proc.devRef .tc main_arg11) = m ((c : Thread nD τ).loc main_arg11) := by
  show StableHlo.after hostOps0 (W0 m ρ c) (Proc.devRef .tc main_arg11) = _
  after_results_simp
theorem b1_arg10 : W1 m ρ c (Proc.devRef .tc main_arg10) = m ((c : Thread nD τ).loc main_arg10) := by
  show StableHlo.after hostOps0 (W0 m ρ c) (Proc.devRef .tc main_arg10) = _
  after_results_simp
theorem b1_arg9 : W1 m ρ c (Proc.devRef .tc main_arg9) = m ((c : Thread nD τ).loc main_arg9) := by
  show StableHlo.after hostOps0 (W0 m ρ c) (Proc.devRef .tc main_arg9) = _
  after_results_simp
theorem b1_arg8 : W1 m ρ c (Proc.devRef .tc main_arg8) = m ((c : Thread nD τ).loc main_arg8) := by
  show StableHlo.after hostOps0 (W0 m ρ c) (Proc.devRef .tc main_arg8) = _
  after_results_simp
theorem b1_arg6 : W1 m ρ c (Proc.devRef .tc main_arg6) = m ((c : Thread nD τ).loc main_arg6) := by
  show StableHlo.after hostOps0 (W0 m ρ c) (Proc.devRef .tc main_arg6) = _
  after_results_simp
theorem b1_v26 : W1 m ρ c (Proc.devRef .tc main_v26) = val_main_v26 (F := Ideal) (m ((c : Thread nD τ).loc main_arg1)) (m ((c : Thread nD τ).loc main_arg2)) (m ((c : Thread nD τ).loc main_arg3)) := by
  show StableHlo.after hostOps0 (W0 m ρ c) (Proc.devRef .tc main_v26) = _
  after_results_simp
  rfl
theorem b1_arg7 : W1 m ρ c (Proc.devRef .tc main_arg7) = m ((c : Thread nD τ).loc main_arg7) := by
  show StableHlo.after hostOps0 (W0 m ρ c) (Proc.devRef .tc main_arg7) = _
  after_results_simp
theorem b1_arg0 : W1 m ρ c (Proc.devRef .tc main_arg0) = m ((c : Thread nD τ).loc main_arg0) := by
  show StableHlo.after hostOps0 (W0 m ρ c) (Proc.devRef .tc main_arg0) = _
  after_results_simp
theorem b1_arg4 : W1 m ρ c (Proc.devRef .tc main_arg4) = m ((c : Thread nD τ).loc main_arg4) := by
  show StableHlo.after hostOps0 (W0 m ρ c) (Proc.devRef .tc main_arg4) = _
  after_results_simp
theorem b1_v42 : W1 m ρ c (Proc.devRef .tc main_v42) = shapeCast S1x256 (m ((c : Thread nD τ).loc main_arg5)) shapeCasts_S256_S1x256 := by
  show StableHlo.after hostOps0 (W0 m ρ c) (Proc.devRef .tc main_v42) = _
  after_results_simp
  rfl

/-! ## Boundary 2: after region 0 -/
theorem b2_arg2 : W2 m ρ c (Proc.devRef .tc main_arg2) = m ((c : Thread nD τ).loc main_arg2) :=
  (W2_of_ne m ρ c main_arg2 (by decide)).trans (b1_arg2 m ρ c)
theorem b2_arg3 : W2 m ρ c (Proc.devRef .tc main_arg3) = m ((c : Thread nD τ).loc main_arg3) :=
  (W2_of_ne m ρ c main_arg3 (by decide)).trans (b1_arg3 m ρ c)
theorem b2_arg14 : W2 m ρ c (Proc.devRef .tc main_arg14) = m ((c : Thread nD τ).loc main_arg14) :=
  (W2_of_ne m ρ c main_arg14 (by decide)).trans (b1_arg14 m ρ c)
theorem b2_arg15 : W2 m ρ c (Proc.devRef .tc main_arg15) = m ((c : Thread nD τ).loc main_arg15) :=
  (W2_of_ne m ρ c main_arg15 (by decide)).trans (b1_arg15 m ρ c)
theorem b2_v41 : W2 m ρ c (Proc.devRef .tc main_v41) = val_main_v41 (F := Ideal) (m ((c : Thread nD τ).loc main_arg3)) :=
  (W2_of_ne m ρ c main_v41 (by decide)).trans (b1_v41 m ρ c)
theorem b2_arg13 : W2 m ρ c (Proc.devRef .tc main_arg13) = m ((c : Thread nD τ).loc main_arg13) :=
  (W2_of_ne m ρ c main_arg13 (by decide)).trans (b1_arg13 m ρ c)
theorem b2_v34 : W2 m ρ c (Proc.devRef .tc main_v34) = val_main_v34 (F := Ideal) (m ((c : Thread nD τ).loc main_arg2)) :=
  (W2_of_ne m ρ c main_v34 (by decide)).trans (b1_v34 m ρ c)
theorem b2_arg12 : W2 m ρ c (Proc.devRef .tc main_arg12) = m ((c : Thread nD τ).loc main_arg12) :=
  (W2_of_ne m ρ c main_arg12 (by decide)).trans (b1_arg12 m ρ c)
theorem b2_arg11 : W2 m ρ c (Proc.devRef .tc main_arg11) = m ((c : Thread nD τ).loc main_arg11) :=
  (W2_of_ne m ρ c main_arg11 (by decide)).trans (b1_arg11 m ρ c)
theorem b2_arg10 : W2 m ρ c (Proc.devRef .tc main_arg10) = m ((c : Thread nD τ).loc main_arg10) :=
  (W2_of_ne m ρ c main_arg10 (by decide)).trans (b1_arg10 m ρ c)
theorem b2_arg9 : W2 m ρ c (Proc.devRef .tc main_arg9) = m ((c : Thread nD τ).loc main_arg9) :=
  (W2_of_ne m ρ c main_arg9 (by decide)).trans (b1_arg9 m ρ c)
theorem b2_arg8 : W2 m ρ c (Proc.devRef .tc main_arg8) = m ((c : Thread nD τ).loc main_arg8) :=
  (W2_of_ne m ρ c main_arg8 (by decide)).trans (b1_arg8 m ρ c)
theorem b2_arg6 : W2 m ρ c (Proc.devRef .tc main_arg6) = m ((c : Thread nD τ).loc main_arg6) :=
  (W2_of_ne m ρ c main_arg6 (by decide)).trans (b1_arg6 m ρ c)
theorem b2_v26 : W2 m ρ c (Proc.devRef .tc main_v26) = val_main_v26 (F := Ideal) (m ((c : Thread nD τ).loc main_arg1)) (m ((c : Thread nD τ).loc main_arg2)) (m ((c : Thread nD τ).loc main_arg3)) :=
  (W2_of_ne m ρ c main_v26 (by decide)).trans (b1_v26 m ρ c)
theorem b2_v43 : W2 m ρ c (Proc.devRef .tc main_v43) = val_main_v45 (F := Ideal) (m ((c : Thread nD τ).loc main_arg0)) (m ((c : Thread nD τ).loc main_arg4)) (m ((c : Thread nD τ).loc main_arg5)) := by
  refine ((W2_arr m ρ c 3).trans (Cert.KernelIdeal.Stage0.final (V1 m ρ) c)).trans ?_
  show affine (W1 m ρ c (Proc.devRef .tc main_arg0)) (W1 m ρ c (Proc.devRef .tc main_arg4)) (W1 m ρ c (Proc.devRef .tc main_v42)) = _
  rw [b1_arg0 m ρ c, b1_arg4 m ρ c, b1_v42 m ρ c]
  exact (Cert.ReferenceIdeal.Stages.stage0 (m ((c : Thread nD τ).loc main_arg0)) (m ((c : Thread nD τ).loc main_arg4)) (m ((c : Thread nD τ).loc main_arg5)) shapeCasts_S256_S1x256).symm
theorem b2_arg7 : W2 m ρ c (Proc.devRef .tc main_arg7) = m ((c : Thread nD τ).loc main_arg7) :=
  (W2_of_ne m ρ c main_arg7 (by decide)).trans (b1_arg7 m ρ c)

/-! ## Boundary 3: after the host stretch `hostOps1` -/
theorem b3_arg2 : W3 m ρ c (Proc.devRef .tc main_arg2) = m ((c : Thread nD τ).loc main_arg2) := by
  show StableHlo.after hostOps1 (W2 m ρ c) (Proc.devRef .tc main_arg2) = _
  after_results_simp
  exact b2_arg2 m ρ c
theorem b3_arg3 : W3 m ρ c (Proc.devRef .tc main_arg3) = m ((c : Thread nD τ).loc main_arg3) := by
  show StableHlo.after hostOps1 (W2 m ρ c) (Proc.devRef .tc main_arg3) = _
  after_results_simp
  exact b2_arg3 m ρ c
theorem b3_arg14 : W3 m ρ c (Proc.devRef .tc main_arg14) = m ((c : Thread nD τ).loc main_arg14) := by
  show StableHlo.after hostOps1 (W2 m ρ c) (Proc.devRef .tc main_arg14) = _
  after_results_simp
  exact b2_arg14 m ρ c
theorem b3_arg15 : W3 m ρ c (Proc.devRef .tc main_arg15) = m ((c : Thread nD τ).loc main_arg15) := by
  show StableHlo.after hostOps1 (W2 m ρ c) (Proc.devRef .tc main_arg15) = _
  after_results_simp
  exact b2_arg15 m ρ c
theorem b3_v41 : W3 m ρ c (Proc.devRef .tc main_v41) = val_main_v41 (F := Ideal) (m ((c : Thread nD τ).loc main_arg3)) := by
  show StableHlo.after hostOps1 (W2 m ρ c) (Proc.devRef .tc main_v41) = _
  after_results_simp
  exact b2_v41 m ρ c
theorem b3_arg13 : W3 m ρ c (Proc.devRef .tc main_arg13) = m ((c : Thread nD τ).loc main_arg13) := by
  show StableHlo.after hostOps1 (W2 m ρ c) (Proc.devRef .tc main_arg13) = _
  after_results_simp
  exact b2_arg13 m ρ c
theorem b3_v34 : W3 m ρ c (Proc.devRef .tc main_v34) = val_main_v34 (F := Ideal) (m ((c : Thread nD τ).loc main_arg2)) := by
  show StableHlo.after hostOps1 (W2 m ρ c) (Proc.devRef .tc main_v34) = _
  after_results_simp
  exact b2_v34 m ρ c
theorem b3_arg12 : W3 m ρ c (Proc.devRef .tc main_arg12) = m ((c : Thread nD τ).loc main_arg12) := by
  show StableHlo.after hostOps1 (W2 m ρ c) (Proc.devRef .tc main_arg12) = _
  after_results_simp
  exact b2_arg12 m ρ c
theorem b3_arg11 : W3 m ρ c (Proc.devRef .tc main_arg11) = m ((c : Thread nD τ).loc main_arg11) := by
  show StableHlo.after hostOps1 (W2 m ρ c) (Proc.devRef .tc main_arg11) = _
  after_results_simp
  exact b2_arg11 m ρ c
theorem b3_arg10 : W3 m ρ c (Proc.devRef .tc main_arg10) = m ((c : Thread nD τ).loc main_arg10) := by
  show StableHlo.after hostOps1 (W2 m ρ c) (Proc.devRef .tc main_arg10) = _
  after_results_simp
  exact b2_arg10 m ρ c
theorem b3_arg9 : W3 m ρ c (Proc.devRef .tc main_arg9) = m ((c : Thread nD τ).loc main_arg9) := by
  show StableHlo.after hostOps1 (W2 m ρ c) (Proc.devRef .tc main_arg9) = _
  after_results_simp
  exact b2_arg9 m ρ c
theorem b3_arg8 : W3 m ρ c (Proc.devRef .tc main_arg8) = m ((c : Thread nD τ).loc main_arg8) := by
  show StableHlo.after hostOps1 (W2 m ρ c) (Proc.devRef .tc main_arg8) = _
  after_results_simp
  exact b2_arg8 m ρ c
theorem b3_v56 : W3 m ρ c (Proc.devRef .tc main_v56) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v56) = _
  after_results_simp
  rw [b2_arg3 m ρ c, b2_v26 m ρ c, b2_v43 m ρ c, b2_arg2 m ρ c]
  rfl
theorem b3_arg6 : W3 m ρ c (Proc.devRef .tc main_arg6) = m ((c : Thread nD τ).loc main_arg6) := by
  show StableHlo.after hostOps1 (W2 m ρ c) (Proc.devRef .tc main_arg6) = _
  after_results_simp
  exact b2_arg6 m ρ c
theorem b3_v57 : W3 m ρ c (Proc.devRef .tc main_v57) = shapeCast S1x512 (m ((c : Thread nD τ).loc main_arg7)) shapeCasts_S512_S1x512 := by
  show StableHlo.after hostOps1 (W2 m ρ c) (Proc.devRef .tc main_v57) = _
  after_results_simp
  rw [b2_arg7 m ρ c]
  rfl

/-! ## Boundary 4: after region 1 -/
theorem b4_arg2 : W4 m ρ c (Proc.devRef .tc main_arg2) = m ((c : Thread nD τ).loc main_arg2) :=
  (W4_of_ne m ρ c main_arg2 (by decide)).trans (b3_arg2 m ρ c)
theorem b4_arg3 : W4 m ρ c (Proc.devRef .tc main_arg3) = m ((c : Thread nD τ).loc main_arg3) :=
  (W4_of_ne m ρ c main_arg3 (by decide)).trans (b3_arg3 m ρ c)
theorem b4_arg14 : W4 m ρ c (Proc.devRef .tc main_arg14) = m ((c : Thread nD τ).loc main_arg14) :=
  (W4_of_ne m ρ c main_arg14 (by decide)).trans (b3_arg14 m ρ c)
theorem b4_arg15 : W4 m ρ c (Proc.devRef .tc main_arg15) = m ((c : Thread nD τ).loc main_arg15) :=
  (W4_of_ne m ρ c main_arg15 (by decide)).trans (b3_arg15 m ρ c)
theorem b4_v41 : W4 m ρ c (Proc.devRef .tc main_v41) = val_main_v41 (F := Ideal) (m ((c : Thread nD τ).loc main_arg3)) :=
  (W4_of_ne m ρ c main_v41 (by decide)).trans (b3_v41 m ρ c)
theorem b4_arg13 : W4 m ρ c (Proc.devRef .tc main_arg13) = m ((c : Thread nD τ).loc main_arg13) :=
  (W4_of_ne m ρ c main_arg13 (by decide)).trans (b3_arg13 m ρ c)
theorem b4_v34 : W4 m ρ c (Proc.devRef .tc main_v34) = val_main_v34 (F := Ideal) (m ((c : Thread nD τ).loc main_arg2)) :=
  (W4_of_ne m ρ c main_v34 (by decide)).trans (b3_v34 m ρ c)
theorem b4_arg12 : W4 m ρ c (Proc.devRef .tc main_arg12) = m ((c : Thread nD τ).loc main_arg12) :=
  (W4_of_ne m ρ c main_arg12 (by decide)).trans (b3_arg12 m ρ c)
theorem b4_arg11 : W4 m ρ c (Proc.devRef .tc main_arg11) = m ((c : Thread nD τ).loc main_arg11) :=
  (W4_of_ne m ρ c main_arg11 (by decide)).trans (b3_arg11 m ρ c)
theorem b4_arg10 : W4 m ρ c (Proc.devRef .tc main_arg10) = m ((c : Thread nD τ).loc main_arg10) :=
  (W4_of_ne m ρ c main_arg10 (by decide)).trans (b3_arg10 m ρ c)
theorem b4_arg9 : W4 m ρ c (Proc.devRef .tc main_arg9) = m ((c : Thread nD τ).loc main_arg9) :=
  (W4_of_ne m ρ c main_arg9 (by decide)).trans (b3_arg9 m ρ c)
theorem b4_v58 : W4 m ρ c (Proc.devRef .tc main_v58) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 3).trans (Cert.KernelIdeal.Stage1.final (V3 m ρ) c)).trans ?_
  show affineRelu (W3 m ρ c (Proc.devRef .tc main_v56)) (W3 m ρ c (Proc.devRef .tc main_arg6)) (W3 m ρ c (Proc.devRef .tc main_v57)) = _
  rw [b3_v56 m ρ c, b3_arg6 m ρ c, b3_v57 m ρ c]
  exact (Cert.ReferenceIdeal.Stages.stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) shapeCasts_S512_S1x512).symm
theorem b4_arg8 : W4 m ρ c (Proc.devRef .tc main_arg8) = m ((c : Thread nD τ).loc main_arg8) :=
  (W4_of_ne m ρ c main_arg8 (by decide)).trans (b3_arg8 m ρ c)

/-! ## Boundary 5: after region 2 -/
theorem b5_arg2 : W5 m ρ c (Proc.devRef .tc main_arg2) = m ((c : Thread nD τ).loc main_arg2) :=
  (W5_of_ne m ρ c main_arg2 (by decide)).trans (b4_arg2 m ρ c)
theorem b5_arg3 : W5 m ρ c (Proc.devRef .tc main_arg3) = m ((c : Thread nD τ).loc main_arg3) :=
  (W5_of_ne m ρ c main_arg3 (by decide)).trans (b4_arg3 m ρ c)
theorem b5_arg14 : W5 m ρ c (Proc.devRef .tc main_arg14) = m ((c : Thread nD τ).loc main_arg14) :=
  (W5_of_ne m ρ c main_arg14 (by decide)).trans (b4_arg14 m ρ c)
theorem b5_arg15 : W5 m ρ c (Proc.devRef .tc main_arg15) = m ((c : Thread nD τ).loc main_arg15) :=
  (W5_of_ne m ρ c main_arg15 (by decide)).trans (b4_arg15 m ρ c)
theorem b5_v41 : W5 m ρ c (Proc.devRef .tc main_v41) = val_main_v41 (F := Ideal) (m ((c : Thread nD τ).loc main_arg3)) :=
  (W5_of_ne m ρ c main_v41 (by decide)).trans (b4_v41 m ρ c)
theorem b5_arg13 : W5 m ρ c (Proc.devRef .tc main_arg13) = m ((c : Thread nD τ).loc main_arg13) :=
  (W5_of_ne m ρ c main_arg13 (by decide)).trans (b4_arg13 m ρ c)
theorem b5_v34 : W5 m ρ c (Proc.devRef .tc main_v34) = val_main_v34 (F := Ideal) (m ((c : Thread nD τ).loc main_arg2)) :=
  ((W5_arr m ρ c 1).trans (((dat2 (V4 m ρ) c).arrAt_in 1 rfl _).trans (A_eq2 (V4 m ρ) c 1))).trans (b4_v34 m ρ c)
theorem b5_arg12 : W5 m ρ c (Proc.devRef .tc main_arg12) = m ((c : Thread nD τ).loc main_arg12) :=
  (W5_of_ne m ρ c main_arg12 (by decide)).trans (b4_arg12 m ρ c)
theorem b5_arg11 : W5 m ρ c (Proc.devRef .tc main_arg11) = m ((c : Thread nD τ).loc main_arg11) :=
  (W5_of_ne m ρ c main_arg11 (by decide)).trans (b4_arg11 m ρ c)
theorem b5_arg10 : W5 m ρ c (Proc.devRef .tc main_arg10) = m ((c : Thread nD τ).loc main_arg10) :=
  (W5_of_ne m ρ c main_arg10 (by decide)).trans (b4_arg10 m ρ c)
theorem b5_v59 : W5 m ρ c (Proc.devRef .tc main_v59) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W5_arr m ρ c 3).trans (Cert.KernelIdeal.Stage2.final (V4 m ρ) c)).trans ?_
  show scaledProduct (W4 m ρ c (Proc.devRef .tc main_v58)) (W4 m ρ c (Proc.devRef .tc main_v34)) (W4 m ρ c (Proc.devRef .tc main_arg8)) = _
  rw [b4_v58 m ρ c, b4_v34 m ρ c, b4_arg8 m ρ c]
  exact (Cert.ReferenceIdeal.Stages.stage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm
theorem b5_arg9 : W5 m ρ c (Proc.devRef .tc main_arg9) = m ((c : Thread nD τ).loc main_arg9) :=
  (W5_of_ne m ρ c main_arg9 (by decide)).trans (b4_arg9 m ρ c)

/-! ## Boundary 6: after the host stretch `hostOps3` -/
theorem b6_arg2 : W6 m ρ c (Proc.devRef .tc main_arg2) = m ((c : Thread nD τ).loc main_arg2) := by
  show StableHlo.after hostOps3 (W5 m ρ c) (Proc.devRef .tc main_arg2) = _
  after_results_simp
  exact b5_arg2 m ρ c
theorem b6_arg3 : W6 m ρ c (Proc.devRef .tc main_arg3) = m ((c : Thread nD τ).loc main_arg3) := by
  show StableHlo.after hostOps3 (W5 m ρ c) (Proc.devRef .tc main_arg3) = _
  after_results_simp
  exact b5_arg3 m ρ c
theorem b6_arg14 : W6 m ρ c (Proc.devRef .tc main_arg14) = m ((c : Thread nD τ).loc main_arg14) := by
  show StableHlo.after hostOps3 (W5 m ρ c) (Proc.devRef .tc main_arg14) = _
  after_results_simp
  exact b5_arg14 m ρ c
theorem b6_arg15 : W6 m ρ c (Proc.devRef .tc main_arg15) = m ((c : Thread nD τ).loc main_arg15) := by
  show StableHlo.after hostOps3 (W5 m ρ c) (Proc.devRef .tc main_arg15) = _
  after_results_simp
  exact b5_arg15 m ρ c
theorem b6_v41 : W6 m ρ c (Proc.devRef .tc main_v41) = val_main_v41 (F := Ideal) (m ((c : Thread nD τ).loc main_arg3)) := by
  show StableHlo.after hostOps3 (W5 m ρ c) (Proc.devRef .tc main_v41) = _
  after_results_simp
  exact b5_v41 m ρ c
theorem b6_arg13 : W6 m ρ c (Proc.devRef .tc main_arg13) = m ((c : Thread nD τ).loc main_arg13) := by
  show StableHlo.after hostOps3 (W5 m ρ c) (Proc.devRef .tc main_arg13) = _
  after_results_simp
  exact b5_arg13 m ρ c
theorem b6_v34 : W6 m ρ c (Proc.devRef .tc main_v34) = val_main_v34 (F := Ideal) (m ((c : Thread nD τ).loc main_arg2)) := by
  show StableHlo.after hostOps3 (W5 m ρ c) (Proc.devRef .tc main_v34) = _
  after_results_simp
  exact b5_v34 m ρ c
theorem b6_arg12 : W6 m ρ c (Proc.devRef .tc main_arg12) = m ((c : Thread nD τ).loc main_arg12) := by
  show StableHlo.after hostOps3 (W5 m ρ c) (Proc.devRef .tc main_arg12) = _
  after_results_simp
  exact b5_arg12 m ρ c
theorem b6_arg11 : W6 m ρ c (Proc.devRef .tc main_arg11) = m ((c : Thread nD τ).loc main_arg11) := by
  show StableHlo.after hostOps3 (W5 m ρ c) (Proc.devRef .tc main_arg11) = _
  after_results_simp
  exact b5_arg11 m ρ c
theorem b6_arg10 : W6 m ρ c (Proc.devRef .tc main_arg10) = m ((c : Thread nD τ).loc main_arg10) := by
  show StableHlo.after hostOps3 (W5 m ρ c) (Proc.devRef .tc main_arg10) = _
  after_results_simp
  exact b5_arg10 m ρ c
theorem b6_v69 : W6 m ρ c (Proc.devRef .tc main_v69) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W5 m ρ c) (Proc.devRef .tc main_v69) = _
  after_results_simp
  rw [b5_arg3 m ρ c, b5_v59 m ρ c, b5_arg2 m ρ c]
  rfl
theorem b6_v70 : W6 m ρ c (Proc.devRef .tc main_v70) = shapeCast S1x256 (m ((c : Thread nD τ).loc main_arg9)) shapeCasts_S256_S1x256 := by
  show StableHlo.after hostOps3 (W5 m ρ c) (Proc.devRef .tc main_v70) = _
  after_results_simp
  rw [b5_arg9 m ρ c]
  rfl

/-! ## Boundary 7: after region 3 -/
theorem b7_arg2 : W7 m ρ c (Proc.devRef .tc main_arg2) = m ((c : Thread nD τ).loc main_arg2) :=
  (W7_of_ne m ρ c main_arg2 (by decide)).trans (b6_arg2 m ρ c)
theorem b7_arg3 : W7 m ρ c (Proc.devRef .tc main_arg3) = m ((c : Thread nD τ).loc main_arg3) :=
  (W7_of_ne m ρ c main_arg3 (by decide)).trans (b6_arg3 m ρ c)
theorem b7_arg14 : W7 m ρ c (Proc.devRef .tc main_arg14) = m ((c : Thread nD τ).loc main_arg14) :=
  (W7_of_ne m ρ c main_arg14 (by decide)).trans (b6_arg14 m ρ c)
theorem b7_arg15 : W7 m ρ c (Proc.devRef .tc main_arg15) = m ((c : Thread nD τ).loc main_arg15) :=
  (W7_of_ne m ρ c main_arg15 (by decide)).trans (b6_arg15 m ρ c)
theorem b7_v41 : W7 m ρ c (Proc.devRef .tc main_v41) = val_main_v41 (F := Ideal) (m ((c : Thread nD τ).loc main_arg3)) :=
  ((W7_arr m ρ c 1).trans (((dat3 (V6 m ρ) c).arrAt_in 1 rfl _).trans (A_eq3 (V6 m ρ) c 1))).trans (b6_v41 m ρ c)
theorem b7_arg13 : W7 m ρ c (Proc.devRef .tc main_arg13) = m ((c : Thread nD τ).loc main_arg13) :=
  (W7_of_ne m ρ c main_arg13 (by decide)).trans (b6_arg13 m ρ c)
theorem b7_v34 : W7 m ρ c (Proc.devRef .tc main_v34) = val_main_v34 (F := Ideal) (m ((c : Thread nD τ).loc main_arg2)) :=
  (W7_of_ne m ρ c main_v34 (by decide)).trans (b6_v34 m ρ c)
theorem b7_arg12 : W7 m ρ c (Proc.devRef .tc main_arg12) = m ((c : Thread nD τ).loc main_arg12) :=
  (W7_of_ne m ρ c main_arg12 (by decide)).trans (b6_arg12 m ρ c)
theorem b7_arg11 : W7 m ρ c (Proc.devRef .tc main_arg11) = m ((c : Thread nD τ).loc main_arg11) :=
  (W7_of_ne m ρ c main_arg11 (by decide)).trans (b6_arg11 m ρ c)
theorem b7_v71 : W7 m ρ c (Proc.devRef .tc main_v71) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W7_arr m ρ c 3).trans (Cert.KernelIdeal.Stage3.final (V6 m ρ) c)).trans ?_
  show scaleShiftRelu (W6 m ρ c (Proc.devRef .tc main_v69)) (W6 m ρ c (Proc.devRef .tc main_v41)) (W6 m ρ c (Proc.devRef .tc main_v70)) = _
  rw [b6_v69 m ρ c, b6_v41 m ρ c, b6_v70 m ρ c]
  exact (Cert.ReferenceIdeal.Stages.stage3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) shapeCasts_S256_S1x256).symm
theorem b7_arg10 : W7 m ρ c (Proc.devRef .tc main_arg10) = m ((c : Thread nD τ).loc main_arg10) :=
  (W7_of_ne m ρ c main_arg10 (by decide)).trans (b6_arg10 m ρ c)

/-! ## Boundary 8: after region 4 -/
theorem b8_arg2 : W8 m ρ c (Proc.devRef .tc main_arg2) = m ((c : Thread nD τ).loc main_arg2) :=
  (W8_of_ne m ρ c main_arg2 (by decide)).trans (b7_arg2 m ρ c)
theorem b8_arg3 : W8 m ρ c (Proc.devRef .tc main_arg3) = m ((c : Thread nD τ).loc main_arg3) :=
  (W8_of_ne m ρ c main_arg3 (by decide)).trans (b7_arg3 m ρ c)
theorem b8_arg14 : W8 m ρ c (Proc.devRef .tc main_arg14) = m ((c : Thread nD τ).loc main_arg14) :=
  (W8_of_ne m ρ c main_arg14 (by decide)).trans (b7_arg14 m ρ c)
theorem b8_arg15 : W8 m ρ c (Proc.devRef .tc main_arg15) = m ((c : Thread nD τ).loc main_arg15) :=
  (W8_of_ne m ρ c main_arg15 (by decide)).trans (b7_arg15 m ρ c)
theorem b8_v41 : W8 m ρ c (Proc.devRef .tc main_v41) = val_main_v41 (F := Ideal) (m ((c : Thread nD τ).loc main_arg3)) :=
  (W8_of_ne m ρ c main_v41 (by decide)).trans (b7_v41 m ρ c)
theorem b8_arg13 : W8 m ρ c (Proc.devRef .tc main_arg13) = m ((c : Thread nD τ).loc main_arg13) :=
  (W8_of_ne m ρ c main_arg13 (by decide)).trans (b7_arg13 m ρ c)
theorem b8_v34 : W8 m ρ c (Proc.devRef .tc main_v34) = val_main_v34 (F := Ideal) (m ((c : Thread nD τ).loc main_arg2)) :=
  ((W8_arr m ρ c 1).trans (((dat4 (V7 m ρ) c).arrAt_in 1 rfl _).trans (A_eq4 (V7 m ρ) c 1))).trans (b7_v34 m ρ c)
theorem b8_arg12 : W8 m ρ c (Proc.devRef .tc main_arg12) = m ((c : Thread nD τ).loc main_arg12) :=
  (W8_of_ne m ρ c main_arg12 (by decide)).trans (b7_arg12 m ρ c)
theorem b8_v72 : W8 m ρ c (Proc.devRef .tc main_v72) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W8_arr m ρ c 3).trans (Cert.KernelIdeal.Stage4.final (V7 m ρ) c)).trans ?_
  show scaledProduct (W7 m ρ c (Proc.devRef .tc main_v71)) (W7 m ρ c (Proc.devRef .tc main_v34)) (W7 m ρ c (Proc.devRef .tc main_arg10)) = _
  rw [b7_v71 m ρ c, b7_v34 m ρ c, b7_arg10 m ρ c]
  exact (Cert.ReferenceIdeal.Stages.stage4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm
theorem b8_arg11 : W8 m ρ c (Proc.devRef .tc main_arg11) = m ((c : Thread nD τ).loc main_arg11) :=
  (W8_of_ne m ρ c main_arg11 (by decide)).trans (b7_arg11 m ρ c)

/-! ## Boundary 9: after the host stretch `hostOps5` -/
theorem b9_arg2 : W9 m ρ c (Proc.devRef .tc main_arg2) = m ((c : Thread nD τ).loc main_arg2) := by
  show StableHlo.after hostOps5 (W8 m ρ c) (Proc.devRef .tc main_arg2) = _
  after_results_simp
  exact b8_arg2 m ρ c
theorem b9_arg3 : W9 m ρ c (Proc.devRef .tc main_arg3) = m ((c : Thread nD τ).loc main_arg3) := by
  show StableHlo.after hostOps5 (W8 m ρ c) (Proc.devRef .tc main_arg3) = _
  after_results_simp
  exact b8_arg3 m ρ c
theorem b9_arg14 : W9 m ρ c (Proc.devRef .tc main_arg14) = m ((c : Thread nD τ).loc main_arg14) := by
  show StableHlo.after hostOps5 (W8 m ρ c) (Proc.devRef .tc main_arg14) = _
  after_results_simp
  exact b8_arg14 m ρ c
theorem b9_arg15 : W9 m ρ c (Proc.devRef .tc main_arg15) = m ((c : Thread nD τ).loc main_arg15) := by
  show StableHlo.after hostOps5 (W8 m ρ c) (Proc.devRef .tc main_arg15) = _
  after_results_simp
  exact b8_arg15 m ρ c
theorem b9_v41 : W9 m ρ c (Proc.devRef .tc main_v41) = val_main_v41 (F := Ideal) (m ((c : Thread nD τ).loc main_arg3)) := by
  show StableHlo.after hostOps5 (W8 m ρ c) (Proc.devRef .tc main_v41) = _
  after_results_simp
  exact b8_v41 m ρ c
theorem b9_arg13 : W9 m ρ c (Proc.devRef .tc main_arg13) = m ((c : Thread nD τ).loc main_arg13) := by
  show StableHlo.after hostOps5 (W8 m ρ c) (Proc.devRef .tc main_arg13) = _
  after_results_simp
  exact b8_arg13 m ρ c
theorem b9_v34 : W9 m ρ c (Proc.devRef .tc main_v34) = val_main_v34 (F := Ideal) (m ((c : Thread nD τ).loc main_arg2)) := by
  show StableHlo.after hostOps5 (W8 m ρ c) (Proc.devRef .tc main_v34) = _
  after_results_simp
  exact b8_v34 m ρ c
theorem b9_arg12 : W9 m ρ c (Proc.devRef .tc main_arg12) = m ((c : Thread nD τ).loc main_arg12) := by
  show StableHlo.after hostOps5 (W8 m ρ c) (Proc.devRef .tc main_arg12) = _
  after_results_simp
  exact b8_arg12 m ρ c
theorem b9_v82 : W9 m ρ c (Proc.devRef .tc main_v82) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps5 (W8 m ρ c) (Proc.devRef .tc main_v82) = _
  after_results_simp
  rw [b8_arg3 m ρ c, b8_v72 m ρ c, b8_arg2 m ρ c]
  rfl
theorem b9_v83 : W9 m ρ c (Proc.devRef .tc main_v83) = shapeCast S1x128 (m ((c : Thread nD τ).loc main_arg11)) shapeCasts_S128_S1x128 := by
  show StableHlo.after hostOps5 (W8 m ρ c) (Proc.devRef .tc main_v83) = _
  after_results_simp
  rw [b8_arg11 m ρ c]
  rfl

/-! ## Boundary 10: after region 5 -/
theorem b10_arg2 : W10 m ρ c (Proc.devRef .tc main_arg2) = m ((c : Thread nD τ).loc main_arg2) :=
  (W10_of_ne m ρ c main_arg2 (by decide)).trans (b9_arg2 m ρ c)
theorem b10_arg3 : W10 m ρ c (Proc.devRef .tc main_arg3) = m ((c : Thread nD τ).loc main_arg3) :=
  (W10_of_ne m ρ c main_arg3 (by decide)).trans (b9_arg3 m ρ c)
theorem b10_arg14 : W10 m ρ c (Proc.devRef .tc main_arg14) = m ((c : Thread nD τ).loc main_arg14) :=
  (W10_of_ne m ρ c main_arg14 (by decide)).trans (b9_arg14 m ρ c)
theorem b10_arg15 : W10 m ρ c (Proc.devRef .tc main_arg15) = m ((c : Thread nD τ).loc main_arg15) :=
  (W10_of_ne m ρ c main_arg15 (by decide)).trans (b9_arg15 m ρ c)
theorem b10_v41 : W10 m ρ c (Proc.devRef .tc main_v41) = val_main_v41 (F := Ideal) (m ((c : Thread nD τ).loc main_arg3)) :=
  ((W10_arr m ρ c 1).trans (((dat5 (V9 m ρ) c).arrAt_in 1 rfl _).trans (A_eq5 (V9 m ρ) c 1))).trans (b9_v41 m ρ c)
theorem b10_arg13 : W10 m ρ c (Proc.devRef .tc main_arg13) = m ((c : Thread nD τ).loc main_arg13) :=
  (W10_of_ne m ρ c main_arg13 (by decide)).trans (b9_arg13 m ρ c)
theorem b10_v84 : W10 m ρ c (Proc.devRef .tc main_v84) = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W10_arr m ρ c 3).trans (Cert.KernelIdeal.Stage5.final (V9 m ρ) c)).trans ?_
  show scaleShiftRelu (W9 m ρ c (Proc.devRef .tc main_v82)) (W9 m ρ c (Proc.devRef .tc main_v41)) (W9 m ρ c (Proc.devRef .tc main_v83)) = _
  rw [b9_v82 m ρ c, b9_v41 m ρ c, b9_v83 m ρ c]
  exact (Cert.ReferenceIdeal.Stages.stage5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) shapeCasts_S128_S1x128).symm
theorem b10_v34 : W10 m ρ c (Proc.devRef .tc main_v34) = val_main_v34 (F := Ideal) (m ((c : Thread nD τ).loc main_arg2)) :=
  (W10_of_ne m ρ c main_v34 (by decide)).trans (b9_v34 m ρ c)
theorem b10_arg12 : W10 m ρ c (Proc.devRef .tc main_arg12) = m ((c : Thread nD τ).loc main_arg12) :=
  (W10_of_ne m ρ c main_arg12 (by decide)).trans (b9_arg12 m ρ c)

/-! ## Boundary 11: after region 6 -/
theorem b11_arg2 : W11 m ρ c (Proc.devRef .tc main_arg2) = m ((c : Thread nD τ).loc main_arg2) :=
  (W11_of_ne m ρ c main_arg2 (by decide)).trans (b10_arg2 m ρ c)
theorem b11_arg3 : W11 m ρ c (Proc.devRef .tc main_arg3) = m ((c : Thread nD τ).loc main_arg3) :=
  (W11_of_ne m ρ c main_arg3 (by decide)).trans (b10_arg3 m ρ c)
theorem b11_arg14 : W11 m ρ c (Proc.devRef .tc main_arg14) = m ((c : Thread nD τ).loc main_arg14) :=
  (W11_of_ne m ρ c main_arg14 (by decide)).trans (b10_arg14 m ρ c)
theorem b11_arg15 : W11 m ρ c (Proc.devRef .tc main_arg15) = m ((c : Thread nD τ).loc main_arg15) :=
  (W11_of_ne m ρ c main_arg15 (by decide)).trans (b10_arg15 m ρ c)
theorem b11_v41 : W11 m ρ c (Proc.devRef .tc main_v41) = val_main_v41 (F := Ideal) (m ((c : Thread nD τ).loc main_arg3)) :=
  (W11_of_ne m ρ c main_v41 (by decide)).trans (b10_v41 m ρ c)
theorem b11_v85 : W11 m ρ c (Proc.devRef .tc main_v85) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W11_arr m ρ c 3).trans (Cert.KernelIdeal.Stage6.final (V10 m ρ) c)).trans ?_
  show scaledProduct (W10 m ρ c (Proc.devRef .tc main_v84)) (W10 m ρ c (Proc.devRef .tc main_v34)) (W10 m ρ c (Proc.devRef .tc main_arg12)) = _
  rw [b10_v84 m ρ c, b10_v34 m ρ c, b10_arg12 m ρ c]
  exact (Cert.ReferenceIdeal.Stages.stage6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm
theorem b11_arg13 : W11 m ρ c (Proc.devRef .tc main_arg13) = m ((c : Thread nD τ).loc main_arg13) :=
  (W11_of_ne m ρ c main_arg13 (by decide)).trans (b10_arg13 m ρ c)

/-! ## Boundary 12: after the host stretch `hostOps7` -/
theorem b12_arg2 : W12 m ρ c (Proc.devRef .tc main_arg2) = m ((c : Thread nD τ).loc main_arg2) := by
  show StableHlo.after hostOps7 (W11 m ρ c) (Proc.devRef .tc main_arg2) = _
  after_results_simp
  exact b11_arg2 m ρ c
theorem b12_arg3 : W12 m ρ c (Proc.devRef .tc main_arg3) = m ((c : Thread nD τ).loc main_arg3) := by
  show StableHlo.after hostOps7 (W11 m ρ c) (Proc.devRef .tc main_arg3) = _
  after_results_simp
  exact b11_arg3 m ρ c
theorem b12_arg14 : W12 m ρ c (Proc.devRef .tc main_arg14) = m ((c : Thread nD τ).loc main_arg14) := by
  show StableHlo.after hostOps7 (W11 m ρ c) (Proc.devRef .tc main_arg14) = _
  after_results_simp
  exact b11_arg14 m ρ c
theorem b12_arg15 : W12 m ρ c (Proc.devRef .tc main_arg15) = m ((c : Thread nD τ).loc main_arg15) := by
  show StableHlo.after hostOps7 (W11 m ρ c) (Proc.devRef .tc main_arg15) = _
  after_results_simp
  exact b11_arg15 m ρ c
theorem b12_v95 : W12 m ρ c (Proc.devRef .tc main_v95) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps7 (W11 m ρ c) (Proc.devRef .tc main_v95) = _
  after_results_simp
  rw [b11_arg3 m ρ c, b11_v85 m ρ c, b11_arg2 m ρ c]
  rfl
theorem b12_v41 : W12 m ρ c (Proc.devRef .tc main_v41) = val_main_v41 (F := Ideal) (m ((c : Thread nD τ).loc main_arg3)) := by
  show StableHlo.after hostOps7 (W11 m ρ c) (Proc.devRef .tc main_v41) = _
  after_results_simp
  exact b11_v41 m ρ c
theorem b12_v96 : W12 m ρ c (Proc.devRef .tc main_v96) = shapeCast S1x128 (m ((c : Thread nD τ).loc main_arg13)) shapeCasts_S128_S1x128 := by
  show StableHlo.after hostOps7 (W11 m ρ c) (Proc.devRef .tc main_v96) = _
  after_results_simp
  rw [b11_arg13 m ρ c]
  rfl

/-! ## Boundary 13: after region 7 -/
theorem b13_v97 : W13 m ρ c (Proc.devRef .tc main_v97) = val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W13_arr m ρ c 3).trans (Cert.KernelIdeal.Stage7.final (V12 m ρ) c)).trans ?_
  show scaleShiftRelu (W12 m ρ c (Proc.devRef .tc main_v95)) (W12 m ρ c (Proc.devRef .tc main_v41)) (W12 m ρ c (Proc.devRef .tc main_v96)) = _
  rw [b12_v95 m ρ c, b12_v41 m ρ c, b12_v96 m ρ c]
  exact (Cert.ReferenceIdeal.Stages.stage7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) shapeCasts_S128_S1x128).symm
theorem b13_arg2 : W13 m ρ c (Proc.devRef .tc main_arg2) = m ((c : Thread nD τ).loc main_arg2) :=
  (W13_of_ne m ρ c main_arg2 (by decide)).trans (b12_arg2 m ρ c)
theorem b13_arg3 : W13 m ρ c (Proc.devRef .tc main_arg3) = m ((c : Thread nD τ).loc main_arg3) :=
  (W13_of_ne m ρ c main_arg3 (by decide)).trans (b12_arg3 m ρ c)
theorem b13_arg14 : W13 m ρ c (Proc.devRef .tc main_arg14) = m ((c : Thread nD τ).loc main_arg14) :=
  (W13_of_ne m ρ c main_arg14 (by decide)).trans (b12_arg14 m ρ c)
theorem b13_arg15 : W13 m ρ c (Proc.devRef .tc main_arg15) = m ((c : Thread nD τ).loc main_arg15) :=
  (W13_of_ne m ρ c main_arg15 (by decide)).trans (b12_arg15 m ρ c)

/-! ## Boundary 14: after the host stretch `hostOps8` -/
theorem b14_v104 : W14 m ρ c (Proc.devRef .tc main_v104) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps8 (W13 m ρ c) (Proc.devRef .tc main_v104) = _
  after_results_simp
  rw [b13_v97 m ρ c, b13_arg2 m ρ c]
  rfl
theorem b14_v111 : W14 m ρ c (Proc.devRef .tc main_v111) = val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps8 (W13 m ρ c) (Proc.devRef .tc main_v111) = _
  after_results_simp
  rw [b13_v97 m ρ c, b13_arg3 m ρ c]
  rfl
theorem b14_v112 : W14 m ρ c (Proc.devRef .tc main_v112) = val_main_v128 (F := Ideal) (m ((c : Thread nD τ).loc main_arg14)) := by
  show StableHlo.after hostOps8 (W13 m ρ c) (Proc.devRef .tc main_v112) = _
  after_results_simp
  rw [b13_arg14 m ρ c]
  rfl
theorem b14_v113 : W14 m ρ c (Proc.devRef .tc main_v113) = val_main_v137 (F := Ideal) (m ((c : Thread nD τ).loc main_arg14)) := by
  show StableHlo.after hostOps8 (W13 m ρ c) (Proc.devRef .tc main_v113) = _
  after_results_simp
  rw [b13_arg14 m ρ c]
  rfl
theorem b14_v114 : W14 m ρ c (Proc.devRef .tc main_v114) = shapeCast S1x16 (m ((c : Thread nD τ).loc main_arg15)) shapeCasts_S16_S1x16 := by
  show StableHlo.after hostOps8 (W13 m ρ c) (Proc.devRef .tc main_v114) = _
  after_results_simp
  rw [b13_arg15 m ρ c]
  rfl

/-! ## Boundary 15: after region 8 -/
theorem b15_v115 : W15 m ρ c (Proc.devRef .tc main_v115) = val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine ((W15_arr m ρ c 5).trans (Cert.KernelIdeal.Stage8.final (V14 m ρ) c)).trans ?_
  show pairScore (W14 m ρ c (Proc.devRef .tc main_v104)) (W14 m ρ c (Proc.devRef .tc main_v111)) (W14 m ρ c (Proc.devRef .tc main_v112)) (W14 m ρ c (Proc.devRef .tc main_v113)) (W14 m ρ c (Proc.devRef .tc main_v114)) = _
  rw [b14_v104 m ρ c, b14_v111 m ρ c, b14_v112 m ρ c, b14_v113 m ρ c, b14_v114 m ρ c]
  exact (Cert.ReferenceIdeal.Stages.stage8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) shapeCasts_S16_S1x16).symm

/-- THE RESULT: after the last region the result buffer holds the reference's result value of the arguments. -/
theorem result_eq : W15 m ρ c (Proc.devRef .tc main_v115) = val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := b15_v115 m ρ c

end Cert.KernelIdeal.Chain

end
-- ==== Proof.lean ====
/-
  A four-layer graph network with an edge-score head, on a device and on the host: the two programs compute one
  function of the arguments over the extended reals.

  Both programs share the sparse part word for word — the weighted and unweighted degree sums (scatter-adds), the
  edge normalisation, the row gathers at the edge endpoints and the scatter-adds back to the nodes — and differ
  only in where the DENSE stages run: the device program computes each of its nine dense stages (the input
  projection; the first layer's rectified affine map; for each of three further layers a projection of rows scaled
  by the source-degree factor and a rectified combination scaled by the target-degree factor; the edge score) in a
  grid of row blocks, the reference by whole-array host operations. A row of a dense stage's output reads only the
  same row of its row-indexed operands, so the blocks are restrictions of one whole-array function (Stage0 … Stage8),
  and that function is the reference's stage entry by entry (RefStages): a product into a zero accumulator and a
  product with none are the same sum, a change of float format is the identity, and the bias row is the bias vector
  viewed as one row. Chaining the segments (Chain) the device's result array is the reference's result value of the
  same arguments. No algebraic law beyond these readings is needed, and finiteness of the inputs is not used.

  The frames of the two device programs are the generated ones; the reference's frame is its generated run with the
  result dropped; the idealization rewrote nothing, so it preserves the program trivially.
-/
import proofs.«172988_j3350074491436_1_alg».proof.Defs
import proofs.«172988_j3350074491436_1_alg».proof.Proof.Gen.Kernel
import proofs.«172988_j3350074491436_1_alg».proof.Proof.Gen.Kernel.Skeleton
import proofs.«172988_j3350074491436_1_alg».proof.Proof.Gen.Kernel.Launch
import proofs.«172988_j3350074491436_1_alg».proof.Proof.Gen.Kernel.Points
import proofs.«172988_j3350074491436_1_alg».proof.Proof.Gen.Kernel.Frame
import proofs.«172988_j3350074491436_1_alg».proof.Proof.Gen.KernelIdeal
import proofs.«172988_j3350074491436_1_alg».proof.Proof.Gen.KernelIdeal.Skeleton
import proofs.«172988_j3350074491436_1_alg».proof.Proof.Gen.KernelIdeal.Launch
import proofs.«172988_j3350074491436_1_alg».proof.Proof.Gen.KernelIdeal.Points
import proofs.«172988_j3350074491436_1_alg».proof.Proof.Gen.KernelIdeal.Frame
import proofs.«172988_j3350074491436_1_alg».proof.Proof.Gen.ReferenceIdeal
import proofs.«172988_j3350074491436_1_alg».proof.Proof.Gen.Pre_finite_inputs
import proofs.«172988_j3350074491436_1_alg».proof.Proof.Gen.ReferenceIdeal.Run
import proofs.«172988_j3350074491436_1_alg».proof.Proof.Gen.ReferenceIdeal.Read
import proofs.«172988_j3350074491436_1_alg».proof.Proof.KernelRun
import proofs.«172988_j3350074491436_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal :=
  fun m ρ _ => (θ_run Cert.ReferenceIdeal.defs _ _).mono (fun _ h c => (h c).2) (Cert.ReferenceIdeal.Value.run (F := Ideal) m ρ)

/-- From memories that agree on the arguments both programs end with the result array at the reference's result
    value of the device program's arguments. -/
theorem algebraic :
    Cert.algebraic_KernelIdeal_ReferenceIdeal := by
  intro m ρ m' ρ' _ hagree
  refine ⟨fun c => Cert.ReferenceIdeal.Read.val_main_v142 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.result_eq m ρ c), (h c).2⟩)
      (Cert.KernelIdeal.Whole.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v142_eq m' c, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
